-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_d" .f32 0x3DB504F3#32 ((1048576 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2x2048x2048 .f32) (main_arg1 : FVec F S6144x2048 .f32) (main_arg2 : FVec F S6144 .f32) (main_arg3 : FVec F S2048x2048 .f32) (main_arg4 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S4096x2048 : Shape := ⟨2, ![4096, 2048]⟩
abbrev S1x6144 : Shape := ⟨2, ![1, 6144]⟩
abbrev S1x2048 : Shape := ⟨2, ![1, 2048]⟩
abbrev S4096x6144 : Shape := ⟨2, ![4096, 6144]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 15
  | .vmem => 27
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S1x6144, .f32⟩
  | .hbm, ⟨7, _⟩ => ⟨S1x2048, .f32⟩
  | .hbm, ⟨8, _⟩ => ⟨S4096x2048, .bf16⟩
  | .hbm, ⟨9, _⟩ => ⟨S6144x2048, .bf16⟩
  | .hbm, ⟨10, _⟩ => ⟨S2048x2048, .bf16⟩
  | .hbm, ⟨11, _⟩ => ⟨S4096x6144, .bf16⟩
  | .hbm, ⟨12, _⟩ => ⟨S4096x2048, .bf16⟩
  | .hbm, ⟨13, _⟩ => ⟨S4096x2048, .f32⟩
  | .hbm, ⟨14, _⟩ => ⟨S2x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x1, .f32⟩
  | .local _ .vmem, ⟨17, _⟩ => ⟨S512x1, .f32⟩
  | .local _ .vmem, ⟨18, _⟩ => ⟨S512x128, .f32⟩
  | .local _ .vmem, ⟨19, _⟩ => ⟨S1024x2048, .bf16⟩
  | .local _ .vmem, ⟨20, _⟩ => ⟨S1024x2048, .bf16⟩
  | .local _ .vmem, ⟨21, _⟩ => ⟨S512x2048, .bf16⟩
  | .local _ .vmem, ⟨22, _⟩ => ⟨S512x2048, .bf16⟩
  | .local _ .vmem, ⟨23, _⟩ => ⟨S1x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![32, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v16 c4_i32
  let v28 : BitVec 32 := Scalar.addi v27 arg1
  let c0_i32_10 : BitVec 32 := 0#32
  ![v28.toNat, v26.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.minsi arg2 arg1
  let c4_i32 : BitVec 32 := 4#32
  let v28 : BitVec 32 := Scalar.muli v16 c4_i32
  let v29 : BitVec 32 := Scalar.addi v28 v27
  let c16_i32_10 : BitVec 32 := 16#32
  let v30 : BitVec 32 := Scalar.addi c16_i32_10 v26
  let c0_i32_11 : BitVec 32 := 0#32
  ![v29.toNat, v30.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.minsi arg2 arg1
  let c4_i32 : BitVec 32 := 4#32
  let v28 : BitVec 32 := Scalar.muli v16 c4_i32
  let v29 : BitVec 32 := Scalar.addi v28 v27
  let c32_i32 : BitVec 32 := 32#32
  let v30 : BitVec 32 := Scalar.addi c32_i32 v26
  let c0_i32_10 : BitVec 32 := 0#32
  ![v29.toNat, v30.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v16 c4_i32
  let v28 : BitVec 32 := Scalar.addi v27 arg1
  let c0_i32_10 : BitVec 32 := 0#32
  ![v28.toNat, v26.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x2048_S4096x2048 : S2x2048x2048.ShapeCasts S4096x2048
  shapeCasts_S6144_S1x6144 : S6144.ShapeCasts S1x6144
  shapeCasts_S2048_S1x2048 : S2048.ShapeCasts S1x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  packedbf16_S512x128_S512x128_0_0 : (Rect.unit (s := S512x128) ![0, 0] S512x128.size inb_S512x128_S512x128_0_0).PackedRows (EltTy.packing .bf16)
  shapeCasts_S4096x2048_S2x2048x2048 : S4096x2048.ShapeCasts S2x2048x2048
  dot_S1024x2048_S512x2048_S1024x512_1_1_0_0_n_n_wf : DotDims.WF S1024x2048 S512x2048 S1024x512 [1] [1] [0] [0] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S6144x2048.size a
  hwx0_1 : ∀ i : grid0.Coords, EltTy.bits .bf16 = 32 ∨ (Rect.block (s := S6144x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x6144.size a
  hwx0_3 : ∀ i : grid0.Coords, EltTy.bits .bf16 = 32 ∨ (Rect.block (s := S4096x6144) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x6144.size a
  hwx1_0 : ∀ i : grid1.Coords, EltTy.bits .bf16 = 32 ∨ (Rect.block (s := S4096x6144) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x6144.size a
  hwx1_1 : ∀ i : grid1.Coords, EltTy.bits .bf16 = 32 ∨ (Rect.block (s := S4096x6144) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x6144.size a
  hwx1_2 : ∀ i : grid1.Coords, EltTy.bits .bf16 = 32 ∨ (Rect.block (s := S4096x6144) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x2048.size a
  hwx1_3 : ∀ i : grid1.Coords, EltTy.bits .bf16 = 32 ∨ (Rect.block (s := S4096x2048) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .bf16 = 32 ∨ (Rect.block (s := S4096x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x2048.size a
  hwx2_3 : ∀ i : grid2.Coords, EltTy.bits .f32 = 32 ∨ (Rect.block (s := S4096x2048) S1024x512.size (cc2_transform_3 i) (hinb2_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v3) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v7) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2048x2048 : Shape := ⟨2, ![2048, 2048]⟩
abbrev S2048 : Shape := ⟨1, ![2048]⟩
abbrev S2x2048x6144 : Shape := ⟨3, ![2, 2048, 6144]⟩
abbrev S1x1x6144 : Shape := ⟨3, ![1, 1, 6144]⟩
abbrev S2x2048x3x16x128 : Shape := ⟨5, ![2, 2048, 3, 16, 128]⟩
abbrev S2x2048x1x16x128 : Shape := ⟨5, ![2, 2048, 1, 16, 128]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2x2048x6144, .f32⟩
  | .hbm, ⟨6, _⟩ => ⟨S1x1x6144, .f32⟩
  | .hbm, ⟨7, _⟩ => ⟨S2x2048x6144, .f32⟩
  | .hbm, ⟨8, _⟩ => ⟨S2x2048x6144, .f32⟩
  | .hbm, ⟨9, _⟩ => ⟨S2x2048x3x16x128, .f32⟩
  | .hbm, ⟨10, _⟩ => ⟨S2x2048x1x16x128, .f32⟩
  | .hbm, ⟨11, _⟩ => ⟨S2x2048x16x128, .f32⟩
  | .hbm, ⟨12, _⟩ => ⟨S2x16x2048x128, .f32⟩
  | .hbm, ⟨13, _⟩ => ⟨S2x2048x1x16x128, .f32⟩
  | .hbm, ⟨14, _⟩ => ⟨S2x2048x16x128, .f32⟩
  | .hbm, ⟨15, _⟩ => ⟨S2x16x2048x128, .f32⟩
  | .hbm, ⟨16, _⟩ => ⟨S2x2048x1x16x128, .f32⟩
  | .hbm, ⟨17, _⟩ => ⟨S2x2048x16x128, .f32⟩
  | .hbm, ⟨18, _⟩ => ⟨S2x16x2048x128, .f32⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2048x2048, .f32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S1x1x2048x2048, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048, .f32⟩
  | .hbm, ⟨39, _⟩ => ⟨S_, .f32⟩
  | .hbm, ⟨40, _⟩ => ⟨S2x16x2048, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x128, .f32⟩
  | .hbm, ⟨52, _⟩ => ⟨S2x2048x16x128, .f32⟩
  | .hbm, ⟨53, _⟩ => ⟨S2x2048x2048, .f32⟩
  | .hbm, ⟨54, _⟩ => ⟨S2x2048x2048, .f32⟩
  | .hbm, ⟨55, _⟩ => ⟨S1x1x2048, .f32⟩
  | .hbm, ⟨56, _⟩ => ⟨S2x2048x2048, .f32⟩
  | .hbm, ⟨57, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  shapeCasts_S2x2048x6144_S2x2048x3x16x128 : S2x2048x6144.ShapeCasts S2x2048x3x16x128
  slices_S2x2048x3x16x128_S2x2048x1x16x128_0_0_0_0_0 : S2x2048x3x16x128.Slices ![0, 0, 0, 0, 0] S2x2048x1x16x128
  shapeCasts_S2x2048x1x16x128_S2x2048x16x128 : S2x2048x1x16x128.ShapeCasts S2x2048x16x128
  transposes_S2x2048x16x128_S2x16x2048x128_0_2_1_3 : S2x2048x16x128.Transposes [0, 2, 1, 3] S2x16x2048x128
  slices_S2x2048x3x16x128_S2x2048x1x16x128_0_0_1_0_0 : S2x2048x3x16x128.Slices ![0, 0, 1, 0, 0] S2x2048x1x16x128
  slices_S2x2048x3x16x128_S2x2048x1x16x128_0_0_2_0_0 : S2x2048x3x16x128.Slices ![0, 0, 2, 0, 0] S2x2048x1x16x128
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.FlashState.lean ====
/-
  The attention kernel's carried state, as pure functions of the blocks it reads.

  One grid point `(bh, qi, kv)` of the attention region handles a block of 512 query rows (block
  `qi`) of one head against one block of 512 key and value rows (block `kv`).  Between points it
  keeps, per query row, the largest score seen so far `m`, the sum `l` of `exp (score − m)` over the
  keys seen so far, and per output column the sum `acc` of `exp (score − m) · value`.

  * At `kv = 0` the state is reset: `m = −∞`, `l = 0`, `acc = 0`.
  * At `kv ≤ qi` (a key block not wholly above the diagonal) the state is advanced by the block:
    the maximum is raised, the two sums are rescaled by `exp (m_old − m_new)` and the block's terms
    are added.  Every quantity of the update is computed from the OLD maximum, denominator and sum.
  * Key blocks above the diagonal (`kv > qi`) leave the state alone.
  * At the last key block the output block is `acc / l`.
-/
import proofs.«146706_j7413113552965_2_alg».proof.Proof.Gen.KernelIdeal.Skeleton
import proofs.«146706_j7413113552965_2_alg».proof.Proof.Gen.KernelIdeal.Launch
import proofs.«146706_j7413113552965_2_alg».proof.Proof.Gen.KernelIdeal.Points
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F] [Named F]

/-- Running maximum, running denominator and running weighted sum of one block of 512 query rows. -/
abbrev St (F : FTy → Type) [FloatOps F] : Type :=
  Vec F S512x1 .f32 × Vec F S512x1 .f32 × Vec F S512x128 .f32

/-- The state a row block starts from: maximum `−∞`, both sums `0`. -/
def stInit : St F := (k1_pay1 (F := F), k1_pay2 (F := F), k1_pay3 (F := F))

/-- The state after one block of keys `k` and values `v` is folded in against the queries `q`, at
    query block `a1` and key block `a2` (which decide the mask). -/
def stUpd (a1 a2 : BitVec 32) (q k v : Vec F S512x128 .bf16) (s : St F) : St F :=
  (k1_pay5 (k1_pay8 a1 a2 q k s.1),
   k1_pay11 a1 a2 q k s.1 s.2.1,
   k1_pay4 (k1_pay9 a1 a2 q k s.1) (k1_pay12 a1 a2 q k s.1 v) s.2.2)

/-- The output block: the weighted sum over the denominator. -/
def stOut (s : St F) : Vec F S512x128 .bf16 := k1_pay6 s.2.2 s.2.1

/-- One grid point `i = (bh, qi, kv)` on the state: reset at the first key block, then the block
    folded in unless it lies wholly above the diagonal. -/
def stStep (i : grid1.Coords) (q k v : Vec F S512x128 .bf16) (s : St F) : St F :=
  let s0 : St F := if (i 2).val = 0 then stInit else s
  if (i 2).val ≤ (i 1).val then
    stUpd (BitVec.ofNat 32 (i 1).val) (BitVec.ofNat 32 (i 2).val) q k v s0
  else s0

variable (V : (c : Dev nD) → (b : Ref sig .tc) → Buf (Elt F) ((c : Thread nD τ).loc b))

/-- Window `w`'s block at point `t` of the attention region, read off its array as the region finds
    it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The carried state after the first `n` grid points. -/
def scAt1 (c : Dev nD) : (n : ℕ) → n ≤ cfg1.N → St F
  | 0, _ => stInit
  | n + 1, h =>
    stStep (grid1.coords ⟨n, h⟩) (iblk1 V c 0 ⟨n, h⟩) (iblk1 V c 1 ⟨n, h⟩) (iblk1 V c 2 ⟨n, h⟩)
      (scAt1 c n (Nat.le_of_succ_le h))

theorem scAt1_zero (c : Dev nD) (h : 0 ≤ cfg1.N) : scAt1 V c 0 h = stInit := rfl

theorem scAt1_succ (c : Dev nD) (n : ℕ) (h : n + 1 ≤ cfg1.N) :
    scAt1 V c (n + 1) h
      = stStep (grid1.coords ⟨n, h⟩) (iblk1 V c 0 ⟨n, h⟩) (iblk1 V c 1 ⟨n, h⟩) (iblk1 V c 2 ⟨n, h⟩)
          (scAt1 V c n (Nat.le_of_succ_le h)) := rfl

end Cert.KernelIdeal.Hand

end
-- ==== Proof.Lin0.lean ====
import proofs.«146706_j7413113552965_2_alg».proof.Proof.Gen.KernelIdeal.Launch
import proofs.«146706_j7413113552965_2_alg».proof.Proof.Gen.KernelIdeal.Skeleton
import proofs.«146706_j7413113552965_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first matrix product (the fused q/k/v projection), one grid point at a time

The first launch computes, block by block, the product of the activations with the transposed
projection weights, plus the bias row.  A grid point `(i, j)` sees a 1024-row slab of the
activations, a 512-row slab of the weights and the matching 512 bias entries, and produces the
1024 × 512 tile of the result.  This module records what one such point does to the tile's
buffer, for ANY contents `V` of the arrays when the launch begins: the three inputs are left as
they were, and the tile is overwritten by the product-plus-bias of the three slabs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The slabs a grid point sees -/

/-- The block of window `w` at grid point `t`, cut out of the array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds that window's block at every point, whether the block was
    brought in at this very point or is still there from an earlier one (the activations' slab is
    brought in once per row of the grid and then reused): the body never changes it.  Stated for
    any proof data over the arrays `V` whose body leaves the block in place; first the
    activations' slab, -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- then the weights' slab, -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- then the bias entries. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body writes -/

/-- The whole 1024 × 512 tile as one rectangle: the body's single store goes through it. -/
abbrev tile0 : Rect S1024x512 := Rect.unit (s := S1024x512) ![0, 0] S1024x512.size inb_S1024x512_S1024x512_0_0
abbrev slabA0 : Rect S1024x2048 := Rect.unit (s := S1024x2048) ![0, 0] S1024x2048.size inb_S1024x2048_S1024x2048_0_0
abbrev slabB0 : Rect S512x2048 := Rect.unit (s := S512x2048) ![0, 0] S512x2048.size inb_S512x2048_S512x2048_0_0
abbrev bias0 : Rect S1x512 := Rect.unit (s := S1x512) ![0, 0] S1x512.size inb_S1x512_S1x512_0_0

/-- The tile's buffer after the body, as a function of the three slabs: one piece, the whole
    tile, holding the product of the two slabs (rows against rows) plus the bias row. -/
def out0_3 (x0 : Vec F S1024x2048 .bf16) (x1 : Vec F S512x2048 .bf16) (x2 : Vec F S1x512 .f32) : Vec F S1024x512 .bf16 :=
  View.canon [⟨tile0, k0_pay1 (View.ld x0 slabA0) (View.ld x1 slabB0) (View.ld x2 bias0)⟩]

/-- The single piece covers the tile. -/
theorem cover0_3 (p0 : Vec F S1024x512 .bf16) (y : S1024x512.Idx) :
    ∃ pc ∈ ([⟨tile0, p0⟩] : List (View.Piece (Elt F) S1024x512 .bf16)), y ∈ pc.1.set :=
  View.cover_of_tiled [⟨tile0, p0⟩] S1024x512.size (by rfl) y

/-! ## The body's triple -/

set_option maxHeartbeats 1000000 in
/-- The body, run on whole buffers: the three inputs' at known contents, the tile's at anything.
    It reads the three inputs, reads the tile once without using what it read, and stores the
    product-plus-bias through the whole tile.  So it ends with the inputs as they were and the
    tile at `out0_3` of the inputs. -/
theorem sound_kernel0 (c : Dev nD) (E : Set ℕ) (i : grid0.Coords)
    (arg2 : Memref sig .tc .vmem S1024x2048 .bf16) (harg2 : arg2.IsWhole)
    (arg3 : Memref sig .tc .vmem S512x2048 .bf16) (harg3 : arg3.IsWhole)
    (arg4 : Memref sig .tc .vmem S1x512 .f32) (harg4 : arg4.IsWhole)
    (arg5 : Memref sig .tc .vmem S1024x512 .bf16) (harg5 : arg5.IsWhole)
    (x0 : Vec F S1024x2048 .bf16) (x1 : Vec F S512x2048 .bf16) (x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E (cc0_linear_kernel i arg2 harg2 arg3 harg3 arg4 harg4 arg5 harg5) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The proof data of the first launch on core `c`: the arrays as the launch finds them; after
    the body at point `t` each input's buffer still holds its block and the tile's buffer holds
    `out0_3` of the three blocks; the invariant is the plain one (everything the launch does not
    touch stays put); nothing is owed; every share is whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents the launch begins with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is handed at point `t`: the invariant, the debts, and the four buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies;
    the invariant and the debts are not looked at and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Lin2.lean ====
import proofs.«146706_j7413113552965_2_alg».proof.Proof.Gen.KernelIdeal.Launch
import proofs.«146706_j7413113552965_2_alg».proof.Proof.Gen.KernelIdeal.Skeleton
import proofs.«146706_j7413113552965_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The last matrix product (the output projection), one grid point at a time

The third launch computes, block by block, the product of the attention output with the
transposed output-projection weights, plus the bias row.  A grid point `(i, j)` sees a 1024-row
slab of the attention output, a 512-row slab of the weights and the matching 512 bias entries,
and produces the 1024 × 512 tile of the result, this time kept in single precision.  This module
records what one such point does to the tile's buffer, for ANY contents `V` of the arrays when
the launch begins: the three inputs are left as they were, and the tile is overwritten by the
product-plus-bias of the three slabs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The slabs a grid point sees -/

/-- The block of window `w` at grid point `t`, cut out of the array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds that window's block at every point, whether the block was
    brought in at this very point or is still there from an earlier one (the attention output's slab
    is brought in once per row of the grid and then reused): the body never changes it.  Stated for
    any proof data over the arrays `V` whose body leaves the block in place; first the
    attention output's slab, -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- then the weights' slab, -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- then the bias entries. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body writes -/

/-- The whole 1024 × 512 tile as one rectangle: the body's single store goes through it. -/
abbrev tile2 : Rect S1024x512 := Rect.unit (s := S1024x512) ![0, 0] S1024x512.size inb_S1024x512_S1024x512_0_0
abbrev slabA2 : Rect S1024x2048 := Rect.unit (s := S1024x2048) ![0, 0] S1024x2048.size inb_S1024x2048_S1024x2048_0_0
abbrev slabB2 : Rect S512x2048 := Rect.unit (s := S512x2048) ![0, 0] S512x2048.size inb_S512x2048_S512x2048_0_0
abbrev bias2 : Rect S1x512 := Rect.unit (s := S1x512) ![0, 0] S1x512.size inb_S1x512_S1x512_0_0

/-- The tile's buffer after the body, as a function of the three slabs: one piece, the whole
    tile, holding the product of the two slabs (rows against rows) plus the bias row. -/
def out2_3 (x0 : Vec F S1024x2048 .bf16) (x1 : Vec F S512x2048 .bf16) (x2 : Vec F S1x512 .f32) : Vec F S1024x512 .f32 :=
  View.canon [⟨tile2, k2_pay1 (View.ld x0 slabA2) (View.ld x1 slabB2) (View.ld x2 bias2)⟩]

/-- The single piece covers the tile. -/
theorem cover2_3 (p0 : Vec F S1024x512 .f32) (y : S1024x512.Idx) :
    ∃ pc ∈ ([⟨tile2, p0⟩] : List (View.Piece (Elt F) S1024x512 .f32)), y ∈ pc.1.set :=
  View.cover_of_tiled [⟨tile2, p0⟩] S1024x512.size (by rfl) y

/-! ## The body's triple -/

set_option maxHeartbeats 1000000 in
/-- The body, run on whole buffers: the three inputs' at known contents, the tile's at anything.
    It reads the three inputs, reads the tile once without using what it read, and stores the
    product-plus-bias through the whole tile.  So it ends with the inputs as they were and the
    tile at `out2_3` of the inputs. -/
theorem sound_kernel2 (c : Dev nD) (E : Set ℕ) (i : grid2.Coords)
    (arg2 : Memref sig .tc .vmem S1024x2048 .bf16) (harg2 : arg2.IsWhole)
    (arg3 : Memref sig .tc .vmem S512x2048 .bf16) (harg3 : arg3.IsWhole)
    (arg4 : Memref sig .tc .vmem S1x512 .f32) (harg4 : arg4.IsWhole)
    (arg5 : Memref sig .tc .vmem S1024x512 .f32) (harg5 : arg5.IsWhole)
    (x0 : Vec F S1024x2048 .bf16) (x1 : Vec F S512x2048 .bf16) (x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2_3 x0 x1 x2)) -∗ K ⟨⟩))
      ⊢ wp frame (wpE (defs₀ (F := F)) Variants.none c none) E (cc2_linear_kernel i arg2 harg2 arg3 harg3 arg4 harg4 arg5 harg5) K := by
  simp only [cc2_linear_kernel_eq_skeleton]; unfold cc2_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The launch's proof data -/

/-- The proof data of the third launch on core `c`: the arrays as the launch finds them; after
    the body at point `t` each input's buffer still holds its block and the tile's buffer holds
    `out2_3` of the three blocks; the invariant is the plain one (everything the launch does not
    touch stays put); nothing is owed; every share is whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the contents the launch begins with. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is handed at point `t`: the invariant, the debts, and the four buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies;
    the invariant and the debts are not looked at and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FlashRuns.lean ====
/-
  What the five control cases of the attention kernel's body share.

  A grid point `(bh, qi, kv)` takes three decisions: whether to reset the carried state (`kv = 0`),
  whether to fold the key block in (`kv ≤ qi`: the block is not wholly above the diagonal), and
  whether to write the output block (`kv = 3`, the last key block).  Each is a comparison of machine
  words computed from the coordinates; here each is read back as a statement about the coordinates
  themselves, checked at all 512 points of the grid.

  The output window is written only at the last key block; elsewhere the body leaves its buffer as it
  found it, and the buffer is not copied back.

  The three buffers that carry the state between points belong to the kernel, not to any window: they
  are split off from the other buffers the core lends the region.
-/
import proofs.«146706_j7413113552965_2_alg».proof.Proof.FlashState
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-! ## The three decisions, in closed form -/

/-- The reset's condition as the body computes it. -/
abbrev cond1_0 (i : grid1.Coords) : Prop :=
  (Scalar.cmpi .ne (Scalar.extui (Scalar.cmpi .eq (BitVec.ofNat 32 (i 2).val) 0#32)) 0#32) = 1#1
/-- It holds exactly at the first key block. -/
theorem hcond1_0 : ∀ t : Fin cfg1.N, cond1_0 (grid1.coords t) ↔ ((grid1.coords t) 2).val = 0 :=
  (by decide +kernel : ∀ t : Fin grid1.N, cond1_0 (grid1.coords t) ↔ ((grid1.coords t) 2).val = 0)

/-- The update's condition as the body computes it. -/
abbrev cond1_1 (i : grid1.Coords) : Prop :=
  (Scalar.cmpi .ne (Scalar.extui (Scalar.cmpi .sle (BitVec.ofNat 32 (i 2).val) (BitVec.ofNat 32 (i 1).val))) 0#32) = 1#1
/-- It holds exactly when the key block is not past the query block. -/
theorem hcond1_1 : ∀ t : Fin cfg1.N, cond1_1 (grid1.coords t) ↔ ((grid1.coords t) 2).val ≤ ((grid1.coords t) 1).val :=
  (by decide +kernel : ∀ t : Fin grid1.N, cond1_1 (grid1.coords t) ↔ ((grid1.coords t) 2).val ≤ ((grid1.coords t) 1).val)

/-- The output's condition as the body computes it. -/
abbrev cond1_2 (i : grid1.Coords) : Prop := k1_cond3 i = 1#1
/-- It holds exactly at the last key block. -/
theorem hcond1_2 : ∀ t : Fin cfg1.N, cond1_2 (grid1.coords t) ↔ ((grid1.coords t) 2).val = 3 :=
  (by decide +kernel : ∀ t : Fin grid1.N, cond1_2 (grid1.coords t) ↔ ((grid1.coords t) 2).val = 3)

/-- The key-block coordinate is below 4 and the query-block coordinate too. -/
theorem coords_lt (t : Fin cfg1.N) : ((grid1.coords t) 2).val < 4 ∧ ((grid1.coords t) 1).val < 4 :=
  ⟨(grid1.coords t 2).isLt, (grid1.coords t 1).isLt⟩

/-- The point after which the first `n + 1` points are done is point `n`: at the very first point the
    key block is the first one. -/
theorem kv_zero_of_first : ∀ t : Fin cfg1.N, t.val = 0 → ((grid1.coords t) 2).val = 0 :=
  (by decide +kernel : ∀ t : Fin grid1.N, t.val = 0 → ((grid1.coords t) 2).val = 0)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
/-- Off the last key block the output window is idle and is not copied back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The buffers the body is called with -/

abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .bf16 := win1_3.stage (cfg1.slots t 3)
abbrev hs1_3 (t : Fin cfg1.N) : (ms1_3 t).IsWhole := hstage1_3 ((cfg1.slots t 3).cast nbuf1_3)
/-- The carried maximum, denominator and weighted sum: whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2

/-! ## The core's other buffers, with the three carried ones split off -/

/-- Every buffer the core lends the region besides its staging buffers and the three carried ones, at
    some contents each. -/
abbrev restBut1 (c : Dev nD) : sProp 𝕄 :=
  Pipeline.scopedRestBut (Ix := Unit) (Name := ℕ) (U := Pipeline.UD sig nD τ) (Lvl := ℕ) (Val := Elt F) spec1 c
    [cc1_scratch0, cc1_scratch1, cc1_scratch2]

/-- What the region lends the body between points, with the carried buffers named: each of the three at
    some contents, the other buffers, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d)) ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.KernelIdeal.Hand

end
-- ==== Proof.FlashDat.lean ====
/-
  The attention region's proof data: what every buffer holds between grid points.

  The region reads three blocks of one projection array (queries, keys, values) and writes one
  block of the attention output.  Between points the kernel's three own buffers hold the carried
  state — running maximum, running denominator, running weighted sum — after the points done so
  far; the input windows' buffers hold their blocks untouched; the output window's buffer, at a
  point of the last key block, holds the weighted sum over the denominator.

  Before the first point nothing is known of the carried buffers; after any point they hold the
  state named by the recursion over the points.  At the region's end their contents are forgotten
  again.
-/
import proofs.«146706_j7413113552965_2_alg».proof.Proof.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## The invariant between points -/

/-- Before the first point: whatever the region lends.  After `n` points: the three carried buffers
    whole at the state after those points, the other lent buffers at anything, the generator
    register at some state. -/
def PhiS1 (c : Dev nD) : (n : ℕ) → n ≤ cfg1.N → sProp 𝕄
  | 0, _ => Pipeline.ΦA spec1 c
  | n + 1, h =>
    iprop(iprop(iprop(owns (c : Thread nD τ) scM1_0 fullShare (scAt1 V c (n + 1) h).1
        ∗ owns (c : Thread nD τ) scM1_1 fullShare (scAt1 V c (n + 1) h).2.1
        ∗ owns (c : Thread nD τ) scM1_2 fullShare (scAt1 V c (n + 1) h).2.2) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After at least one point: the carried buffers at the tracked state. -/
theorem PhiS1_pos (c : Dev nD) (n : ℕ) (h : n ≤ cfg1.N) (hz : n ≠ 0) :
    PhiS1 V c n h
      = iprop(iprop(iprop(owns (c : Thread nD τ) scM1_0 fullShare (scAt1 V c n h).1
        ∗ owns (c : Thread nD τ) scM1_1 fullShare (scAt1 V c n h).2.1
        ∗ owns (c : Thread nD τ) scM1_2 fullShare (scAt1 V c n h).2.2) ∗ restBut1 c) ∗ (∃ r, prngReg c r)) := by
  cases n with
  | zero => exact absurd rfl hz
  | succ n => rfl

/-- Whatever the number of points done, the invariant yields what the region lends: the tracked
    contents are forgotten. -/
theorem PhiS1_forget (c : Dev nD) (n : ℕ) (h : n ≤ cfg1.N) : PhiS1 V c n h ⊢ Pipeline.ΦA spec1 c := by
  by_cases hz : n = 0
  · rw [PhiS1_zero V c n h hz]
  · rw [PhiS1_pos V c n h hz, PhiA1_eq]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-! ## The proof data -/

/-- The arrays as the region finds them; after the body at point `t` each input buffer at its block
    and the output buffer at the weighted sum over the denominator of the state after the point;
    the invariant above; the projection array's buffer dealt in three shares among the three
    windows that read it; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => stOut (scAt1 V c (t.val + 1) t.isLt)
  Φ t := PhiS1 V c t.val (Nat.le_of_lt_succ t.isLt)
  q := fun
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = stOut (scAt1 V c (t.val + 1) t.isLt) := by dsimp only [dat1]

/-- The invariant at a point's start and end, restated at the number of points done. -/
theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

/-- An input window's buffer holds its block at every point, whether or not the point fetched it:
    unfetched, the block index has not moved. -/
theorem before1_0 (c : Dev nD) (t : Fin cfg1.N) (d) : (dat1 V c).before 0 t d = iblk1 V c 0 t :=
  ((dat1 V c).before_in_eq_fetched 0 rfl liveAt1_0 (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl liveAt1_1 (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl liveAt1_2 (fun _ _ _ => rfl)
      (fun t => by rw [after1_2]; unfold Dat.blockOf iblk1; rw [A_eq1]; try rfl) t d).trans
    (by unfold Dat.fetched Dat.blockOf iblk1; rw [A_eq1]; try rfl)

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact PhiS1_forget V c _ _

end Cert.KernelIdeal.Hand

end
-- ==== Proof.RunData.lean ====
/-
  What each of the three regions finds and leaves, in order.

  The program is a stretch of host operations, three kernel regions, and a last reshape.  Region 0 finds the launch
  contents after the first stretch and leaves, in the projection's array, what its blocks wrote; region 1 finds that
  and leaves the attention array; region 2 finds that and leaves the result's array.  Each region's proof data is
  taken at the contents the region finds, so the three are defined in stages: the contents a region leaves are named
  before the next region's data mention them.  `outs` collects the three arrays into the one family the program's
  contents between its items are written over.
-/
import proofs.«146706_j7413113552965_2_alg».proof.Proof.FlashState
import proofs.«146706_j7413113552965_2_alg».proof.Proof.Lin0
import proofs.«146706_j7413113552965_2_alg».proof.Proof.Lin2
import proofs.«146706_j7413113552965_2_alg».proof.Proof.FlashDat
import proofs.«146706_j7413113552965_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ)

/-- What region 0 finds: the launch contents after the first host stretch. -/
abbrev VA : (c : Dev nD) → (b : Ref sig .tc) → Buf (Elt F) ((c : Thread nD τ).loc b) := fun c b => Gen.V1 m c b
/-- What region 0 leaves in its output array. -/
def o6 (c : Dev nD) : Buf (Elt F) ((c : Thread nD τ).loc main_v6) := (dat0 (VA m) c).arrAt 3 cfg0.N
/-- What region 1 finds. -/
abbrev VB : (c : Dev nD) → (b : Ref sig .tc) → Buf (Elt F) ((c : Thread nD τ).loc b) :=
  fun c b => Function.update (Gen.V1 m c) main_v6 (o6 m c) b
def o7 (c : Dev nD) : Buf (Elt F) ((c : Thread nD τ).loc main_v7) := (dat1 (VB m) c).arrAt 3 cfg1.N
abbrev VC : (c : Dev nD) → (b : Ref sig .tc) → Buf (Elt F) ((c : Thread nD τ).loc b) :=
  fun c b => Function.update (Function.update (Gen.V1 m c) main_v6 (o6 m c)) main_v7 (o7 m c) b
def o8 (c : Dev nD) : Buf (Elt F) ((c : Thread nD τ).loc main_v8) := (dat2 (VC m) c).arrAt 3 cfg2.N

/-- What the three regions leave, as the one family the conditional frame is stated over. -/
def outs : Gen.Outs (F := F) := fun _ r c =>
  if h6 : r = main_v6 then h6 ▸ o6 m c
  else if h7 : r = main_v7 then h7 ▸ o7 m c
  else if h8 : r = main_v8 then h8 ▸ o8 m c
  else m ((c : Thread nD τ).loc r)

theorem outs_v6 (c : Dev nD) : outs m 2 main_v6 c = o6 m c := by unfold outs; rw [dif_pos rfl]
theorem outs_v7 (c : Dev nD) : outs m 3 main_v7 c = o7 m c := by
  unfold outs; rw [dif_neg (by decide), dif_pos rfl]
theorem outs_v8 (c : Dev nD) : outs m 4 main_v8 c = o8 m c := by
  unfold outs; rw [dif_neg (by decide), dif_neg (by decide), dif_pos rfl]

theorem V2_eq (c : Dev nD) (b : Ref sig .tc) : Gen.V2 m (outs m) c b = VB m c b := by
  simp only [Gen.V2, outs_v6]
theorem V3_eq (c : Dev nD) (b : Ref sig .tc) : Gen.V3 m (outs m) c b = VC m c b := by
  simp only [Gen.V3, Gen.V2, outs_v6, outs_v7]

/-- Every pipeline's proof data, each at its region's entry contents. -/
def pdats : (p : Fin 3) → (c : Dev nD) → Dat τ (Elt F) Unit ℕ (Pipeline.UD sig nD τ) ℕ (cfgs p) c
  | ⟨0, _⟩ => fun c => dat0 (VA m) c
  | ⟨1, _⟩ => fun c => dat1 (VB m) c
  | ⟨2, _⟩ => fun c => dat2 (VC m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Cert.KernelIdeal.Hand

end
-- ==== Proof.FlashReads.lean ====
/-
  Reading back a buffer that was stored whole.

  The attention kernel's body only ever loads and stores WHOLE buffers: every load and every store
  goes through the rectangle that starts at the origin and has the buffer's own extents.  Three facts
  follow, each stated once here for any buffer shape:

  * a whole load of a buffer whose contents read `X` yields `X`;
  * after a whole store of `w` as the LAST store, the buffer reads `w`, whatever was stored before
    and whatever it held at first;
  * a whole load issued after such a store yields `w`.
-/
import Idealize.ShloMosaic.Lib.Pipeline.FrameBody
import Idealize.ShloMosaic.Lib.Pipeline.Value

noncomputable section

namespace Cert.KernelIdeal.Hand

open Idealize.ShloMosaic Idealize.SL.Sem

variable {Val : EltTy → Type} [∀ e, Nonempty (Val e)] {sig : RefSig} {κ : Kind} {sp : Space} {S : Shape} {e : EltTy}

/-- The origin of a two-axis shape, spelt as a literal pair, is the constant zero offset. -/
theorem origin2 : (![0, 0] : Fin 2 → ℕ) = fun _ => 0 := by
  funext a; fin_cases a <;> rfl

/-- After a whole store of `w` made last, the buffer reads `w`. -/
theorem read_writes_cons_whole (v : View sig κ sp S e) (f : v.ty.Contents Val) {off : Fin S.rank → ℕ}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨_, List.mem_cons.mpr (Or.inl rfl), View.mem_set_unit_zero hz inb y⟩),
    View.canon_cons_unit_zero hz]

/-- A whole load of a whole buffer whose contents read `X` yields `X`. -/
theorem readAt_unread_whole {m : Memref sig κ sp S e} (h : m.IsWhole) {off : Fin S.rank → ℕ}
    (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

/-- A whole load issued after a whole store of `w` yields `w`, whatever was stored earlier. -/
theorem readCov_cons_whole (v : View sig κ sp S e) {off : Fin S.rank → ℕ}
    (hz : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst hz
  rw [View.readCov_eq_canon_ld v _ _ (fun y => ⟨_, List.mem_cons.mpr (Or.inl rfl), View.mem_set_unit_zero rfl inb y⟩),
    View.canon_cons_unit_zero rfl, View.ld_unit_zero rfl]

end Cert.KernelIdeal.Hand

end
-- ==== Proof.FlashRunA.lean ====
/-
  The body at a grid point of the first key block: the carried state is reset — maximum `−∞`, both
  sums `0` — whatever the three buffers held, and then advanced by the block (the first key block is
  never past the query block).  The output buffer is handed back as found.
-/
import proofs.«146706_j7413113552965_2_alg».proof.Proof.FlashRuns
import proofs.«146706_j7413113552965_2_alg».proof.Proof.FlashReads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Reset, update, no output: whatever the carried buffers held, they end at the initial state
    advanced by the block. -/
theorem kernelRun1_A (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : cond1_0 i) (hc1 : cond1_1 i) (hc2 : ¬cond1_2 i)
    (x0 x1 x2 : Vec F S512x128 .bf16) (y : Vec F S512x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (stUpd (BitVec.ofNat 32 (i 1).val) (BitVec.ofNat 32 (i 2).val) x0 x1 x2 (stInit (F := F))).1
            ∗ owns (c : Thread nD τ) arg8 fullShare (stUpd (BitVec.ofNat 32 (i 1).val) (BitVec.ofNat 32 (i 2).val) x0 x1 x2 (stInit (F := F))).2.1
            ∗ owns (c : Thread nD τ) arg9 fullShare (stUpd (BitVec.ofNat 32 (i 1).val) (BitVec.ofNat 32 (i 2).val) x0 x1 x2 (stInit (F := F))).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%e0, %g0, -, HS0⟩, ⟨%e1, %g1, -, HS1⟩, ⟨%e2, %g2, -, HS2⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    (try sl_unfold_run_names)
    rw [read_writes_cons_whole arg7.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS1]
  · iexists _; isplitr; swap; · iexact HS1
    ipureintro
    (try sl_unfold_run_names)
    rw [read_writes_cons_whole arg8.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  iexists _; isplitr; swap; · iexact HS2
  ipureintro
  (try sl_unfold_run_names)
  rw [read_writes_cons_whole arg9.view _ origin2]
  (try sl_unfold_run_names)
  simp only [readAt_unread_whole harg3 origin2, readAt_unread_whole harg4 origin2, readAt_unread_whole harg5 origin2,
    readAt_unread_whole harg7 origin2, readAt_unread_whole harg8 origin2, readAt_unread_whole harg9 origin2,
    readCov_cons_whole arg7.view origin2, readCov_cons_whole arg8.view origin2, readCov_cons_whole arg9.view origin2]
  rfl

end Cert.KernelIdeal.Hand

end
-- ==== Proof.FlashRunB.lean ====
/-
  The body at a grid point strictly inside a row of key blocks (not the first, not the last) whose
  key block is not past the query block: the carried state is advanced by the block, nothing else
  happens.  The output buffer is handed back as found.
-/
import proofs.«146706_j7413113552965_2_alg».proof.Proof.FlashRuns
import proofs.«146706_j7413113552965_2_alg».proof.Proof.FlashReads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- No reset, update, no output: from the three input blocks `x0`, `x1`, `x2` and the carried state
    `s` the body leaves the inputs and the output buffer as they were and the carried buffers at the
    state advanced by the block. -/
theorem kernelRun1_B (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : cond1_1 i) (hc2 : ¬cond1_2 i)
    (x0 x1 x2 y : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (stUpd (BitVec.ofNat 32 (i 1).val) (BitVec.ofNat 32 (i 2).val) x0 x1 x2 s).1
            ∗ owns (c : Thread nD τ) arg8 fullShare (stUpd (BitVec.ofNat 32 (i 1).val) (BitVec.ofNat 32 (i 2).val) x0 x1 x2 s).2.1
            ∗ owns (c : Thread nD τ) arg9 fullShare (stUpd (BitVec.ofNat 32 (i 1).val) (BitVec.ofNat 32 (i 2).val) x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg6.eq_unread hf3
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    rw [read_writes_cons_whole _ _ origin2]
    sl_unfold_run_names
    simp only [readAt_unread_whole harg3 origin2, readAt_unread_whole harg4 origin2, readAt_unread_whole harg5 origin2,
      readAt_unread_whole harg7 origin2, readAt_unread_whole harg8 origin2, readAt_unread_whole harg9 origin2]
    rfl
  isplitl [HS1]
  · iexists _; isplitr; swap; · iexact HS1
    ipureintro
    rw [read_writes_cons_whole _ _ origin2]
    simp only [readAt_unread_whole harg3 origin2, readAt_unread_whole harg4 origin2, readAt_unread_whole harg5 origin2,
      readAt_unread_whole harg7 origin2, readAt_unread_whole harg8 origin2, readAt_unread_whole harg9 origin2]
    rfl
  iexists _; isplitr; swap; · iexact HS2
  ipureintro
  rw [read_writes_cons_whole _ _ origin2]
  sl_unfold_run_names
  simp only [readAt_unread_whole harg3 origin2, readAt_unread_whole harg4 origin2, readAt_unread_whole harg5 origin2,
      readAt_unread_whole harg7 origin2, readAt_unread_whole harg8 origin2, readAt_unread_whole harg9 origin2]
  rfl

end Cert.KernelIdeal.Hand

end
-- ==== Proof.FlashRunC.lean ====
/-
  The body at a grid point whose key block lies wholly above the diagonal and is not the last:
  nothing is loaded, nothing stored; every buffer is handed back as found.
-/
import proofs.«146706_j7413113552965_2_alg».proof.Proof.FlashRuns
import proofs.«146706_j7413113552965_2_alg».proof.Proof.FlashReads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- No reset, no update, no output: every buffer as it was. -/
theorem kernelRun1_C (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : ¬cond1_1 i) (hc2 : ¬cond1_2 i)
    (x0 x1 x2 : Vec F S512x128 .bf16) (y : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare s.1
            ∗ owns (c : Thread nD τ) arg8 fullShare s.2.1
            ∗ owns (c : Thread nD τ) arg9 fullShare s.2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg6.eq_unread hf3
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    exact harg7.read_unread _
  isplitl [HS1]
  · iexists _; isplitr; swap; · iexact HS1
    ipureintro
    exact harg8.read_unread _
  iexists _; isplitr; swap; · iexact HS2
  ipureintro
  exact harg9.read_unread _

end Cert.KernelIdeal.Hand

end
-- ==== Proof.FlashRunD.lean ====
/-
  The body at the grid point of the last key block on the diagonal (query block and key block both
  the last): the carried state is advanced by the block, and the output block is written from the
  advanced state: the weighted sum over the denominator.
-/
import proofs.«146706_j7413113552965_2_alg».proof.Proof.FlashRuns
import proofs.«146706_j7413113552965_2_alg».proof.Proof.FlashReads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- No reset, update, output: the carried buffers at the state advanced by the block, the output
    buffer at the weighted sum over the denominator of that state. -/
theorem kernelRun1_D (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : cond1_1 i) (hc2 : cond1_2 i)
    (x0 x1 x2 : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (stOut (stUpd (BitVec.ofNat 32 (i 1).val) (BitVec.ofNat 32 (i 2).val) x0 x1 x2 s))
            ∗ owns (c : Thread nD τ) arg7 fullShare (stUpd (BitVec.ofNat 32 (i 1).val) (BitVec.ofNat 32 (i 2).val) x0 x1 x2 s).1
            ∗ owns (c : Thread nD τ) arg8 fullShare (stUpd (BitVec.ofNat 32 (i 1).val) (BitVec.ofNat 32 (i 2).val) x0 x1 x2 s).2.1
            ∗ owns (c : Thread nD τ) arg9 fullShare (stUpd (BitVec.ofNat 32 (i 1).val) (BitVec.ofNat 32 (i 2).val) x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    (try sl_unfold_run_names)
    rw [read_writes_cons_whole arg6.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS0]
  · iexists _; isplitr; swap; · iexact HS0
    ipureintro
    (try sl_unfold_run_names)
    rw [read_writes_cons_whole arg7.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS1]
  · iexists _; isplitr; swap; · iexact HS1
    ipureintro
    (try sl_unfold_run_names)
    rw [read_writes_cons_whole arg8.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  iexists _; isplitr; swap; · iexact HS2
  ipureintro
  (try sl_unfold_run_names)
  rw [read_writes_cons_whole arg9.view _ origin2]
  (try sl_unfold_run_names)
  simp only [readAt_unread_whole harg3 origin2, readAt_unread_whole harg4 origin2, readAt_unread_whole harg5 origin2,
    readAt_unread_whole harg7 origin2, readAt_unread_whole harg8 origin2, readAt_unread_whole harg9 origin2,
    readCov_cons_whole arg7.view origin2, readCov_cons_whole arg8.view origin2, readCov_cons_whole arg9.view origin2]
  rfl

end Cert.KernelIdeal.Hand

end
-- ==== Proof.FlashRunE.lean ====
/-
  The body at a grid point of the last key block whose query block comes before it: the key block
  lies wholly above the diagonal, so the carried state stays, and the output block is written from
  it: the weighted sum over the denominator.
-/
import proofs.«146706_j7413113552965_2_alg».proof.Proof.FlashRuns
import proofs.«146706_j7413113552965_2_alg».proof.Proof.FlashReads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- No reset, no update, output: the carried buffers as they were, the output buffer at the
    weighted sum over the denominator of the carried state. -/
theorem kernelRun1_E (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : ¬cond1_1 i) (hc2 : cond1_2 i)
    (x0 x1 x2 : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (stOut s)
            ∗ owns (c : Thread nD τ) arg7 fullShare s.1
            ∗ owns (c : Thread nD τ) arg8 fullShare s.2.1
            ∗ owns (c : Thread nD τ) arg9 fullShare s.2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    rw [read_writes_cons_whole _ _ origin2]
    simp only [readAt_unread_whole harg3 origin2, readAt_unread_whole harg4 origin2, readAt_unread_whole harg5 origin2,
      readAt_unread_whole harg7 origin2, readAt_unread_whole harg8 origin2, readAt_unread_whole harg9 origin2]
    rfl
  isplitl [HS0]
  · iexists _; isplitr; swap; · iexact HS0
    ipureintro
    exact harg7.read_unread _
  isplitl [HS1]
  · iexists _; isplitr; swap; · iexact HS1
    ipureintro
    exact harg8.read_unread _
  iexists _; isplitr; swap; · iexact HS2
  ipureintro
  exact harg9.read_unread _

end Cert.KernelIdeal.Hand

end
-- ==== Proof.FlashBody.lean ====
/-
  The attention kernel's body meets its obligation at every grid point.

  A point is in one of five situations, told apart by its key-block and query-block coordinates:
  the first key block (reset, then fold the block in); a middle key block not past the query block
  (fold it in); a middle key block past the query block (nothing); the last key block on the
  diagonal (fold it in, then write the output); the last key block past the query block (write the
  output).  In each the state the carried buffers end with is one step of the recursion that names
  the state after each point, with that situation's decisions taken; and the output block, when
  written, is the weighted sum over the denominator of that state.
-/
import proofs.«146706_j7413113552965_2_alg».proof.Proof.FlashDat
import proofs.«146706_j7413113552965_2_alg».proof.Proof.FlashRunA
import proofs.«146706_j7413113552965_2_alg».proof.Proof.FlashRunB
import proofs.«146706_j7413113552965_2_alg».proof.Proof.FlashRunC
import proofs.«146706_j7413113552965_2_alg».proof.Proof.FlashRunD
import proofs.«146706_j7413113552965_2_alg».proof.Proof.FlashRunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-! ## One step of the state, decision by decision -/

theorem stStep_reset (i : grid1.Coords) (q k v : Vec F S512x128 .bf16) (s : St F)
    (h0 : (i 2).val = 0) (h1 : (i 2).val ≤ (i 1).val) :
    stStep i q k v s = stUpd (BitVec.ofNat 32 (i 1).val) (BitVec.ofNat 32 (i 2).val) q k v stInit := by
  unfold stStep; dsimp only; rw [if_pos h0, if_pos h1]

theorem stStep_update (i : grid1.Coords) (q k v : Vec F S512x128 .bf16) (s : St F)
    (h0 : ¬(i 2).val = 0) (h1 : (i 2).val ≤ (i 1).val) :
    stStep i q k v s = stUpd (BitVec.ofNat 32 (i 1).val) (BitVec.ofNat 32 (i 2).val) q k v s := by
  unfold stStep; dsimp only; rw [if_neg h0, if_pos h1]

theorem stStep_skip (i : grid1.Coords) (q k v : Vec F S512x128 .bf16) (s : St F)
    (h0 : ¬(i 2).val = 0) (h1 : ¬(i 2).val ≤ (i 1).val) :
    stStep i q k v s = s := by
  unfold stStep; dsimp only; rw [if_neg h0, if_neg h1]

/-- The state after point `t` is one step from the state before it. -/
theorem scAt1_at (c : Dev nD) (t : Fin cfg1.N) :
    scAt1 V c (t.val + 1) t.isLt
      = stStep (grid1.coords t) (iblk1 V c 0 t) (iblk1 V c 1 t) (iblk1 V c 2 t) (scAt1 V c t.val (Nat.le_of_lt t.isLt)) :=
  scAt1_succ V c t.val t.isLt

/-! ## The obligation at a point -/

/-- What the body is called with at point `t`: the invariant, what the core owes, and each window's
    current buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the coordinates say which of the five
    situations the point is in; that situation's run applies, taking the carried buffers at the state
    before the point (at anything, at a first key block) and giving them back at the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc]
  rw [show (dat1 V c).leavesExact 0 t = owns (c : Thread nD τ) (ms1_0 t) fullShare ((dat1 V c).after 0 t) from by
    unfold Dat.leavesExact; rw [liveAt1_0 (grid1.coords t)], after1_0]
  rw [show (dat1 V c).leavesExact 1 t = owns (c : Thread nD τ) (ms1_1 t) fullShare ((dat1 V c).after 1 t) from by
    unfold Dat.leavesExact; rw [liveAt1_1 (grid1.coords t)], after1_1]
  rw [show (dat1 V c).leavesExact 2 t = owns (c : Thread nD τ) (ms1_2 t) fullShare ((dat1 V c).after 2 t) from by
    unfold Dat.leavesExact; rw [liveAt1_2 (grid1.coords t)], after1_2]
  rw [PhiS1_pos V c (t.val + 1) t.isLt (Nat.succ_ne_zero _)]
  obtain ⟨hkv, hqi⟩ := coords_lt t
  by_cases h0 : ((grid1.coords t) 2).val = 0
  · have h1 : ((grid1.coords t) 2).val ≤ ((grid1.coords t) 1).val := by omega
    have h2 : ¬((grid1.coords t) 2).val = 3 := by omega
    rw [Dat.leavesExact_idle (dat1 V c) 3 t (idleAt1_3 t (fun h => h2 ((hcond1_2 t).mp h))) (noFlush1_3 t (fun h => h2 ((hcond1_2 t).mp h)))]
    rw [scAt1_at V c t, stStep_reset (grid1.coords t) (iblk1 V c 0 t) (iblk1 V c 1 t) (iblk1 V c 2 t) (scAt1 V c t.val (Nat.le_of_lt t.isLt)) h0 h1]
    refine (sep_mono_left (PhiS1_forget V c _ _)).trans ?_
    rw [PhiA1_eq]
    iintro ⟨⟨⟨⟨HS0, HS1, HS2⟩, HR⟩, Hg⟩, Ho, ⟨%d0, H0⟩, ⟨%d1, H1⟩, ⟨%d2, H2⟩, ⟨%d3, H3⟩⟩
    iapply (kernelRun1_A c (grid1.coords t) _ _ _ _ _ _ _ _ _ _ _ _ _ _ ((hcond1_0 t).mpr h0) ((hcond1_1 t).mpr h1) (fun h => h2 ((hcond1_2 t).mp h))
      (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    iexists _; iexact H3
  · by_cases h1 : ((grid1.coords t) 2).val ≤ ((grid1.coords t) 1).val
    · by_cases h2 : ((grid1.coords t) 2).val = 3
      · rw [show (dat1 V c).leavesExact 3 t = owns (c : Thread nD τ) (ms1_3 t) fullShare ((dat1 V c).after 3 t) from by
          unfold Dat.leavesExact; rw [liveAt1_3 t ((hcond1_2 t).mpr h2)], after1_3]
        rw [scAt1_at V c t, stStep_update (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_D c (grid1.coords t) _ _ _ _ _ _ _ _ _ _ _ _ _ _ (fun h => h0 ((hcond1_0 t).mp h)) ((hcond1_1 t).mpr h1) ((hcond1_2 t).mpr h2)
          (iblk1 V c 0 t) (iblk1 V c 1 t) (iblk1 V c 2 t) (scAt1 V c t.val (Nat.le_of_lt t.isLt)) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt1_at V c t, stStep_update (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_B c (grid1.coords t) _ _ _ _ _ _ _ _ _ _ _ _ _ _ (fun h => h0 ((hcond1_0 t).mp h)) ((hcond1_1 t).mpr h1) (fun h => h2 ((hcond1_2 t).mp h))
          (iblk1 V c 0 t) (iblk1 V c 1 t) (iblk1 V c 2 t) _ (scAt1 V c t.val (Nat.le_of_lt t.isLt)) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3
    · by_cases h2 : ((grid1.coords t) 2).val = 3
      · rw [show (dat1 V c).leavesExact 3 t = owns (c : Thread nD τ) (ms1_3 t) fullShare ((dat1 V c).after 3 t) from by
          unfold Dat.leavesExact; rw [liveAt1_3 t ((hcond1_2 t).mpr h2)], after1_3]
        rw [scAt1_at V c t, stStep_skip (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_E c (grid1.coords t) _ _ _ _ _ _ _ _ _ _ _ _ _ _ (fun h => h0 ((hcond1_0 t).mp h)) (fun h => h1 ((hcond1_1 t).mp h)) ((hcond1_2 t).mpr h2)
          (iblk1 V c 0 t) (iblk1 V c 1 t) (iblk1 V c 2 t) (scAt1 V c t.val (Nat.le_of_lt t.isLt)) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt1_at V c t, stStep_skip (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_C c (grid1.coords t) _ _ _ _ _ _ _ _ _ _ _ _ _ _ (fun h => h0 ((hcond1_0 t).mp h)) (fun h => h1 ((hcond1_1 t).mp h)) (fun h => h2 ((hcond1_2 t).mp h))
          (iblk1 V c 0 t) (iblk1 V c 1 t) (iblk1 V c 2 t) _ (scAt1 V c t.val (Nat.le_of_lt t.isLt)) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.Run.lean ====
/-
  The program's run, from the three regions' proof data and body obligations.

  Between two items of the program a core holds every unscoped buffer whole at known contents, its generator register
  at some state, and owes nothing.  Each region is entered from that state and left in it: at entry the buffers behind
  the region's arrays are handed to the region's windows and the rest set aside; at exit the arrays, now at what the
  blocks' write-backs leave, are put back beside the rest.  Regions 0 and 2 have one array per window.  Region 1 reads
  the projection's array through three windows at once (queries, keys, values), so its one buffer is dealt among the
  three — a half and two quarters of the whole — at entry and made whole again at exit.

  The conclusion: every weakly fair execution of the program ends, nothing faulting, with the result's buffer at the
  last reshape of what region 2 wrote and every argument as launched.
-/
import proofs.«146706_j7413113552965_2_alg».proof.Proof.RunData
import proofs.«146706_j7413113552965_2_alg».proof.Proof.FlashBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ)

/-! ## Region 1's arrays: one buffer dealt among three input windows -/
section Deal
variable (c : Dev nD) (V : (b : Ref sig .tc) → Buf (Elt F) ((c : Thread nD τ).loc b))
  (dat : Dat τ (Elt F) Unit ℕ (Pipeline.UD sig nD τ) ℕ cfg1 c)
  (F' : (w : Fin cfg1.W) → Buf (Elt F) ((cfg1.win w).arr.view.loc (c : Thread nD τ)))

/-- Region 1's arrays, window by window, each a whole buffer at the window's share. -/
theorem arrays1_eq :
    dat.arrays F' = bigSep Finset.univ fun w : Fin cfg1.W =>
      ((((c : Thread nD τ).loc (Pipeline.arrRef spec1 w)) ↦{dat.share w} F' w : sProp 𝕄)) := by
  unfold Pipeline.Dat.arrays
  exact bigSep_congr fun w _ => by rw [(arr_whole1 w).set_eq_univ]

/-- The projection's buffer held whole is dealt among the query, key and value windows — a half and two quarters —
    and the output's buffer goes to the output window whole. -/
theorem deal1 (hq0 : dat.q 0 = fullShare.left) (hq1 : dat.q 1 = fullShare.right.left) (hq2 : dat.q 2 = fullShare.right.right)
    (hF : ∀ w, F' w = V (Pipeline.arrRef spec1 w)) :
    (Pipeline.arrBufs spec1 c V : sProp 𝕄) ⊢ dat.arrays F' := by
  rw [arrays1_eq, bigSep_W1]
  unfold Pipeline.arrBufs
  rw [BI.bigSep_eq_bigSepL_of_eq [main_v6, main_v7] (by decide) (by decide)]
  simp only [Pipeline.Dat.share, Bool.false_eq_true, if_false, if_true, hq0, hq1, hq2, hF]
  have s1 := (pointsTo_share (Ix := Unit) (Name := ℕ) (U := Pipeline.UD sig nD τ) (Lvl := ℕ)
    (ℓ := (c : Thread nD τ).loc main_v6) (I := Finset.univ) (f := V main_v6) (PosShare.mem_left_op_right fullShare)).1
  have s2 := (pointsTo_share (Ix := Unit) (Name := ℕ) (U := Pipeline.UD sig nD τ) (Lvl := ℕ)
    (ℓ := (c : Thread nD τ).loc main_v6) (I := Finset.univ) (f := V main_v6) (PosShare.mem_left_op_right fullShare.right)).1
  change iprop((((c : Thread nD τ).loc main_v6) ↦{fullShare} V main_v6) ∗ (((c : Thread nD τ).loc main_v7) ↦{fullShare} V main_v7)) ⊢ _
  iintro ⟨H6, H7⟩
  ihave H := s1 $$ H6
  icases H with ⟨HL, HR⟩
  ihave H' := s2 $$ HR
  icases H' with ⟨HRL, HRR⟩
  isplitl [HL]; · iexact HL
  isplitl [HRL]; · iexact HRL
  isplitl [HRR]; · iexact HRR
  iexact H7

/-- The converse: the three windows' shares of the projection's buffer make it whole again. -/
theorem undeal1 (hq0 : dat.q 0 = fullShare.left) (hq1 : dat.q 1 = fullShare.right.left) (hq2 : dat.q 2 = fullShare.right.right)
    (hF : ∀ w, F' w = V (Pipeline.arrRef spec1 w)) :
    dat.arrays F' ⊢ (Pipeline.arrBufs spec1 c V : sProp 𝕄) := by
  rw [arrays1_eq, bigSep_W1]
  unfold Pipeline.arrBufs
  rw [BI.bigSep_eq_bigSepL_of_eq [main_v6, main_v7] (by decide) (by decide)]
  simp only [Pipeline.Dat.share, Bool.false_eq_true, if_false, if_true, hq0, hq1, hq2, hF]
  have s1 := (pointsTo_share (Ix := Unit) (Name := ℕ) (U := Pipeline.UD sig nD τ) (Lvl := ℕ)
    (ℓ := (c : Thread nD τ).loc main_v6) (I := Finset.univ) (f := V main_v6) (PosShare.mem_left_op_right fullShare)).2
  have s2 := (pointsTo_share (Ix := Unit) (Name := ℕ) (U := Pipeline.UD sig nD τ) (Lvl := ℕ)
    (ℓ := (c : Thread nD τ).loc main_v6) (I := Finset.univ) (f := V main_v6) (PosShare.mem_left_op_right fullShare.right)).2
  change _ ⊢ iprop((((c : Thread nD τ).loc main_v6) ↦{fullShare} V main_v6) ∗ (((c : Thread nD τ).loc main_v7) ↦{fullShare} V main_v7))
  iintro ⟨HL, HRL, HRR, H7⟩
  ihave HR := s2 $$ [HRL HRR]
  · isplitl [HRL]; · iexact HRL
    iexact HRR
  ihave H6 := s1 $$ [HL HR]
  · isplitl [HL]; · iexact HL
    iexact HR
  isplitl [H6]; · iexact H6
  iexact H7
end Deal

/-- After region 0 every array of its windows holds what the write-backs leave: the three inputs as entered, the
    output what the blocks wrote. -/
theorem hF0 (c : Dev nD) (w : Fin cfg0.W) :
    (dat0 (VA m) c).arrAt w cfg0.N = Gen.V2 m (outs m) c (Pipeline.arrRef spec0 w) := by
  match w with
  | ⟨0, _⟩ => exact (((dat0 (VA m) c).arrAt_in 0 rfl _).trans (A_eq0 (VA m) c 0)).trans (Gen.V2_of m (outs m) c _ (by decide)).symm
  | ⟨1, _⟩ => exact (((dat0 (VA m) c).arrAt_in 1 rfl _).trans (A_eq0 (VA m) c 1)).trans (Gen.V2_of m (outs m) c _ (by decide)).symm
  | ⟨2, _⟩ => exact (((dat0 (VA m) c).arrAt_in 2 rfl _).trans (A_eq0 (VA m) c 2)).trans (Gen.V2_of m (outs m) c _ (by decide)).symm
  | ⟨3, _⟩ => exact ((V2_eq m c main_v6).trans (by simp only [VB, Function.update_self]; rfl)).symm

/-- Region 0 changes no buffer but its windows' arrays. -/
theorem hrest0 (c : Dev nD) : ∀ b, b ∉ Finset.univ.image (Pipeline.arrRef spec0) →
    Gen.V2 m (outs m) c b = Gen.V1 m c b := fun b hb =>
  Gen.V2_of m (outs m) c b fun h => hb (by
    rw [List.mem_singleton.mp h]; exact Finset.mem_image.mpr ⟨3, Finset.mem_univ _, rfl⟩)

set_option backward.isDefEq.respectTransparency.types false in
/-- Region 0 over the thread state "every unscoped buffer whole, the generator register, nothing owed": entered at
    the contents the first host stretch leaves, left with the output array at what its blocks wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VA m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem V2_fun (c : Dev nD) : Gen.V2 m (outs m) c = Function.update (Gen.V1 m c) main_v6 (o6 m c) := by
  show Function.update (Gen.V1 m c) main_v6 (outs m 2 main_v6 c) = _; rw [outs_v6]
theorem V3_fun (c : Dev nD) :
    Gen.V3 m (outs m) c = Function.update (Function.update (Gen.V1 m c) main_v6 (o6 m c)) main_v7 (o7 m c) := by
  show Function.update (Function.update (Gen.V1 m c) main_v6 (outs m 2 main_v6 c)) main_v7 (outs m 3 main_v7 c) = _
  rw [outs_v6, outs_v7]

/-! ## Region 1 -/

/-- After region 1 the projection's array is as entered and the attention array holds what the blocks wrote. -/
theorem hF1 (c : Dev nD) (w : Fin cfg1.W) :
    (dat1 (VB m) c).arrAt w cfg1.N = Gen.V3 m (outs m) c (Pipeline.arrRef spec1 w) := by
  match w with
  | ⟨0, _⟩ => exact (((dat1 (VB m) c).arrAt_in 0 rfl _).trans (A_eq1 (VB m) c 0)).trans ((Gen.V3_of m (outs m) c _ (by decide)).trans (V2_eq m c _)).symm
  | ⟨1, _⟩ => exact (((dat1 (VB m) c).arrAt_in 1 rfl _).trans (A_eq1 (VB m) c 1)).trans ((Gen.V3_of m (outs m) c _ (by decide)).trans (V2_eq m c _)).symm
  | ⟨2, _⟩ => exact (((dat1 (VB m) c).arrAt_in 2 rfl _).trans (A_eq1 (VB m) c 2)).trans ((Gen.V3_of m (outs m) c _ (by decide)).trans (V2_eq m c _)).symm
  | ⟨3, _⟩ => exact (show Function.update (Gen.V2 m (outs m) c) main_v7 (outs m 3 main_v7 c) main_v7 = _ by
      rw [Function.update_self, outs_v7]; rfl).symm

theorem hrest1 (c : Dev nD) : ∀ b, b ∉ Finset.univ.image (Pipeline.arrRef spec1) →
    Gen.V3 m (outs m) c b = VB m c b := fun b hb =>
  (Gen.V3_of m (outs m) c b fun h => hb (by
    rw [List.mem_singleton.mp h]; exact Finset.mem_image.mpr ⟨3, Finset.mem_univ _, rfl⟩)).trans (V2_eq m c b)

theorem hunscoped1 : ∀ w, (Pipeline.arrRef spec1 w).isScoped = false := by decide

set_option backward.isDefEq.respectTransparency.types false in
/-- Region 1 over the same thread state: entered with the projection's array at what region 0 wrote — its buffer
    dealt among the three windows that read it — and left with the attention array at what its blocks wrote. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := by
    rw [Pipeline.ownSems0_none, V2_fun m c]
    have hsp := Pipeline.unscopedBufs_split₀ (Ix := Unit) (Name := ℕ) (U := Pipeline.UD sig nD τ) (Lvl := ℕ) cfgs 1 hunscoped1 c (VB m c)
    rw [Pipeline.unscopedBufs_held] at hsp
    have hdeal := deal1 c (VB m c) (pdats m 1 c) ((pdats m 1 c).arrAt · 0) rfl rfl rfl (fun w => A_eq1 (VB m) c w)
    iintro ⟨⟨Hub, Hp, HO⟩, -, -⟩
    ihave H := (Entails.of_eq hsp) $$ Hub
    icases H with ⟨Hab, Hrest⟩
    ihave Ha := hdeal $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (VB m) c)
    unfold Pipeline.ΦA
    iintro ⟨Hp, -, Hr⟩
    isplitl [Hr]; · iexact Hr
    iexact Hp
  hout c := by
    refine (hout1 (VB m) c).trans ?_
    rw [Pipeline.ownSems0_none]; unfold Pipeline.ΦA
    iintro ⟨Hr, Hp⟩
    isplitl [Hp]; · iexact Hp
    isplitr; · iempintro
    iexact Hr
  hexit c := by
    have hund := undeal1 c (fun b => Gen.V3 m (outs m) c b) (pdats m 1 c) ((pdats m 1 c).arrAt · cfg1.N) rfl rfl rfl (hF1 m c)
    have hsp := Pipeline.unscopedBufs_split₀ (Ix := Unit) (Name := ℕ) (U := Pipeline.UD sig nD τ) (Lvl := ℕ) cfgs 1 hunscoped1 c (fun b => Gen.V3 m (outs m) c b)
    rw [Pipeline.unscopedBufs_held] at hsp
    have hre : (Pipeline.unscopedRest (Ix := Unit) (Name := ℕ) (U := Pipeline.UD sig nD τ) (Lvl := ℕ) spec1 c (VB m c) : sProp 𝕄)
        = Pipeline.unscopedRest spec1 c (fun b => Gen.V3 m (outs m) c b) := by
      unfold Pipeline.unscopedRest
      exact bigSep_congr fun b hb => congrArg (fun x => ((((c : Thread nD τ).loc b) ↦{fullShare} x : sProp 𝕄)))
        (hrest1 m c b (Finset.mem_sdiff.mp hb).2).symm
    iintro ⟨Ha, HO, HY, Hrest⟩
    ihave Hab := hund $$ Ha
    ihave Hrest' := (Entails.of_eq hre) $$ Hrest
    ihave Hub := (Entails.of_eq hsp.symm) $$ [Hab Hrest']
    · isplitl [Hab]; · iexact Hab
      iexact Hrest'
    imodintro
    isplitl [Hub]; · iexact Hub
    isplitl [HY]; · iexact HY
    unfold Pipeline.Dat.owesAt Pipeline.owesWithin
    icases HO with ⟨%W, -, HO⟩; iexists W; iexact HO

/-! ## Region 2 -/

theorem hF2 (c : Dev nD) (w : Fin cfg2.W) :
    (dat2 (VC m) c).arrAt w cfg2.N = Gen.V4 m (outs m) c (Pipeline.arrRef spec2 w) := by
  match w with
  | ⟨0, _⟩ => exact (((dat2 (VC m) c).arrAt_in 0 rfl _).trans (A_eq2 (VC m) c 0)).trans ((Gen.V4_of m (outs m) c _ (by decide)).trans (V3_eq m c _)).symm
  | ⟨1, _⟩ => exact (((dat2 (VC m) c).arrAt_in 1 rfl _).trans (A_eq2 (VC m) c 1)).trans ((Gen.V4_of m (outs m) c _ (by decide)).trans (V3_eq m c _)).symm
  | ⟨2, _⟩ => exact (((dat2 (VC m) c).arrAt_in 2 rfl _).trans (A_eq2 (VC m) c 2)).trans ((Gen.V4_of m (outs m) c _ (by decide)).trans (V3_eq m c _)).symm
  | ⟨3, _⟩ => exact (show Function.update (Gen.V3 m (outs m) c) main_v8 (outs m 4 main_v8 c) main_v8 = _ by
      rw [Function.update_self, outs_v8]; rfl).symm

theorem hrest2 (c : Dev nD) : ∀ b, b ∉ Finset.univ.image (Pipeline.arrRef spec2) →
    Gen.V4 m (outs m) c b = VC m c b := fun b hb =>
  (Gen.V4_of m (outs m) c b fun h => hb (by
    rw [List.mem_singleton.mp h]; exact Finset.mem_image.mpr ⟨3, Finset.mem_univ _, rfl⟩)).trans (V3_eq m c b)

set_option backward.isDefEq.respectTransparency.types false in
/-- Region 2 over the same thread state: entered with the attention array at what region 1 wrote, left with the
    result's array at what its blocks wrote. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (VC m c)
  hentry c := by
    rw [Pipeline.ownSems0_none, V3_fun m c]
    have hsplit := Pipeline.arrays_of_unscopedBufs (p := 2) (pcfgs (F := F)) Gen.adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (VC m c) (fun b => Gen.V4 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The state riding beside the buffers at each of @main's four inner boundaries. -/
abbrev E : Fin 4 → Dev nD → sProp 𝕄 := fun _ c => R (F := F) c

open Idealize.ShloMosaic.Pipeline (Seg) in
set_option backward.isDefEq.respectTransparency.types false in
/-- THE RUN. From any memory with zero counters every weakly fair execution of @main ends, nothing faulting, with the
    result's buffer holding the last host stretch's reshape of what region 2 wrote and every argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v9) = Gen.V5 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj embL defs₀ 𝒱₀ L lv m ρ main
    (Gen.segs m (outs m) 𝒱₀ L lv (E (F := F)) () (pdats m) (reg0 m) (reg1 m) (reg2 m))
    (fun c Q => by
      rewrite [main_chain c, Seg.run_eq_chain,
        show (Gen.segs m (outs m) 𝒱₀ L lv (E (F := F)) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v9) = Gen.V5 m (outs m) c main_v9
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: every unscoped buffer held at its launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c)⟩
    · iexact HSI

end Cert.KernelIdeal.Hand

end
-- ==== Proof.WFlashState.lean ====
/-
  The attention kernel's carried state, as pure functions of the blocks it reads.

  One grid point `(bh, qi, kv)` of the attention region handles a block of 512 query rows (block
  `qi`) of one head against one block of 512 key and value rows (block `kv`).  Between points it
  keeps, per query row, the largest score seen so far `m`, the sum `l` of `exp (score − m)` over the
  keys seen so far, and per output column the sum `acc` of `exp (score − m) · value`.

  * At `kv = 0` the state is reset: `m = −∞`, `l = 0`, `acc = 0`.
  * At `kv ≤ qi` (a key block not wholly above the diagonal) the state is advanced by the block:
    the maximum is raised, the two sums are rescaled by `exp (m_old − m_new)` and the block's terms
    are added.  Every quantity of the update is computed from the OLD maximum, denominator and sum.
  * Key blocks above the diagonal (`kv > qi`) leave the state alone.
  * At the last key block the output block is `acc / l`.
-/
import proofs.«146706_j7413113552965_2_alg».proof.Proof.Gen.Kernel.Skeleton
import proofs.«146706_j7413113552965_2_alg».proof.Proof.Gen.Kernel.Launch
import proofs.«146706_j7413113552965_2_alg».proof.Proof.Gen.Kernel.Points
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

/-- Running maximum, running denominator and running weighted sum of one block of 512 query rows. -/
abbrev St (F : FTy → Type) [FloatOps F] : Type :=
  Vec F S512x1 .f32 × Vec F S512x1 .f32 × Vec F S512x128 .f32

/-- The state a row block starts from: maximum `−∞`, both sums `0`. -/
def stInit : St F := (k1_pay1 (F := F), k1_pay2 (F := F), k1_pay3 (F := F))

/-- The state after one block of keys `k` and values `v` is folded in against the queries `q`, at
    query block `a1` and key block `a2` (which decide the mask). -/
def stUpd (a1 a2 : BitVec 32) (q k v : Vec F S512x128 .bf16) (s : St F) : St F :=
  (k1_pay5 (k1_pay8 a1 a2 q k s.1),
   k1_pay11 a1 a2 q k s.1 s.2.1,
   k1_pay4 (k1_pay9 a1 a2 q k s.1) (k1_pay12 a1 a2 q k s.1 v) s.2.2)

/-- The output block: the weighted sum over the denominator. -/
def stOut (s : St F) : Vec F S512x128 .bf16 := k1_pay6 s.2.2 s.2.1

/-- One grid point `i = (bh, qi, kv)` on the state: reset at the first key block, then the block
    folded in unless it lies wholly above the diagonal. -/
def stStep (i : grid1.Coords) (q k v : Vec F S512x128 .bf16) (s : St F) : St F :=
  let s0 : St F := if (i 2).val = 0 then stInit else s
  if (i 2).val ≤ (i 1).val then
    stUpd (BitVec.ofNat 32 (i 1).val) (BitVec.ofNat 32 (i 2).val) q k v s0
  else s0

variable (V : (c : Dev nD) → (b : Ref sig .tc) → Buf (Elt F) ((c : Thread nD τ).loc b))

/-- Window `w`'s block at point `t` of the attention region, read off its array as the region finds
    it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The carried state after the first `n` grid points. -/
def scAt1 (c : Dev nD) : (n : ℕ) → n ≤ cfg1.N → St F
  | 0, _ => stInit
  | n + 1, h =>
    stStep (grid1.coords ⟨n, h⟩) (iblk1 V c 0 ⟨n, h⟩) (iblk1 V c 1 ⟨n, h⟩) (iblk1 V c 2 ⟨n, h⟩)
      (scAt1 c n (Nat.le_of_succ_le h))

theorem scAt1_zero (c : Dev nD) (h : 0 ≤ cfg1.N) : scAt1 V c 0 h = stInit := rfl

theorem scAt1_succ (c : Dev nD) (n : ℕ) (h : n + 1 ≤ cfg1.N) :
    scAt1 V c (n + 1) h
      = stStep (grid1.coords ⟨n, h⟩) (iblk1 V c 0 ⟨n, h⟩) (iblk1 V c 1 ⟨n, h⟩) (iblk1 V c 2 ⟨n, h⟩)
          (scAt1 V c n (Nat.le_of_succ_le h)) := rfl

end Cert.Kernel.Hand

end
-- ==== Proof.WLin0.lean ====
import proofs.«146706_j7413113552965_2_alg».proof.Proof.Gen.Kernel.Launch
import proofs.«146706_j7413113552965_2_alg».proof.Proof.Gen.Kernel.Skeleton
import proofs.«146706_j7413113552965_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first matrix product (the fused q/k/v projection), one grid point at a time

The first launch computes, block by block, the product of the activations with the transposed
projection weights, plus the bias row.  A grid point `(i, j)` sees a 1024-row slab of the
activations, a 512-row slab of the weights and the matching 512 bias entries, and produces the
1024 × 512 tile of the result.  This module records what one such point does to the tile's
buffer, for ANY contents `V` of the arrays when the launch begins: the three inputs are left as
they were, and the tile is overwritten by the product-plus-bias of the three slabs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The slabs a grid point sees -/

/-- The block of window `w` at grid point `t`, cut out of the array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds that window's block at every point, whether the block was
    brought in at this very point or is still there from an earlier one (the activations' slab is
    brought in once per row of the grid and then reused): the body never changes it.  Stated for
    any proof data over the arrays `V` whose body leaves the block in place; first the
    activations' slab, -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- then the weights' slab, -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- then the bias entries. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body writes -/

/-- The whole 1024 × 512 tile as one rectangle: the body's single store goes through it. -/
abbrev tile0 : Rect S1024x512 := Rect.unit (s := S1024x512) ![0, 0] S1024x512.size inb_S1024x512_S1024x512_0_0
abbrev slabA0 : Rect S1024x2048 := Rect.unit (s := S1024x2048) ![0, 0] S1024x2048.size inb_S1024x2048_S1024x2048_0_0
abbrev slabB0 : Rect S512x2048 := Rect.unit (s := S512x2048) ![0, 0] S512x2048.size inb_S512x2048_S512x2048_0_0
abbrev bias0 : Rect S1x512 := Rect.unit (s := S1x512) ![0, 0] S1x512.size inb_S1x512_S1x512_0_0

/-- The tile's buffer after the body, as a function of the three slabs: one piece, the whole
    tile, holding the product of the two slabs (rows against rows) plus the bias row. -/
def out0_3 (x0 : Vec F S1024x2048 .bf16) (x1 : Vec F S512x2048 .bf16) (x2 : Vec F S1x512 .f32) : Vec F S1024x512 .bf16 :=
  View.canon [⟨tile0, k0_pay1 (View.ld x0 slabA0) (View.ld x1 slabB0) (View.ld x2 bias0)⟩]

/-- The single piece covers the tile. -/
theorem cover0_3 (p0 : Vec F S1024x512 .bf16) (y : S1024x512.Idx) :
    ∃ pc ∈ ([⟨tile0, p0⟩] : List (View.Piece (Elt F) S1024x512 .bf16)), y ∈ pc.1.set :=
  View.cover_of_tiled [⟨tile0, p0⟩] S1024x512.size (by rfl) y

/-! ## The body's triple -/

set_option maxHeartbeats 1000000 in
/-- The body, run on whole buffers: the three inputs' at known contents, the tile's at anything.
    It reads the three inputs, reads the tile once without using what it read, and stores the
    product-plus-bias through the whole tile.  So it ends with the inputs as they were and the
    tile at `out0_3` of the inputs. -/
theorem sound_kernel0 (c : Dev nD) (E : Set ℕ) (i : grid0.Coords)
    (arg2 : Memref sig .tc .vmem S1024x2048 .bf16) (harg2 : arg2.IsWhole)
    (arg3 : Memref sig .tc .vmem S512x2048 .bf16) (harg3 : arg3.IsWhole)
    (arg4 : Memref sig .tc .vmem S1x512 .f32) (harg4 : arg4.IsWhole)
    (arg5 : Memref sig .tc .vmem S1024x512 .bf16) (harg5 : arg5.IsWhole)
    (x0 : Vec F S1024x2048 .bf16) (x1 : Vec F S512x2048 .bf16) (x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E (cc0_linear_kernel i arg2 harg2 arg3 harg3 arg4 harg4 arg5 harg5) K := by
  simp only [cc0_linear_kernel_eq_skeleton]; unfold cc0_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The launch's proof data -/

/-- The proof data of the first launch on core `c`: the arrays as the launch finds them; after
    the body at point `t` each input's buffer still holds its block and the tile's buffer holds
    `out0_3` of the three blocks; the invariant is the plain one (everything the launch does not
    touch stays put); nothing is owed; every share is whole. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the contents the launch begins with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is handed at point `t`: the invariant, the debts, and the four buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies;
    the invariant and the debts are not looked at and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WLin2.lean ====
import proofs.«146706_j7413113552965_2_alg».proof.Proof.Gen.Kernel.Launch
import proofs.«146706_j7413113552965_2_alg».proof.Proof.Gen.Kernel.Skeleton
import proofs.«146706_j7413113552965_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The last matrix product (the output projection), one grid point at a time

The third launch computes, block by block, the product of the attention output with the
transposed output-projection weights, plus the bias row.  A grid point `(i, j)` sees a 1024-row
slab of the attention output, a 512-row slab of the weights and the matching 512 bias entries,
and produces the 1024 × 512 tile of the result, this time kept in single precision.  This module
records what one such point does to the tile's buffer, for ANY contents `V` of the arrays when
the launch begins: the three inputs are left as they were, and the tile is overwritten by the
product-plus-bias of the three slabs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The slabs a grid point sees -/

/-- The block of window `w` at grid point `t`, cut out of the array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds that window's block at every point, whether the block was
    brought in at this very point or is still there from an earlier one (the attention output's slab
    is brought in once per row of the grid and then reused): the body never changes it.  Stated for
    any proof data over the arrays `V` whose body leaves the block in place; first the
    attention output's slab, -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- then the weights' slab, -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- then the bias entries. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the body writes -/

/-- The whole 1024 × 512 tile as one rectangle: the body's single store goes through it. -/
abbrev tile2 : Rect S1024x512 := Rect.unit (s := S1024x512) ![0, 0] S1024x512.size inb_S1024x512_S1024x512_0_0
abbrev slabA2 : Rect S1024x2048 := Rect.unit (s := S1024x2048) ![0, 0] S1024x2048.size inb_S1024x2048_S1024x2048_0_0
abbrev slabB2 : Rect S512x2048 := Rect.unit (s := S512x2048) ![0, 0] S512x2048.size inb_S512x2048_S512x2048_0_0
abbrev bias2 : Rect S1x512 := Rect.unit (s := S1x512) ![0, 0] S1x512.size inb_S1x512_S1x512_0_0

/-- The tile's buffer after the body, as a function of the three slabs: one piece, the whole
    tile, holding the product of the two slabs (rows against rows) plus the bias row. -/
def out2_3 (x0 : Vec F S1024x2048 .bf16) (x1 : Vec F S512x2048 .bf16) (x2 : Vec F S1x512 .f32) : Vec F S1024x512 .f32 :=
  View.canon [⟨tile2, k2_pay1 (View.ld x0 slabA2) (View.ld x1 slabB2) (View.ld x2 bias2)⟩]

/-- The single piece covers the tile. -/
theorem cover2_3 (p0 : Vec F S1024x512 .f32) (y : S1024x512.Idx) :
    ∃ pc ∈ ([⟨tile2, p0⟩] : List (View.Piece (Elt F) S1024x512 .f32)), y ∈ pc.1.set :=
  View.cover_of_tiled [⟨tile2, p0⟩] S1024x512.size (by rfl) y

/-! ## The body's triple -/

set_option maxHeartbeats 1000000 in
/-- The body, run on whole buffers: the three inputs' at known contents, the tile's at anything.
    It reads the three inputs, reads the tile once without using what it read, and stores the
    product-plus-bias through the whole tile.  So it ends with the inputs as they were and the
    tile at `out2_3` of the inputs. -/
theorem sound_kernel2 (c : Dev nD) (E : Set ℕ) (i : grid2.Coords)
    (arg2 : Memref sig .tc .vmem S1024x2048 .bf16) (harg2 : arg2.IsWhole)
    (arg3 : Memref sig .tc .vmem S512x2048 .bf16) (harg3 : arg3.IsWhole)
    (arg4 : Memref sig .tc .vmem S1x512 .f32) (harg4 : arg4.IsWhole)
    (arg5 : Memref sig .tc .vmem S1024x512 .f32) (harg5 : arg5.IsWhole)
    (x0 : Vec F S1024x2048 .bf16) (x1 : Vec F S512x2048 .bf16) (x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out2_3 x0 x1 x2)) -∗ K ⟨⟩))
      ⊢ wp frame (wpE (defs₀ (F := F)) Variants.none c none) E (cc2_linear_kernel i arg2 harg2 arg3 harg3 arg4 harg4 arg5 harg5) K := by
  simp only [cc2_linear_kernel_eq_skeleton]; unfold cc2_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The launch's proof data -/

/-- The proof data of the third launch on core `c`: the arrays as the launch finds them; after
    the body at point `t` each input's buffer still holds its block and the tile's buffer holds
    `out2_3` of the three blocks; the invariant is the plain one (everything the launch does not
    touch stays put); nothing is owed; every share is whole. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the contents the launch begins with. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's buffer holds its block when the body is called, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is handed at point `t`: the invariant, the debts, and the four buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies;
    the invariant and the debts are not looked at and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WFlashRuns.lean ====
/-
  What the five control cases of the attention kernel's body share.

  A grid point `(bh, qi, kv)` takes three decisions: whether to reset the carried state (`kv = 0`),
  whether to fold the key block in (`kv ≤ qi`: the block is not wholly above the diagonal), and
  whether to write the output block (`kv = 3`, the last key block).  Each is a comparison of machine
  words computed from the coordinates; here each is read back as a statement about the coordinates
  themselves, checked at all 512 points of the grid.

  The output window is written only at the last key block; elsewhere the body leaves its buffer as it
  found it, and the buffer is not copied back.

  The three buffers that carry the state between points belong to the kernel, not to any window: they
  are split off from the other buffers the core lends the region.
-/
import proofs.«146706_j7413113552965_2_alg».proof.Proof.WFlashState
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The three decisions, in closed form -/

/-- The reset's condition as the body computes it. -/
abbrev cond1_0 (i : grid1.Coords) : Prop :=
  (Scalar.cmpi .ne (Scalar.extui (Scalar.cmpi .eq (BitVec.ofNat 32 (i 2).val) 0#32)) 0#32) = 1#1
/-- It holds exactly at the first key block. -/
theorem hcond1_0 : ∀ t : Fin cfg1.N, cond1_0 (grid1.coords t) ↔ ((grid1.coords t) 2).val = 0 :=
  (by decide +kernel : ∀ t : Fin grid1.N, cond1_0 (grid1.coords t) ↔ ((grid1.coords t) 2).val = 0)

/-- The update's condition as the body computes it. -/
abbrev cond1_1 (i : grid1.Coords) : Prop :=
  (Scalar.cmpi .ne (Scalar.extui (Scalar.cmpi .sle (BitVec.ofNat 32 (i 2).val) (BitVec.ofNat 32 (i 1).val))) 0#32) = 1#1
/-- It holds exactly when the key block is not past the query block. -/
theorem hcond1_1 : ∀ t : Fin cfg1.N, cond1_1 (grid1.coords t) ↔ ((grid1.coords t) 2).val ≤ ((grid1.coords t) 1).val :=
  (by decide +kernel : ∀ t : Fin grid1.N, cond1_1 (grid1.coords t) ↔ ((grid1.coords t) 2).val ≤ ((grid1.coords t) 1).val)

/-- The output's condition as the body computes it. -/
abbrev cond1_2 (i : grid1.Coords) : Prop := k1_cond3 i = 1#1
/-- It holds exactly at the last key block. -/
theorem hcond1_2 : ∀ t : Fin cfg1.N, cond1_2 (grid1.coords t) ↔ ((grid1.coords t) 2).val = 3 :=
  (by decide +kernel : ∀ t : Fin grid1.N, cond1_2 (grid1.coords t) ↔ ((grid1.coords t) 2).val = 3)

/-- The key-block coordinate is below 4 and the query-block coordinate too. -/
theorem coords_lt (t : Fin cfg1.N) : ((grid1.coords t) 2).val < 4 ∧ ((grid1.coords t) 1).val < 4 :=
  ⟨(grid1.coords t 2).isLt, (grid1.coords t 1).isLt⟩

/-- The point after which the first `n + 1` points are done is point `n`: at the very first point the
    key block is the first one. -/
theorem kv_zero_of_first : ∀ t : Fin cfg1.N, t.val = 0 → ((grid1.coords t) 2).val = 0 :=
  (by decide +kernel : ∀ t : Fin grid1.N, t.val = 0 → ((grid1.coords t) 2).val = 0)

/-! ## Where the windows are idle -/

theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
/-- Off the last key block the output window is idle and is not copied back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The buffers the body is called with -/

abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .bf16 := win1_3.stage (cfg1.slots t 3)
abbrev hs1_3 (t : Fin cfg1.N) : (ms1_3 t).IsWhole := hstage1_3 ((cfg1.slots t 3).cast nbuf1_3)
/-- The carried maximum, denominator and weighted sum: whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x128 .f32 := Memref.whole cc1_scratch2

/-! ## The core's other buffers, with the three carried ones split off -/

/-- Every buffer the core lends the region besides its staging buffers and the three carried ones, at
    some contents each. -/
abbrev restBut1 (c : Dev nD) : sProp 𝕄 :=
  Pipeline.scopedRestBut (Ix := Unit) (Name := ℕ) (U := Pipeline.UD sig nD τ) (Lvl := ℕ) (Val := Elt F) spec1 c
    [cc1_scratch0, cc1_scratch1, cc1_scratch2]

/-- What the region lends the body between points, with the carried buffers named: each of the three at
    some contents, the other buffers, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d)) ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.Kernel.Hand

end
-- ==== Proof.WFlashDat.lean ====
/-
  The attention region's proof data: what every buffer holds between grid points.

  The region reads three blocks of one projection array (queries, keys, values) and writes one
  block of the attention output.  Between points the kernel's three own buffers hold the carried
  state — running maximum, running denominator, running weighted sum — after the points done so
  far; the input windows' buffers hold their blocks untouched; the output window's buffer, at a
  point of the last key block, holds the weighted sum over the denominator.

  Before the first point nothing is known of the carried buffers; after any point they hold the
  state named by the recursion over the points.  At the region's end their contents are forgotten
  again.
-/
import proofs.«146706_j7413113552965_2_alg».proof.Proof.WFlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The invariant between points -/

/-- Before the first point: whatever the region lends.  After `n` points: the three carried buffers
    whole at the state after those points, the other lent buffers at anything, the generator
    register at some state. -/
def PhiS1 (c : Dev nD) : (n : ℕ) → n ≤ cfg1.N → sProp 𝕄
  | 0, _ => Pipeline.ΦA spec1 c
  | n + 1, h =>
    iprop(iprop(iprop(owns (c : Thread nD τ) scM1_0 fullShare (scAt1 V c (n + 1) h).1
        ∗ owns (c : Thread nD τ) scM1_1 fullShare (scAt1 V c (n + 1) h).2.1
        ∗ owns (c : Thread nD τ) scM1_2 fullShare (scAt1 V c (n + 1) h).2.2) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After at least one point: the carried buffers at the tracked state. -/
theorem PhiS1_pos (c : Dev nD) (n : ℕ) (h : n ≤ cfg1.N) (hz : n ≠ 0) :
    PhiS1 V c n h
      = iprop(iprop(iprop(owns (c : Thread nD τ) scM1_0 fullShare (scAt1 V c n h).1
        ∗ owns (c : Thread nD τ) scM1_1 fullShare (scAt1 V c n h).2.1
        ∗ owns (c : Thread nD τ) scM1_2 fullShare (scAt1 V c n h).2.2) ∗ restBut1 c) ∗ (∃ r, prngReg c r)) := by
  cases n with
  | zero => exact absurd rfl hz
  | succ n => rfl

/-- Whatever the number of points done, the invariant yields what the region lends: the tracked
    contents are forgotten. -/
theorem PhiS1_forget (c : Dev nD) (n : ℕ) (h : n ≤ cfg1.N) : PhiS1 V c n h ⊢ Pipeline.ΦA spec1 c := by
  by_cases hz : n = 0
  · rw [PhiS1_zero V c n h hz]
  · rw [PhiS1_pos V c n h hz, PhiA1_eq]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-! ## The proof data -/

/-- The arrays as the region finds them; after the body at point `t` each input buffer at its block
    and the output buffer at the weighted sum over the denominator of the state after the point;
    the invariant above; the projection array's buffer dealt in three shares among the three
    windows that read it; nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => stOut (scAt1 V c (t.val + 1) t.isLt)
  Φ t := PhiS1 V c t.val (Nat.le_of_lt_succ t.isLt)
  q := fun
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = stOut (scAt1 V c (t.val + 1) t.isLt) := by dsimp only [dat1]

/-- The invariant at a point's start and end, restated at the number of points done. -/
theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

/-- An input window's buffer holds its block at every point, whether or not the point fetched it:
    unfetched, the block index has not moved. -/
theorem before1_0 (c : Dev nD) (t : Fin cfg1.N) (d) : (dat1 V c).before 0 t d = iblk1 V c 0 t :=
  ((dat1 V c).before_in_eq_fetched 0 rfl liveAt1_0 (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl liveAt1_1 (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl liveAt1_2 (fun _ _ _ => rfl)
      (fun t => by rw [after1_2]; unfold Dat.blockOf iblk1; rw [A_eq1]; try rfl) t d).trans
    (by unfold Dat.fetched Dat.blockOf iblk1; rw [A_eq1]; try rfl)

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact PhiS1_forget V c _ _

end Cert.Kernel.Hand

end
-- ==== Proof.WRunData.lean ====
/-
  What each of the three regions finds and leaves, in order.

  The program is a stretch of host operations, three kernel regions, and a last reshape.  Region 0 finds the launch
  contents after the first stretch and leaves, in the projection's array, what its blocks wrote; region 1 finds that
  and leaves the attention array; region 2 finds that and leaves the result's array.  Each region's proof data is
  taken at the contents the region finds, so the three are defined in stages: the contents a region leaves are named
  before the next region's data mention them.  `outs` collects the three arrays into the one family the program's
  contents between its items are written over.
-/
import proofs.«146706_j7413113552965_2_alg».proof.Proof.WFlashState
import proofs.«146706_j7413113552965_2_alg».proof.Proof.WLin0
import proofs.«146706_j7413113552965_2_alg».proof.Proof.WLin2
import proofs.«146706_j7413113552965_2_alg».proof.Proof.WFlashDat
import proofs.«146706_j7413113552965_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- What region 0 finds: the launch contents after the first host stretch. -/
abbrev VA : (c : Dev nD) → (b : Ref sig .tc) → Buf (Elt F) ((c : Thread nD τ).loc b) := fun c b => Gen.V1 m c b
/-- What region 0 leaves in its output array. -/
def o6 (c : Dev nD) : Buf (Elt F) ((c : Thread nD τ).loc main_v6) := (dat0 (VA m) c).arrAt 3 cfg0.N
/-- What region 1 finds. -/
abbrev VB : (c : Dev nD) → (b : Ref sig .tc) → Buf (Elt F) ((c : Thread nD τ).loc b) :=
  fun c b => Function.update (Gen.V1 m c) main_v6 (o6 m c) b
def o7 (c : Dev nD) : Buf (Elt F) ((c : Thread nD τ).loc main_v7) := (dat1 (VB m) c).arrAt 3 cfg1.N
abbrev VC : (c : Dev nD) → (b : Ref sig .tc) → Buf (Elt F) ((c : Thread nD τ).loc b) :=
  fun c b => Function.update (Function.update (Gen.V1 m c) main_v6 (o6 m c)) main_v7 (o7 m c) b
def o8 (c : Dev nD) : Buf (Elt F) ((c : Thread nD τ).loc main_v8) := (dat2 (VC m) c).arrAt 3 cfg2.N

/-- What the three regions leave, as the one family the conditional frame is stated over. -/
def outs : Gen.Outs (F := F) := fun _ r c =>
  if h6 : r = main_v6 then h6 ▸ o6 m c
  else if h7 : r = main_v7 then h7 ▸ o7 m c
  else if h8 : r = main_v8 then h8 ▸ o8 m c
  else m ((c : Thread nD τ).loc r)

theorem outs_v6 (c : Dev nD) : outs m 2 main_v6 c = o6 m c := by unfold outs; rw [dif_pos rfl]
theorem outs_v7 (c : Dev nD) : outs m 3 main_v7 c = o7 m c := by
  unfold outs; rw [dif_neg (by decide), dif_pos rfl]
theorem outs_v8 (c : Dev nD) : outs m 4 main_v8 c = o8 m c := by
  unfold outs; rw [dif_neg (by decide), dif_neg (by decide), dif_pos rfl]

theorem V2_eq (c : Dev nD) (b : Ref sig .tc) : Gen.V2 m (outs m) c b = VB m c b := by
  simp only [Gen.V2, outs_v6]
theorem V3_eq (c : Dev nD) (b : Ref sig .tc) : Gen.V3 m (outs m) c b = VC m c b := by
  simp only [Gen.V3, Gen.V2, outs_v6, outs_v7]

/-- Every pipeline's proof data, each at its region's entry contents. -/
def pdats : (p : Fin 3) → (c : Dev nD) → Dat τ (Elt F) Unit ℕ (Pipeline.UD sig nD τ) ℕ (cfgs p) c
  | ⟨0, _⟩ => fun c => dat0 (VA m) c
  | ⟨1, _⟩ => fun c => dat1 (VB m) c
  | ⟨2, _⟩ => fun c => dat2 (VC m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Cert.Kernel.Hand

end
-- ==== Proof.WFlashReads.lean ====
/-
  Reading back a buffer that was stored whole.

  The attention kernel's body only ever loads and stores WHOLE buffers: every load and every store
  goes through the rectangle that starts at the origin and has the buffer's own extents.  Three facts
  follow, each stated once here for any buffer shape:

  * a whole load of a buffer whose contents read `X` yields `X`;
  * after a whole store of `w` as the LAST store, the buffer reads `w`, whatever was stored before
    and whatever it held at first;
  * a whole load issued after such a store yields `w`.
-/
import Idealize.ShloMosaic.Lib.Pipeline.FrameBody
import Idealize.ShloMosaic.Lib.Pipeline.Value

noncomputable section

namespace Cert.Kernel.Hand

open Idealize.ShloMosaic Idealize.SL.Sem

variable {Val : EltTy → Type} [∀ e, Nonempty (Val e)] {sig : RefSig} {κ : Kind} {sp : Space} {S : Shape} {e : EltTy}

/-- The origin of a two-axis shape, spelt as a literal pair, is the constant zero offset. -/
theorem origin2 : (![0, 0] : Fin 2 → ℕ) = fun _ => 0 := by
  funext a; fin_cases a <;> rfl

/-- After a whole store of `w` made last, the buffer reads `w`. -/
theorem read_writes_cons_whole (v : View sig κ sp S e) (f : v.ty.Contents Val) {off : Fin S.rank → ℕ}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨_, List.mem_cons.mpr (Or.inl rfl), View.mem_set_unit_zero hz inb y⟩),
    View.canon_cons_unit_zero hz]

/-- A whole load of a whole buffer whose contents read `X` yields `X`. -/
theorem readAt_unread_whole {m : Memref sig κ sp S e} (h : m.IsWhole) {off : Fin S.rank → ℕ}
    (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

/-- A whole load issued after a whole store of `w` yields `w`, whatever was stored earlier. -/
theorem readCov_cons_whole (v : View sig κ sp S e) {off : Fin S.rank → ℕ}
    (hz : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst hz
  rw [View.readCov_eq_canon_ld v _ _ (fun y => ⟨_, List.mem_cons.mpr (Or.inl rfl), View.mem_set_unit_zero rfl inb y⟩),
    View.canon_cons_unit_zero rfl, View.ld_unit_zero rfl]

end Cert.Kernel.Hand

end
-- ==== Proof.WFlashRunA.lean ====
/-
  The body at a grid point of the first key block: the carried state is reset — maximum `−∞`, both
  sums `0` — whatever the three buffers held, and then advanced by the block (the first key block is
  never past the query block).  The output buffer is handed back as found.
-/
import proofs.«146706_j7413113552965_2_alg».proof.Proof.WFlashRuns
import proofs.«146706_j7413113552965_2_alg».proof.Proof.WFlashReads

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Reset, update, no output: whatever the carried buffers held, they end at the initial state
    advanced by the block. -/
theorem kernelRun1_A (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : cond1_0 i) (hc1 : cond1_1 i) (hc2 : ¬cond1_2 i)
    (x0 x1 x2 : Vec F S512x128 .bf16) (y : Vec F S512x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (stUpd (BitVec.ofNat 32 (i 1).val) (BitVec.ofNat 32 (i 2).val) x0 x1 x2 (stInit (F := F))).1
            ∗ owns (c : Thread nD τ) arg8 fullShare (stUpd (BitVec.ofNat 32 (i 1).val) (BitVec.ofNat 32 (i 2).val) x0 x1 x2 (stInit (F := F))).2.1
            ∗ owns (c : Thread nD τ) arg9 fullShare (stUpd (BitVec.ofNat 32 (i 1).val) (BitVec.ofNat 32 (i 2).val) x0 x1 x2 (stInit (F := F))).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%e0, %g0, -, HS0⟩, ⟨%e1, %g1, -, HS1⟩, ⟨%e2, %g2, -, HS2⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    (try sl_unfold_run_names)
    rw [read_writes_cons_whole arg7.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS1]
  · iexists _; isplitr; swap; · iexact HS1
    ipureintro
    (try sl_unfold_run_names)
    rw [read_writes_cons_whole arg8.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  iexists _; isplitr; swap; · iexact HS2
  ipureintro
  (try sl_unfold_run_names)
  rw [read_writes_cons_whole arg9.view _ origin2]
  (try sl_unfold_run_names)
  simp only [readAt_unread_whole harg3 origin2, readAt_unread_whole harg4 origin2, readAt_unread_whole harg5 origin2,
    readAt_unread_whole harg7 origin2, readAt_unread_whole harg8 origin2, readAt_unread_whole harg9 origin2,
    readCov_cons_whole arg7.view origin2, readCov_cons_whole arg8.view origin2, readCov_cons_whole arg9.view origin2]
  rfl

end Cert.Kernel.Hand

end
-- ==== Proof.WFlashRunB.lean ====
/-
  The body at a grid point strictly inside a row of key blocks (not the first, not the last) whose
  key block is not past the query block: the carried state is advanced by the block, nothing else
  happens.  The output buffer is handed back as found.
-/
import proofs.«146706_j7413113552965_2_alg».proof.Proof.WFlashRuns
import proofs.«146706_j7413113552965_2_alg».proof.Proof.WFlashReads

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- No reset, update, no output: from the three input blocks `x0`, `x1`, `x2` and the carried state
    `s` the body leaves the inputs and the output buffer as they were and the carried buffers at the
    state advanced by the block. -/
theorem kernelRun1_B (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : cond1_1 i) (hc2 : ¬cond1_2 i)
    (x0 x1 x2 y : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (stUpd (BitVec.ofNat 32 (i 1).val) (BitVec.ofNat 32 (i 2).val) x0 x1 x2 s).1
            ∗ owns (c : Thread nD τ) arg8 fullShare (stUpd (BitVec.ofNat 32 (i 1).val) (BitVec.ofNat 32 (i 2).val) x0 x1 x2 s).2.1
            ∗ owns (c : Thread nD τ) arg9 fullShare (stUpd (BitVec.ofNat 32 (i 1).val) (BitVec.ofNat 32 (i 2).val) x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg6.eq_unread hf3
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    rw [read_writes_cons_whole _ _ origin2]
    sl_unfold_run_names
    simp only [readAt_unread_whole harg3 origin2, readAt_unread_whole harg4 origin2, readAt_unread_whole harg5 origin2,
      readAt_unread_whole harg7 origin2, readAt_unread_whole harg8 origin2, readAt_unread_whole harg9 origin2]
    rfl
  isplitl [HS1]
  · iexists _; isplitr; swap; · iexact HS1
    ipureintro
    rw [read_writes_cons_whole _ _ origin2]
    simp only [readAt_unread_whole harg3 origin2, readAt_unread_whole harg4 origin2, readAt_unread_whole harg5 origin2,
      readAt_unread_whole harg7 origin2, readAt_unread_whole harg8 origin2, readAt_unread_whole harg9 origin2]
    rfl
  iexists _; isplitr; swap; · iexact HS2
  ipureintro
  rw [read_writes_cons_whole _ _ origin2]
  sl_unfold_run_names
  simp only [readAt_unread_whole harg3 origin2, readAt_unread_whole harg4 origin2, readAt_unread_whole harg5 origin2,
      readAt_unread_whole harg7 origin2, readAt_unread_whole harg8 origin2, readAt_unread_whole harg9 origin2]
  rfl

end Cert.Kernel.Hand

end
-- ==== Proof.WFlashRunC.lean ====
/-
  The body at a grid point whose key block lies wholly above the diagonal and is not the last:
  nothing is loaded, nothing stored; every buffer is handed back as found.
-/
import proofs.«146706_j7413113552965_2_alg».proof.Proof.WFlashRuns
import proofs.«146706_j7413113552965_2_alg».proof.Proof.WFlashReads

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- No reset, no update, no output: every buffer as it was. -/
theorem kernelRun1_C (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : ¬cond1_1 i) (hc2 : ¬cond1_2 i)
    (x0 x1 x2 : Vec F S512x128 .bf16) (y : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare s.1
            ∗ owns (c : Thread nD τ) arg8 fullShare s.2.1
            ∗ owns (c : Thread nD τ) arg9 fullShare s.2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%f3, %hf3, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg6.eq_unread hf3
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; swap; · iexact HS0
    ipureintro
    exact harg7.read_unread _
  isplitl [HS1]
  · iexists _; isplitr; swap; · iexact HS1
    ipureintro
    exact harg8.read_unread _
  iexists _; isplitr; swap; · iexact HS2
  ipureintro
  exact harg9.read_unread _

end Cert.Kernel.Hand

end
-- ==== Proof.WFlashRunD.lean ====
/-
  The body at the grid point of the last key block on the diagonal (query block and key block both
  the last): the carried state is advanced by the block, and the output block is written from the
  advanced state: the weighted sum over the denominator.
-/
import proofs.«146706_j7413113552965_2_alg».proof.Proof.WFlashRuns
import proofs.«146706_j7413113552965_2_alg».proof.Proof.WFlashReads

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- No reset, update, output: the carried buffers at the state advanced by the block, the output
    buffer at the weighted sum over the denominator of that state. -/
theorem kernelRun1_D (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : cond1_1 i) (hc2 : cond1_2 i)
    (x0 x1 x2 : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (stOut (stUpd (BitVec.ofNat 32 (i 1).val) (BitVec.ofNat 32 (i 2).val) x0 x1 x2 s))
            ∗ owns (c : Thread nD τ) arg7 fullShare (stUpd (BitVec.ofNat 32 (i 1).val) (BitVec.ofNat 32 (i 2).val) x0 x1 x2 s).1
            ∗ owns (c : Thread nD τ) arg8 fullShare (stUpd (BitVec.ofNat 32 (i 1).val) (BitVec.ofNat 32 (i 2).val) x0 x1 x2 s).2.1
            ∗ owns (c : Thread nD τ) arg9 fullShare (stUpd (BitVec.ofNat 32 (i 1).val) (BitVec.ofNat 32 (i 2).val) x0 x1 x2 s).2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    (try sl_unfold_run_names)
    rw [read_writes_cons_whole arg6.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS0]
  · iexists _; isplitr; swap; · iexact HS0
    ipureintro
    (try sl_unfold_run_names)
    rw [read_writes_cons_whole arg7.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  isplitl [HS1]
  · iexists _; isplitr; swap; · iexact HS1
    ipureintro
    (try sl_unfold_run_names)
    rw [read_writes_cons_whole arg8.view _ origin2]
    (try sl_unfold_run_names)
    simp only [readAt_unread_whole harg3 origin2, readAt_unread_whole harg4 origin2, readAt_unread_whole harg5 origin2,
      readAt_unread_whole harg7 origin2, readAt_unread_whole harg8 origin2, readAt_unread_whole harg9 origin2,
      readCov_cons_whole arg7.view origin2, readCov_cons_whole arg8.view origin2, readCov_cons_whole arg9.view origin2]
    rfl
  iexists _; isplitr; swap; · iexact HS2
  ipureintro
  (try sl_unfold_run_names)
  rw [read_writes_cons_whole arg9.view _ origin2]
  (try sl_unfold_run_names)
  simp only [readAt_unread_whole harg3 origin2, readAt_unread_whole harg4 origin2, readAt_unread_whole harg5 origin2,
    readAt_unread_whole harg7 origin2, readAt_unread_whole harg8 origin2, readAt_unread_whole harg9 origin2,
    readCov_cons_whole arg7.view origin2, readCov_cons_whole arg8.view origin2, readCov_cons_whole arg9.view origin2]
  rfl

end Cert.Kernel.Hand

end
-- ==== Proof.WFlashRunE.lean ====
/-
  The body at a grid point of the last key block whose query block comes before it: the key block
  lies wholly above the diagonal, so the carried state stays, and the output block is written from
  it: the weighted sum over the denominator.
-/
import proofs.«146706_j7413113552965_2_alg».proof.Proof.WFlashRuns
import proofs.«146706_j7413113552965_2_alg».proof.Proof.WFlashReads

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- No reset, no update, output: the carried buffers as they were, the output buffer at the
    weighted sum over the denominator of the carried state. -/
theorem kernelRun1_E (c : Dev nD) (i : grid1.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x128 .f32) (harg9 : arg9.IsWhole)
    (hc0 : ¬cond1_0 i) (hc1 : ¬cond1_1 i) (hc2 : cond1_2 i)
    (x0 x1 x2 : Vec F S512x128 .bf16) (s : St F) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (stOut s)
            ∗ owns (c : Thread nD τ) arg7 fullShare s.1
            ∗ owns (c : Thread nD τ) arg8 fullShare s.2.1
            ∗ owns (c : Thread nD τ) arg9 fullShare s.2.2) -∗ K ⟨⟩))
      ⊢ wp frame (wpE (defs₀ (F := F)) Variants.none c none) E
          (cc1_flash_kernel i arg3 harg3 arg4 harg4 arg5 harg5 arg6 harg6 arg7 harg7 arg8 harg8 arg9 harg9) K := by
  simp only [cc1_flash_kernel_eq_skeleton]; unfold cc1_flash_kernel_skel
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2
  obtain rfl := harg7.eq_unread hg0; obtain rfl := harg8.eq_unread hg1; obtain rfl := harg9.eq_unread hg2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    rw [read_writes_cons_whole _ _ origin2]
    simp only [readAt_unread_whole harg3 origin2, readAt_unread_whole harg4 origin2, readAt_unread_whole harg5 origin2,
      readAt_unread_whole harg7 origin2, readAt_unread_whole harg8 origin2, readAt_unread_whole harg9 origin2]
    rfl
  isplitl [HS0]
  · iexists _; isplitr; swap; · iexact HS0
    ipureintro
    exact harg7.read_unread _
  isplitl [HS1]
  · iexists _; isplitr; swap; · iexact HS1
    ipureintro
    exact harg8.read_unread _
  iexists _; isplitr; swap; · iexact HS2
  ipureintro
  exact harg9.read_unread _

end Cert.Kernel.Hand

end
-- ==== Proof.WFlashBody.lean ====
/-
  The attention kernel's body meets its obligation at every grid point.

  A point is in one of five situations, told apart by its key-block and query-block coordinates:
  the first key block (reset, then fold the block in); a middle key block not past the query block
  (fold it in); a middle key block past the query block (nothing); the last key block on the
  diagonal (fold it in, then write the output); the last key block past the query block (write the
  output).  In each the state the carried buffers end with is one step of the recursion that names
  the state after each point, with that situation's decisions taken; and the output block, when
  written, is the weighted sum over the denominator of that state.
-/
import proofs.«146706_j7413113552965_2_alg».proof.Proof.WFlashDat
import proofs.«146706_j7413113552965_2_alg».proof.Proof.WFlashRunA
import proofs.«146706_j7413113552965_2_alg».proof.Proof.WFlashRunB
import proofs.«146706_j7413113552965_2_alg».proof.Proof.WFlashRunC
import proofs.«146706_j7413113552965_2_alg».proof.Proof.WFlashRunD
import proofs.«146706_j7413113552965_2_alg».proof.Proof.WFlashRunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## One step of the state, decision by decision -/

theorem stStep_reset (i : grid1.Coords) (q k v : Vec F S512x128 .bf16) (s : St F)
    (h0 : (i 2).val = 0) (h1 : (i 2).val ≤ (i 1).val) :
    stStep i q k v s = stUpd (BitVec.ofNat 32 (i 1).val) (BitVec.ofNat 32 (i 2).val) q k v stInit := by
  unfold stStep; dsimp only; rw [if_pos h0, if_pos h1]

theorem stStep_update (i : grid1.Coords) (q k v : Vec F S512x128 .bf16) (s : St F)
    (h0 : ¬(i 2).val = 0) (h1 : (i 2).val ≤ (i 1).val) :
    stStep i q k v s = stUpd (BitVec.ofNat 32 (i 1).val) (BitVec.ofNat 32 (i 2).val) q k v s := by
  unfold stStep; dsimp only; rw [if_neg h0, if_pos h1]

theorem stStep_skip (i : grid1.Coords) (q k v : Vec F S512x128 .bf16) (s : St F)
    (h0 : ¬(i 2).val = 0) (h1 : ¬(i 2).val ≤ (i 1).val) :
    stStep i q k v s = s := by
  unfold stStep; dsimp only; rw [if_neg h0, if_neg h1]

/-- The state after point `t` is one step from the state before it. -/
theorem scAt1_at (c : Dev nD) (t : Fin cfg1.N) :
    scAt1 V c (t.val + 1) t.isLt
      = stStep (grid1.coords t) (iblk1 V c 0 t) (iblk1 V c 1 t) (iblk1 V c 2 t) (scAt1 V c t.val (Nat.le_of_lt t.isLt)) :=
  scAt1_succ V c t.val t.isLt

/-! ## The obligation at a point -/

/-- What the body is called with at point `t`: the invariant, what the core owes, and each window's
    current buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input buffers hold their blocks; the coordinates say which of the five
    situations the point is in; that situation's run applies, taking the carried buffers at the state
    before the point (at anything, at a first key block) and giving them back at the state after it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc]
  rw [show (dat1 V c).leavesExact 0 t = owns (c : Thread nD τ) (ms1_0 t) fullShare ((dat1 V c).after 0 t) from by
    unfold Dat.leavesExact; rw [liveAt1_0 (grid1.coords t)], after1_0]
  rw [show (dat1 V c).leavesExact 1 t = owns (c : Thread nD τ) (ms1_1 t) fullShare ((dat1 V c).after 1 t) from by
    unfold Dat.leavesExact; rw [liveAt1_1 (grid1.coords t)], after1_1]
  rw [show (dat1 V c).leavesExact 2 t = owns (c : Thread nD τ) (ms1_2 t) fullShare ((dat1 V c).after 2 t) from by
    unfold Dat.leavesExact; rw [liveAt1_2 (grid1.coords t)], after1_2]
  rw [PhiS1_pos V c (t.val + 1) t.isLt (Nat.succ_ne_zero _)]
  obtain ⟨hkv, hqi⟩ := coords_lt t
  by_cases h0 : ((grid1.coords t) 2).val = 0
  · have h1 : ((grid1.coords t) 2).val ≤ ((grid1.coords t) 1).val := by omega
    have h2 : ¬((grid1.coords t) 2).val = 3 := by omega
    rw [Dat.leavesExact_idle (dat1 V c) 3 t (idleAt1_3 t (fun h => h2 ((hcond1_2 t).mp h))) (noFlush1_3 t (fun h => h2 ((hcond1_2 t).mp h)))]
    rw [scAt1_at V c t, stStep_reset (grid1.coords t) (iblk1 V c 0 t) (iblk1 V c 1 t) (iblk1 V c 2 t) (scAt1 V c t.val (Nat.le_of_lt t.isLt)) h0 h1]
    refine (sep_mono_left (PhiS1_forget V c _ _)).trans ?_
    rw [PhiA1_eq]
    iintro ⟨⟨⟨⟨HS0, HS1, HS2⟩, HR⟩, Hg⟩, Ho, ⟨%d0, H0⟩, ⟨%d1, H1⟩, ⟨%d2, H2⟩, ⟨%d3, H3⟩⟩
    iapply (kernelRun1_A c (grid1.coords t) _ _ _ _ _ _ _ _ _ _ _ _ _ _ ((hcond1_0 t).mpr h0) ((hcond1_1 t).mpr h1) (fun h => h2 ((hcond1_2 t).mp h))
      (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    iexists _; iexact H3
  · by_cases h1 : ((grid1.coords t) 2).val ≤ ((grid1.coords t) 1).val
    · by_cases h2 : ((grid1.coords t) 2).val = 3
      · rw [show (dat1 V c).leavesExact 3 t = owns (c : Thread nD τ) (ms1_3 t) fullShare ((dat1 V c).after 3 t) from by
          unfold Dat.leavesExact; rw [liveAt1_3 t ((hcond1_2 t).mpr h2)], after1_3]
        rw [scAt1_at V c t, stStep_update (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_D c (grid1.coords t) _ _ _ _ _ _ _ _ _ _ _ _ _ _ (fun h => h0 ((hcond1_0 t).mp h)) ((hcond1_1 t).mpr h1) ((hcond1_2 t).mpr h2)
          (iblk1 V c 0 t) (iblk1 V c 1 t) (iblk1 V c 2 t) (scAt1 V c t.val (Nat.le_of_lt t.isLt)) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt1_at V c t, stStep_update (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_B c (grid1.coords t) _ _ _ _ _ _ _ _ _ _ _ _ _ _ (fun h => h0 ((hcond1_0 t).mp h)) ((hcond1_1 t).mpr h1) (fun h => h2 ((hcond1_2 t).mp h))
          (iblk1 V c 0 t) (iblk1 V c 1 t) (iblk1 V c 2 t) _ (scAt1 V c t.val (Nat.le_of_lt t.isLt)) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3
    · by_cases h2 : ((grid1.coords t) 2).val = 3
      · rw [show (dat1 V c).leavesExact 3 t = owns (c : Thread nD τ) (ms1_3 t) fullShare ((dat1 V c).after 3 t) from by
          unfold Dat.leavesExact; rw [liveAt1_3 t ((hcond1_2 t).mpr h2)], after1_3]
        rw [scAt1_at V c t, stStep_skip (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_E c (grid1.coords t) _ _ _ _ _ _ _ _ _ _ _ _ _ _ (fun h => h0 ((hcond1_0 t).mp h)) (fun h => h1 ((hcond1_1 t).mp h)) ((hcond1_2 t).mpr h2)
          (iblk1 V c 0 t) (iblk1 V c 1 t) (iblk1 V c 2 t) (scAt1 V c t.val (Nat.le_of_lt t.isLt)) Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt1_at V c t, stStep_skip (grid1.coords t) (iblk1 V c 0 t) (iblk1 V c 1 t) (iblk1 V c 2 t) (scAt1 V c t.val (Nat.le_of_lt t.isLt)) h0 h1]
        rw [PhiS1_pos V c t.val _ (fun e => h0 (kv_zero_of_first t e))]
        iintro ⟨⟨⟨⟨HS0, HS1, HS2⟩, HR⟩, Hg⟩, Ho, ⟨%d0, H0⟩, ⟨%d1, H1⟩, ⟨%d2, H2⟩, ⟨%d3, H3⟩⟩
        iapply (kernelRun1_C c (grid1.coords t) _ _ _ _ _ _ _ _ _ _ _ _ _ _ (fun h => h0 ((hcond1_0 t).mp h)) (fun h => h1 ((hcond1_1 t).mp h)) (fun h => h2 ((hcond1_2 t).mp h))
          (iblk1 V c 0 t) (iblk1 V c 1 t) (iblk1 V c 2 t) _ (scAt1 V c t.val (Nat.le_of_lt t.isLt)) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 HR Hg]
        · isplitl [HS0 HS1 HS2 HR]
          · isplitl [HS0 HS1 HS2]
            · isplitl [HS0]; · iexact HS0
              isplitl [HS1]; · iexact HS1
              iexact HS2
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.WRun.lean ====
/-
  The program's run, from the three regions' proof data and body obligations.

  Between two items of the program a core holds every unscoped buffer whole at known contents, its generator register
  at some state, and owes nothing.  Each region is entered from that state and left in it: at entry the buffers behind
  the region's arrays are handed to the region's windows and the rest set aside; at exit the arrays, now at what the
  blocks' write-backs leave, are put back beside the rest.  Regions 0 and 2 have one array per window.  Region 1 reads
  the projection's array through three windows at once (queries, keys, values), so its one buffer is dealt among the
  three — a half and two quarters of the whole — at entry and made whole again at exit.

  The conclusion: every weakly fair execution of the program ends, nothing faulting, with the result's buffer at the
  last reshape of what region 2 wrote and every argument as launched.
-/
import proofs.«146706_j7413113552965_2_alg».proof.Proof.WRunData
import proofs.«146706_j7413113552965_2_alg».proof.Proof.WFlashBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## Region 1's arrays: one buffer dealt among three input windows -/
section Deal
variable (c : Dev nD) (V : (b : Ref sig .tc) → Buf (Elt F) ((c : Thread nD τ).loc b))
  (dat : Dat τ (Elt F) Unit ℕ (Pipeline.UD sig nD τ) ℕ cfg1 c)
  (F' : (w : Fin cfg1.W) → Buf (Elt F) ((cfg1.win w).arr.view.loc (c : Thread nD τ)))

/-- Region 1's arrays, window by window, each a whole buffer at the window's share. -/
theorem arrays1_eq :
    dat.arrays F' = bigSep Finset.univ fun w : Fin cfg1.W =>
      ((((c : Thread nD τ).loc (Pipeline.arrRef spec1 w)) ↦{dat.share w} F' w : sProp 𝕄)) := by
  unfold Pipeline.Dat.arrays
  exact bigSep_congr fun w _ => by rw [(arr_whole1 w).set_eq_univ]

/-- The projection's buffer held whole is dealt among the query, key and value windows — a half and two quarters —
    and the output's buffer goes to the output window whole. -/
theorem deal1 (hq0 : dat.q 0 = fullShare.left) (hq1 : dat.q 1 = fullShare.right.left) (hq2 : dat.q 2 = fullShare.right.right)
    (hF : ∀ w, F' w = V (Pipeline.arrRef spec1 w)) :
    (Pipeline.arrBufs spec1 c V : sProp 𝕄) ⊢ dat.arrays F' := by
  rw [arrays1_eq, bigSep_W1]
  unfold Pipeline.arrBufs
  rw [BI.bigSep_eq_bigSepL_of_eq [main_v6, main_v7] (by decide) (by decide)]
  simp only [Pipeline.Dat.share, Bool.false_eq_true, if_false, if_true, hq0, hq1, hq2, hF]
  have s1 := (pointsTo_share (Ix := Unit) (Name := ℕ) (U := Pipeline.UD sig nD τ) (Lvl := ℕ)
    (ℓ := (c : Thread nD τ).loc main_v6) (I := Finset.univ) (f := V main_v6) (PosShare.mem_left_op_right fullShare)).1
  have s2 := (pointsTo_share (Ix := Unit) (Name := ℕ) (U := Pipeline.UD sig nD τ) (Lvl := ℕ)
    (ℓ := (c : Thread nD τ).loc main_v6) (I := Finset.univ) (f := V main_v6) (PosShare.mem_left_op_right fullShare.right)).1
  change iprop((((c : Thread nD τ).loc main_v6) ↦{fullShare} V main_v6) ∗ (((c : Thread nD τ).loc main_v7) ↦{fullShare} V main_v7)) ⊢ _
  iintro ⟨H6, H7⟩
  ihave H := s1 $$ H6
  icases H with ⟨HL, HR⟩
  ihave H' := s2 $$ HR
  icases H' with ⟨HRL, HRR⟩
  isplitl [HL]; · iexact HL
  isplitl [HRL]; · iexact HRL
  isplitl [HRR]; · iexact HRR
  iexact H7

/-- The converse: the three windows' shares of the projection's buffer make it whole again. -/
theorem undeal1 (hq0 : dat.q 0 = fullShare.left) (hq1 : dat.q 1 = fullShare.right.left) (hq2 : dat.q 2 = fullShare.right.right)
    (hF : ∀ w, F' w = V (Pipeline.arrRef spec1 w)) :
    dat.arrays F' ⊢ (Pipeline.arrBufs spec1 c V : sProp 𝕄) := by
  rw [arrays1_eq, bigSep_W1]
  unfold Pipeline.arrBufs
  rw [BI.bigSep_eq_bigSepL_of_eq [main_v6, main_v7] (by decide) (by decide)]
  simp only [Pipeline.Dat.share, Bool.false_eq_true, if_false, if_true, hq0, hq1, hq2, hF]
  have s1 := (pointsTo_share (Ix := Unit) (Name := ℕ) (U := Pipeline.UD sig nD τ) (Lvl := ℕ)
    (ℓ := (c : Thread nD τ).loc main_v6) (I := Finset.univ) (f := V main_v6) (PosShare.mem_left_op_right fullShare)).2
  have s2 := (pointsTo_share (Ix := Unit) (Name := ℕ) (U := Pipeline.UD sig nD τ) (Lvl := ℕ)
    (ℓ := (c : Thread nD τ).loc main_v6) (I := Finset.univ) (f := V main_v6) (PosShare.mem_left_op_right fullShare.right)).2
  change _ ⊢ iprop((((c : Thread nD τ).loc main_v6) ↦{fullShare} V main_v6) ∗ (((c : Thread nD τ).loc main_v7) ↦{fullShare} V main_v7))
  iintro ⟨HL, HRL, HRR, H7⟩
  ihave HR := s2 $$ [HRL HRR]
  · isplitl [HRL]; · iexact HRL
    iexact HRR
  ihave H6 := s1 $$ [HL HR]
  · isplitl [HL]; · iexact HL
    iexact HR
  isplitl [H6]; · iexact H6
  iexact H7
end Deal

/-- After region 0 every array of its windows holds what the write-backs leave: the three inputs as entered, the
    output what the blocks wrote. -/
theorem hF0 (c : Dev nD) (w : Fin cfg0.W) :
    (dat0 (VA m) c).arrAt w cfg0.N = Gen.V2 m (outs m) c (Pipeline.arrRef spec0 w) := by
  match w with
  | ⟨0, _⟩ => exact (((dat0 (VA m) c).arrAt_in 0 rfl _).trans (A_eq0 (VA m) c 0)).trans (Gen.V2_of m (outs m) c _ (by decide)).symm
  | ⟨1, _⟩ => exact (((dat0 (VA m) c).arrAt_in 1 rfl _).trans (A_eq0 (VA m) c 1)).trans (Gen.V2_of m (outs m) c _ (by decide)).symm
  | ⟨2, _⟩ => exact (((dat0 (VA m) c).arrAt_in 2 rfl _).trans (A_eq0 (VA m) c 2)).trans (Gen.V2_of m (outs m) c _ (by decide)).symm
  | ⟨3, _⟩ => exact ((V2_eq m c main_v6).trans (by simp only [VB, Function.update_self]; rfl)).symm

/-- Region 0 changes no buffer but its windows' arrays. -/
theorem hrest0 (c : Dev nD) : ∀ b, b ∉ Finset.univ.image (Pipeline.arrRef spec0) →
    Gen.V2 m (outs m) c b = Gen.V1 m c b := fun b hb =>
  Gen.V2_of m (outs m) c b fun h => hb (by
    rw [List.mem_singleton.mp h]; exact Finset.mem_image.mpr ⟨3, Finset.mem_univ _, rfl⟩)

set_option backward.isDefEq.respectTransparency.types false in
/-- Region 0 over the thread state "every unscoped buffer whole, the generator register, nothing owed": entered at
    the contents the first host stretch leaves, left with the output array at what its blocks wrote. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VA m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem V2_fun (c : Dev nD) : Gen.V2 m (outs m) c = Function.update (Gen.V1 m c) main_v6 (o6 m c) := by
  show Function.update (Gen.V1 m c) main_v6 (outs m 2 main_v6 c) = _; rw [outs_v6]
theorem V3_fun (c : Dev nD) :
    Gen.V3 m (outs m) c = Function.update (Function.update (Gen.V1 m c) main_v6 (o6 m c)) main_v7 (o7 m c) := by
  show Function.update (Function.update (Gen.V1 m c) main_v6 (outs m 2 main_v6 c)) main_v7 (outs m 3 main_v7 c) = _
  rw [outs_v6, outs_v7]

/-! ## Region 1 -/

/-- After region 1 the projection's array is as entered and the attention array holds what the blocks wrote. -/
theorem hF1 (c : Dev nD) (w : Fin cfg1.W) :
    (dat1 (VB m) c).arrAt w cfg1.N = Gen.V3 m (outs m) c (Pipeline.arrRef spec1 w) := by
  match w with
  | ⟨0, _⟩ => exact (((dat1 (VB m) c).arrAt_in 0 rfl _).trans (A_eq1 (VB m) c 0)).trans ((Gen.V3_of m (outs m) c _ (by decide)).trans (V2_eq m c _)).symm
  | ⟨1, _⟩ => exact (((dat1 (VB m) c).arrAt_in 1 rfl _).trans (A_eq1 (VB m) c 1)).trans ((Gen.V3_of m (outs m) c _ (by decide)).trans (V2_eq m c _)).symm
  | ⟨2, _⟩ => exact (((dat1 (VB m) c).arrAt_in 2 rfl _).trans (A_eq1 (VB m) c 2)).trans ((Gen.V3_of m (outs m) c _ (by decide)).trans (V2_eq m c _)).symm
  | ⟨3, _⟩ => exact (show Function.update (Gen.V2 m (outs m) c) main_v7 (outs m 3 main_v7 c) main_v7 = _ by
      rw [Function.update_self, outs_v7]; rfl).symm

theorem hrest1 (c : Dev nD) : ∀ b, b ∉ Finset.univ.image (Pipeline.arrRef spec1) →
    Gen.V3 m (outs m) c b = VB m c b := fun b hb =>
  (Gen.V3_of m (outs m) c b fun h => hb (by
    rw [List.mem_singleton.mp h]; exact Finset.mem_image.mpr ⟨3, Finset.mem_univ _, rfl⟩)).trans (V2_eq m c b)

theorem hunscoped1 : ∀ w, (Pipeline.arrRef spec1 w).isScoped = false := by decide

set_option backward.isDefEq.respectTransparency.types false in
/-- Region 1 over the same thread state: entered with the projection's array at what region 0 wrote — its buffer
    dealt among the three windows that read it — and left with the attention array at what its blocks wrote. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := by
    rw [Pipeline.ownSems0_none, V2_fun m c]
    have hsp := Pipeline.unscopedBufs_split₀ (Ix := Unit) (Name := ℕ) (U := Pipeline.UD sig nD τ) (Lvl := ℕ) cfgs 1 hunscoped1 c (VB m c)
    rw [Pipeline.unscopedBufs_held] at hsp
    have hdeal := deal1 c (VB m c) (pdats m 1 c) ((pdats m 1 c).arrAt · 0) rfl rfl rfl (fun w => A_eq1 (VB m) c w)
    iintro ⟨⟨Hub, Hp, HO⟩, -, -⟩
    ihave H := (Entails.of_eq hsp) $$ Hub
    icases H with ⟨Hab, Hrest⟩
    ihave Ha := hdeal $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (VB m) c)
    unfold Pipeline.ΦA
    iintro ⟨Hp, -, Hr⟩
    isplitl [Hr]; · iexact Hr
    iexact Hp
  hout c := by
    refine (hout1 (VB m) c).trans ?_
    rw [Pipeline.ownSems0_none]; unfold Pipeline.ΦA
    iintro ⟨Hr, Hp⟩
    isplitl [Hp]; · iexact Hp
    isplitr; · iempintro
    iexact Hr
  hexit c := by
    have hund := undeal1 c (fun b => Gen.V3 m (outs m) c b) (pdats m 1 c) ((pdats m 1 c).arrAt · cfg1.N) rfl rfl rfl (hF1 m c)
    have hsp := Pipeline.unscopedBufs_split₀ (Ix := Unit) (Name := ℕ) (U := Pipeline.UD sig nD τ) (Lvl := ℕ) cfgs 1 hunscoped1 c (fun b => Gen.V3 m (outs m) c b)
    rw [Pipeline.unscopedBufs_held] at hsp
    have hre : (Pipeline.unscopedRest (Ix := Unit) (Name := ℕ) (U := Pipeline.UD sig nD τ) (Lvl := ℕ) spec1 c (VB m c) : sProp 𝕄)
        = Pipeline.unscopedRest spec1 c (fun b => Gen.V3 m (outs m) c b) := by
      unfold Pipeline.unscopedRest
      exact bigSep_congr fun b hb => congrArg (fun x => ((((c : Thread nD τ).loc b) ↦{fullShare} x : sProp 𝕄)))
        (hrest1 m c b (Finset.mem_sdiff.mp hb).2).symm
    iintro ⟨Ha, HO, HY, Hrest⟩
    ihave Hab := hund $$ Ha
    ihave Hrest' := (Entails.of_eq hre) $$ Hrest
    ihave Hub := (Entails.of_eq hsp.symm) $$ [Hab Hrest']
    · isplitl [Hab]; · iexact Hab
      iexact Hrest'
    imodintro
    isplitl [Hub]; · iexact Hub
    isplitl [HY]; · iexact HY
    unfold Pipeline.Dat.owesAt Pipeline.owesWithin
    icases HO with ⟨%W, -, HO⟩; iexists W; iexact HO

/-! ## Region 2 -/

theorem hF2 (c : Dev nD) (w : Fin cfg2.W) :
    (dat2 (VC m) c).arrAt w cfg2.N = Gen.V4 m (outs m) c (Pipeline.arrRef spec2 w) := by
  match w with
  | ⟨0, _⟩ => exact (((dat2 (VC m) c).arrAt_in 0 rfl _).trans (A_eq2 (VC m) c 0)).trans ((Gen.V4_of m (outs m) c _ (by decide)).trans (V3_eq m c _)).symm
  | ⟨1, _⟩ => exact (((dat2 (VC m) c).arrAt_in 1 rfl _).trans (A_eq2 (VC m) c 1)).trans ((Gen.V4_of m (outs m) c _ (by decide)).trans (V3_eq m c _)).symm
  | ⟨2, _⟩ => exact (((dat2 (VC m) c).arrAt_in 2 rfl _).trans (A_eq2 (VC m) c 2)).trans ((Gen.V4_of m (outs m) c _ (by decide)).trans (V3_eq m c _)).symm
  | ⟨3, _⟩ => exact (show Function.update (Gen.V3 m (outs m) c) main_v8 (outs m 4 main_v8 c) main_v8 = _ by
      rw [Function.update_self, outs_v8]; rfl).symm

theorem hrest2 (c : Dev nD) : ∀ b, b ∉ Finset.univ.image (Pipeline.arrRef spec2) →
    Gen.V4 m (outs m) c b = VC m c b := fun b hb =>
  (Gen.V4_of m (outs m) c b fun h => hb (by
    rw [List.mem_singleton.mp h]; exact Finset.mem_image.mpr ⟨3, Finset.mem_univ _, rfl⟩)).trans (V3_eq m c b)

set_option backward.isDefEq.respectTransparency.types false in
/-- Region 2 over the same thread state: entered with the attention array at what region 1 wrote, left with the
    result's array at what its blocks wrote. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (VC m c)
  hentry c := by
    rw [Pipeline.ownSems0_none, V3_fun m c]
    have hsplit := Pipeline.arrays_of_unscopedBufs (p := 2) (pcfgs (F := F)) Gen.adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (VC m c) (fun b => Gen.V4 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The state riding beside the buffers at each of @main's four inner boundaries. -/
abbrev E : Fin 4 → Dev nD → sProp 𝕄 := fun _ c => R (F := F) c

open Idealize.ShloMosaic.Pipeline (Seg) in
set_option backward.isDefEq.respectTransparency.types false in
/-- THE RUN. From any memory with zero counters every weakly fair execution of @main ends, nothing faulting, with the
    result's buffer holding the last host stretch's reshape of what region 2 wrote and every argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v9) = Gen.V5 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj embL defs₀ 𝒱₀ L lv m ρ main
    (Gen.segs m (outs m) 𝒱₀ L lv (E (F := F)) () (pdats m) (reg0 m) (reg1 m) (reg2 m))
    (fun c Q => by
      rewrite [main_chain c, Seg.run_eq_chain,
        show (Gen.segs m (outs m) 𝒱₀ L lv (E (F := F)) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, HO⟩; iexact HO)⟩)
    (hinit := ?_)
    (QY := fun c s => s.mem ((c.tc : Thread nD τ).loc main_v9) = Gen.V5 m (outs m) c main_v9
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h => h)
  · -- the launch: every unscoped buffer held at its launch contents, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c)⟩
    · iexact HSI

end Cert.Kernel.Hand

end
-- ==== Proof.LibRowDot.lean ====
/-
  A matrix product with BOTH operands contracted along their second axis, [M, K] × [N, K] → [M, N], read at an index
  over the extended reals.

  This is a product against a transposed right operand that is never transposed in memory: with the contraction on
  axis 1 of the left operand and axis 1 of the right operand and no batch axis, the entry (p, q) of the product is the
  sum over k of lhs (p, k) · rhs (q, k) — the inner product of row p of the left operand with row q of the right one.
  It holds for a matrix unit's product into a zero accumulator (matmul_zero_apply), into any accumulator
  (matmul_acc_apply), and for the host's dot_general (dotGeneral_apply), whatever precision or schedule key they
  carry. All three follow from re-indexing the sum over the one-axis contraction shape by its coordinate (contr_sum).
-/
import Idealize.ShloMosaic.PureOps.Ideal.Laws
import Idealize.ShloMosaic.Lib.ValueIdx

noncomputable section

open scoped BigOperators

namespace Cert.RowDot

open Idealize.ShloMosaic Idealize.ShloMosaic.ValueIdx

variable {M K N : Nat}

/-- The dimension numbers of the row-by-row product. -/
abbrev rowDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowDims M K N wf).contr.Idx) :
    ((rowDims M K N wf).lhsIdx j r 0).val = (j 0).val := by
  unfold DotDims.lhsIdx
  rw [dif_neg (show ¬ (0 : Fin 2) ∈ (rowDims M K N wf).lhsBatch from List.not_mem_nil),
    dif_pos (show (0 : Fin 2) ∈ (rowDims M K N wf).lhsNonContracting from List.mem_singleton.mpr rfl)]
  rfl

/-- The right operand's ROW coordinate is the result's column, whatever the contraction index. -/
theorem rhs_row (j : (⟨2, ![M, N]⟩ : Shape).Idx) (r : (rowDims M K N wf).contr.Idx) :
    ((rowDims M K N wf).rhsIdx j r 0).val = (j 1).val := by
  unfold DotDims.rhsIdx
  rw [dif_neg (show ¬ (0 : Fin 2) ∈ (rowDims M K N wf).rhsBatch from List.not_mem_nil),
    dif_pos (show (0 : Fin 2) ∈ (rowDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowDims M K N wf).contr.Idx, lhs ((rowDims M K N wf).lhsIdx (ix2 p q) k) * rhs ((rowDims M K N wf).rhsIdx (ix2 p q) k)
      = ∑ k : Fin K, lhs (ix2 p k) * rhs (ix2 q k) := by
  rw [← Equiv.sum_comp (contrEquiv1 (rowDims M K N wf) K rfl rfl).symm]
  refine Finset.sum_congr rfl fun k _ => ?_
  have hk := contrEquiv1_symm_val (rowDims M K N wf) K rfl rfl k
  have el : (rowDims M K N wf).lhsIdx (ix2 p q) ((contrEquiv1 (rowDims M K N wf) K rfl rfl).symm k) = ix2 p k :=
    funext fun a => Fin.ext (by
      match a with
      | ⟨0, _⟩ => exact lhs_row wf _ _
      | ⟨1, _⟩ => exact ((rowDims M K N wf).lhsIdx_val_of_single rfl _ _).trans hk)
  have er : (rowDims M K N wf).rhsIdx (ix2 p q) ((contrEquiv1 (rowDims M K N wf) K rfl rfl).symm k) = ix2 q k :=
    funext fun a => Fin.ext (by
      match a with
      | ⟨0, _⟩ => exact rhs_row wf _ _
      | ⟨1, _⟩ => exact ((rowDims M K N wf).rhsIdx_val_of_single rfl _ _).trans hk)
  rw [el, er]

/-- A MATRIX UNIT'S PRODUCT INTO ANY ACCUMULATOR, read at (p, q), for ANY dimension numbers of the row-by-row form. -/
theorem matmul_acc_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂)
    (acc : FVec Ideal ⟨2, ![M, N]⟩ .f32) (p : Fin M) (q : Fin N) :
    FloatOps.matmul d prec lhs rhs acc (ix2 p q) = acc (ix2 p q) + ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_apply]
  exact congrArg (acc (ix2 p q) + ·) (contr_sum wf lhs rhs p q)

/-- The same INTO A ZERO ACCUMULATOR: just the sum. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the row-by-row form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.RowDot

end
-- ==== Proof.LinPayload.lean ====
import proofs.«146706_j7413113552965_2_alg».proof.Proof.Gen.KernelIdeal.Skeleton
import proofs.«146706_j7413113552965_2_alg».proof.Proof.LibRowDot
import Idealize.ShloMosaic.Lib.Pipeline.Value
import Idealize.ShloMosaic.Lib.ValueLayout
import Idealize.ShloMosaic.Lib.ValueIdx

/-! # What one tile of a matrix-product launch holds, entry by entry

Both matrix-product launches compute a tile the same way: the 1024 × 2048 slab of the left
operand is multiplied, rows against rows, with the 512 × 2048 slab of the weights, starting from a
zero accumulator, and the 512 bias entries are added to every row.  Over the extended reals, where
every rounding step is the identity, entry `(p, q)` of the tile is therefore

  `Σ_k a[p, k] · w[q, k] + bias[0, q]`.

The first launch narrows the tile to half precision before storing it; over the extended reals the
narrowing changes nothing, so both launches' tiles have this one closed form. -/

noncomputable section

namespace Cert.KernelIdeal.Hand

open Cert.KernelIdeal Cert.KernelIdeal.Gen
open Idealize.ShloMosaic Idealize.ShloMosaic.ValueIdx
open scoped BigOperators

/-- The zero offsets of a whole-buffer access, as a function. -/
theorem lin_hz : (![0, 0] : Fin 2 → Nat) = fun _ => 0 := funext fun a => by fin_cases a <;> rfl

/-- The unrounded tile: product of the slabs, rows against rows, plus the bias row. -/
theorem linTile_apply (a : FVec Ideal S1024x2048 .bf16) (w : FVec Ideal S512x2048 .bf16) (b : FVec Ideal S1x512 .f32)
    (p : Fin 1024) (q : Fin 512) :
    k2_pay1 (F := Ideal) a w b (ix2 p q) = (∑ k : Fin 2048, a (ix2 p k) * w (ix2 q k)) + b (ix2 (0 : Fin 1) q) := by
  unfold k2_pay1
  rw [addf_apply, shapeCast_self, shapeCast_self, shapeCast_self, broadcastTo_1b_ab_apply]
  exact congrArg (· + b (ix2 (0 : Fin 1) q))
    (Cert.RowDot.matmul_zero_apply dot_S1024x2048_S512x2048_S1024x512_1_1_0_0_n_n rfl rfl rfl rfl rfl rfl none a w p q)

/-- The tile narrowed to half precision: the same entries. -/
theorem linTileNarrow_apply (a : FVec Ideal S1024x2048 .bf16) (w : FVec Ideal S512x2048 .bf16) (b : FVec Ideal S1x512 .f32)
    (p : Fin 1024) (q : Fin 512) :
    k0_pay1 (F := Ideal) a w b (ix2 p q) = (∑ k : Fin 2048, a (ix2 p k) * w (ix2 q k)) + b (ix2 (0 : Fin 1) q) := by
  unfold k0_pay1
  rw [truncf_apply, addf_apply, shapeCast_self, shapeCast_self, shapeCast_self, broadcastTo_1b_ab_apply]
  exact congrArg (· + b (ix2 (0 : Fin 1) q))
    (Cert.RowDot.matmul_zero_apply dot_S1024x2048_S512x2048_S1024x512_1_1_0_0_n_n rfl rfl rfl rfl rfl rfl none a w p q)

end Cert.KernelIdeal.Hand

end
-- ==== Proof.Lin0Value.lean ====
import proofs.«146706_j7413113552965_2_alg».proof.Proof.Lin0
import proofs.«146706_j7413113552965_2_alg».proof.Proof.LinPayload
import Idealize.ShloMosaic.Lib.Pipeline.Value

/-! # The first matrix product as one array

After the first launch the projection array holds, at row `r` and column `e`,

  `Σ_k a[r, k] · w[e, k] + bias[0, e]`

where `a`, `w` and `bias` are the activations, the projection weights and the bias row as the
launch found them.  Grid point `(i, j)` writes the tile of rows `1024·i …` and columns `512·j …`;
it reads rows `1024·i …` of the activations, rows `512·j …` of the weights and entries `512·j …`
of the bias, so its tile is exactly that tile of the formula, and the 4 × 12 tiles fill the array. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The projection as one function of the three arrays. -/
abbrev proj0 (A : S4096x2048.Idx → EReal) (W : S6144x2048.Idx → EReal) (B : S1x6144.Idx → EReal) : S4096x6144.Idx → EReal :=
  fun i => (∑ k : Fin 2048, A (ix2 (i 0) k) * W (ix2 (i 1) k)) + B (ix2 (0 : Fin 1) (i 1))

/-- Where the four windows sit at a grid point: the activations' slab shares the tile's row block
    and spans all columns; the weights' slab has the tile's column block as its row block; the bias
    entries have the tile's column block; and the tile's block indices stay inside 4 × 12. -/
theorem blockIdx0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 11 :=
  (by decide +kernel : ∀ t : Fin grid0.N, _)

/-- Every tile of the 4 × 12 arrangement is some grid point's. -/
theorem blockOnto0 : ∀ (q0 : Fin 4) (q1 : Fin 12), ∃ t : Fin cfg0.N, win0_3.index t = ![q0.val, q1.val] :=
  (by decide +kernel : ∀ (q0 : Fin 4) (q1 : Fin 12), ∃ t : Fin grid0.N, win0_3.index t = ![q0.val, q1.val])

/-- An entry of the activations' slab at a point is the array's entry at the slab's row offset. -/
theorem slabA0_apply (c : Dev nD) (t : Fin cfg0.N) (p : Fin 1024) (k : Fin 2048) (r : Fin 4096)
    (hr : r.val = win0_0.index t (0 : Fin 2) * 1024 + p.val) (hc : win0_0.index t (1 : Fin 2) = 0) :
    (iblk0 V c 0 t : Vec Ideal S1024x2048 .bf16) (ix2 p k) = (V c main_v3 : S4096x2048.Idx → EReal) (ix2 r k) := by
  unfold iblk0
  rw [View.read_apply]
  show V c main_v3 _ = V c main_v3 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = k.val; omega

/-- An entry of the weights' slab is the weight array's entry at the slab's row offset. -/
theorem slabB0_apply (c : Dev nD) (t : Fin cfg0.N) (q : Fin 512) (k : Fin 2048) (e : Fin 6144)
    (he : e.val = win0_1.index t (0 : Fin 2) * 512 + q.val) (hc : win0_1.index t (1 : Fin 2) = 0) :
    (iblk0 V c 1 t : Vec Ideal S512x2048 .bf16) (ix2 q k) = (V c main_v4 : S6144x2048.Idx → EReal) (ix2 e k) := by
  unfold iblk0
  rw [View.read_apply]
  show V c main_v4 _ = V c main_v4 _
  congr 1
  funext a
  apply Fin.ext
  match a with
  | ⟨0, _⟩ => show win0_1.index t (0 : Fin 2) * 512 + 1 * q.val = e.val; omega
  | ⟨1, _⟩ => show win0_1.index t (1 : Fin 2) * 2048 + 1 * k.val = k.val; omega

/-- A bias entry of the point's block is the bias row's entry at the block's column offset. -/
theorem bias0_apply (c : Dev nD) (t : Fin cfg0.N) (q : Fin 512) (e : Fin 6144)
    (he : e.val = win0_2.index t (1 : Fin 2) * 512 + q.val) (hr : win0_2.index t (0 : Fin 2) = 0) :
    (iblk0 V c 2 t : Vec Ideal S1x512 .f32) (ix2 (0 : Fin 1) q) = (V c main_v1 : S1x6144.Idx → EReal) (ix2 (0 : Fin 1) e) := by
  unfold iblk0
  rw [View.read_apply]
  show V c main_v1 _ = V c main_v1 _
  congr 1
  funext a
  apply Fin.ext
  match a with
  | ⟨0, _⟩ => show win0_2.index t (0 : Fin 2) * 1 + 1 * 0 = 0; omega
  | ⟨1, _⟩ => show win0_2.index t (1 : Fin 2) * 512 + 1 * q.val = e.val; omega

/-- What grid point `t` writes back is the tile of the projection it is responsible for. -/
theorem flushed0_eq (c : Dev nD) (t : Fin cfg0.N) :
    (dat0 (F := Ideal) V c).flushed 3 t
      = ((cfg0.win 3).blk t).view.read (Elt Ideal) (proj0 (V c main_v3) (V c main_v4) (V c main_v1)) := by
  show (cfg0.win 3).cut (grid0.coords t) ((dat0 V c).after 3 t) = _
  rw [after0_3]
  unfold out0_3
  rw [View.canon_unit_zero lin_hz]
  simp only [View.ld_unit_zero (S := S1024x2048) lin_hz, View.ld_unit_zero (S := S512x2048) lin_hz,
    View.ld_unit_zero (S := S1x512) lin_hz]
  obtain ⟨e0, e1, e2, e3, e4, e5, e6, e7⟩ := blockIdx0 t
  funext j
  obtain ⟨p, q, rfl⟩ : ∃ (p : Fin 1024) (q : Fin 512), j = ix2 p q := ⟨j 0, j 1, eq_ix2 j⟩
  refine (linTileNarrow_apply (iblk0 V c 0 t) (iblk0 V c 1 t) (iblk0 V c 2 t) p q).trans ?_
  show _ = proj0 (V c main_v3) (V c main_v4) (V c main_v1) (((cfg0.win 3).blk t).view.emb (ix2 p q))
  have h0 : ((((cfg0.win 3).blk t).view.emb (ix2 p q)) 0).val = win0_3.index t (0 : Fin 2) * 1024 + p.val := by
    show win0_3.index t (0 : Fin 2) * 1024 + 1 * p.val = _; omega
  have h1 : ((((cfg0.win 3).blk t).view.emb (ix2 p q)) 1).val = win0_3.index t (1 : Fin 2) * 512 + q.val := by
    show win0_3.index t (1 : Fin 2) * 512 + 1 * q.val = _; omega
  refine congrArg₂ (· + ·) (Finset.sum_congr rfl fun k _ => congrArg₂ (· * ·) ?_ ?_) ?_
  · exact slabA0_apply V c t p k _ (by rw [h0, e0]) e1
  · exact slabB0_apply V c t q k _ (by rw [h1, e2]) e3
  · exact bias0_apply V c t q _ (by rw [h1, e5]) e4

/-- An index of the projection array lies in point `t`'s tile exactly when each coordinate lies in
    the tile's range on its axis. -/
theorem mem_tile0 (t : Fin cfg0.N) (i : S4096x6144.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v6).slice (win0_3.rect t)).set ↔ _
  rw [View.set_slice_whole, Rect.mem_set_unit]
  exact Iff.rfl

/-- Every index of the projection array lies in some point's tile: the one whose row block is the
    row divided by 1024 and whose column block is the column divided by 512. -/
theorem cover0 (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, ht⟩ := blockOnto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The projection array after the first launch, as one function of the three arrays it read. -/
theorem final0 (c : Dev nD) :
    (dat0 (F := Ideal) V c).arrAt 3 cfg0.N = proj0 (V c main_v3) (V c main_v4) (V c main_v1) :=
  (dat0 (F := Ideal) V c).arrAt_eq_of_cover 3 (proj0 (V c main_v3) (V c main_v4) (V c main_v1))
    (fun t _ => flushed0_eq V c t) cover0

end Cert.KernelIdeal.Hand

end
-- ==== Proof.Lin2Value.lean ====
import proofs.«146706_j7413113552965_2_alg».proof.Proof.Lin2
import proofs.«146706_j7413113552965_2_alg».proof.Proof.LinPayload
import Idealize.ShloMosaic.Lib.Pipeline.Value

/-! # The last matrix product as one array

After the third launch the result array holds, at row `r` and column `e`,

  `Σ_k o[r, k] · w[e, k] + bias[0, e]`

where `o`, `w` and `bias` are the attention output, the output-projection weights and the bias
row as the launch found them.  Grid point `(i, j)` writes the tile of rows `1024·i …` and columns
`512·j …`; it reads rows `1024·i …` of the attention output, rows `512·j …` of the weights and
entries `512·j …` of the bias, so its tile is exactly that tile of the formula, and the 4 × 4 tiles
fill the array. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The output projection as one function of the three arrays. -/
abbrev proj2 (A : S4096x2048.Idx → EReal) (W : S2048x2048.Idx → EReal) (B : S1x2048.Idx → EReal) : S4096x2048.Idx → EReal :=
  fun i => (∑ k : Fin 2048, A (ix2 (i 0) k) * W (ix2 (i 1) k)) + B (ix2 (0 : Fin 1) (i 1))

/-- Where the four windows sit at a grid point: the attention output's slab shares the tile's row block
    and spans all columns; the weights' slab has the tile's column block as its row block; the bias
    entries have the tile's column block; and the tile's block indices stay inside 4 × 4. -/
theorem blockIdx2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 3 ∧ win2_3.index t (1 : Fin 2) ≤ 3 :=
  (by decide +kernel : ∀ t : Fin grid2.N, _)

/-- Every tile of the 4 × 4 arrangement is some grid point's. -/
theorem blockOnto2 : ∀ (q0 : Fin 4) (q1 : Fin 4), ∃ t : Fin cfg2.N, win2_3.index t = ![q0.val, q1.val] :=
  (by decide +kernel : ∀ (q0 : Fin 4) (q1 : Fin 4), ∃ t : Fin grid2.N, win2_3.index t = ![q0.val, q1.val])

/-- An entry of the attention output's slab at a point is the array's entry at the slab's row offset. -/
theorem slabA2_apply (c : Dev nD) (t : Fin cfg2.N) (p : Fin 1024) (k : Fin 2048) (r : Fin 4096)
    (hr : r.val = win2_0.index t (0 : Fin 2) * 1024 + p.val) (hc : win2_0.index t (1 : Fin 2) = 0) :
    (iblk2 V c 0 t : Vec Ideal S1024x2048 .bf16) (ix2 p k) = (V c main_v7 : S4096x2048.Idx → EReal) (ix2 r k) := by
  unfold iblk2
  rw [View.read_apply]
  show V c main_v7 _ = V c main_v7 _
  congr 1
  funext a
  apply Fin.ext
  match a with
  | ⟨0, _⟩ => show win2_0.index t (0 : Fin 2) * 1024 + 1 * p.val = r.val; omega
  | ⟨1, _⟩ => show win2_0.index t (1 : Fin 2) * 2048 + 1 * k.val = k.val; omega

/-- An entry of the weights' slab is the weight array's entry at the slab's row offset. -/
theorem slabB2_apply (c : Dev nD) (t : Fin cfg2.N) (q : Fin 512) (k : Fin 2048) (e : Fin 2048)
    (he : e.val = win2_1.index t (0 : Fin 2) * 512 + q.val) (hc : win2_1.index t (1 : Fin 2) = 0) :
    (iblk2 V c 1 t : Vec Ideal S512x2048 .bf16) (ix2 q k) = (V c main_v5 : S2048x2048.Idx → EReal) (ix2 e k) := by
  unfold iblk2
  rw [View.read_apply]
  show V c main_v5 _ = V c main_v5 _
  congr 1
  funext a
  apply Fin.ext
  match a with
  | ⟨0, _⟩ => show win2_1.index t (0 : Fin 2) * 512 + 1 * q.val = e.val; omega
  | ⟨1, _⟩ => show win2_1.index t (1 : Fin 2) * 2048 + 1 * k.val = k.val; omega

/-- A bias entry of the point's block is the bias row's entry at the block's column offset. -/
theorem bias2_apply (c : Dev nD) (t : Fin cfg2.N) (q : Fin 512) (e : Fin 2048)
    (he : e.val = win2_2.index t (1 : Fin 2) * 512 + q.val) (hr : win2_2.index t (0 : Fin 2) = 0) :
    (iblk2 V c 2 t : Vec Ideal S1x512 .f32) (ix2 (0 : Fin 1) q) = (V c main_v2 : S1x2048.Idx → EReal) (ix2 (0 : Fin 1) e) := by
  unfold iblk2
  rw [View.read_apply]
  show V c main_v2 _ = V c main_v2 _
  congr 1
  funext a
  apply Fin.ext
  match a with
  | ⟨0, _⟩ => show win2_2.index t (0 : Fin 2) * 1 + 1 * 0 = 0; omega
  | ⟨1, _⟩ => show win2_2.index t (1 : Fin 2) * 512 + 1 * q.val = e.val; omega

/-- What grid point `t` writes back is the tile of the result it is responsible for. -/
theorem flushed2_eq (c : Dev nD) (t : Fin cfg2.N) :
    (dat2 (F := Ideal) V c).flushed 3 t
      = ((cfg2.win 3).blk t).view.read (Elt Ideal) (proj2 (V c main_v7) (V c main_v5) (V c main_v2)) := by
  show (cfg2.win 3).cut (grid2.coords t) ((dat2 V c).after 3 t) = _
  rw [after2_3]
  unfold out2_3
  rw [View.canon_unit_zero lin_hz]
  simp only [View.ld_unit_zero (S := S1024x2048) lin_hz, View.ld_unit_zero (S := S512x2048) lin_hz,
    View.ld_unit_zero (S := S1x512) lin_hz]
  obtain ⟨e0, e1, e2, e3, e4, e5, e6, e7⟩ := blockIdx2 t
  funext j
  obtain ⟨p, q, rfl⟩ : ∃ (p : Fin 1024) (q : Fin 512), j = ix2 p q := ⟨j 0, j 1, eq_ix2 j⟩
  refine (linTile_apply (iblk2 V c 0 t) (iblk2 V c 1 t) (iblk2 V c 2 t) p q).trans ?_
  show _ = proj2 (V c main_v7) (V c main_v5) (V c main_v2) (((cfg2.win 3).blk t).view.emb (ix2 p q))
  have h0 : ((((cfg2.win 3).blk t).view.emb (ix2 p q)) 0).val = win2_3.index t (0 : Fin 2) * 1024 + p.val := by
    show win2_3.index t (0 : Fin 2) * 1024 + 1 * p.val = _; omega
  have h1 : ((((cfg2.win 3).blk t).view.emb (ix2 p q)) 1).val = win2_3.index t (1 : Fin 2) * 512 + q.val := by
    show win2_3.index t (1 : Fin 2) * 512 + 1 * q.val = _; omega
  refine congrArg₂ (· + ·) (Finset.sum_congr rfl fun k _ => congrArg₂ (· * ·) ?_ ?_) ?_
  · exact slabA2_apply V c t p k _ (by rw [h0, e0]) e1
  · exact slabB2_apply V c t q k _ (by rw [h1, e2]) e3
  · exact bias2_apply V c t q _ (by rw [h1, e5]) e4

/-- An index of the result array lies in point `t`'s tile exactly when each coordinate lies in
    the tile's range on its axis. -/
theorem mem_tile2 (t : Fin cfg2.N) (i : S4096x2048.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v8).slice (win2_3.rect t)).set ↔ _
  rw [View.set_slice_whole, Rect.mem_set_unit]
  exact Iff.rfl

/-- Every index of the result array lies in some point's tile: the one whose row block is the
    row divided by 1024 and whose column block is the column divided by 512. -/
theorem cover2 (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, ht⟩ := blockOnto2 ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_tile2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The result array after the third launch, as one function of the three arrays it read. -/
theorem final2 (c : Dev nD) :
    (dat2 (F := Ideal) V c).arrAt 3 cfg2.N = proj2 (V c main_v7) (V c main_v5) (V c main_v2) :=
  (dat2 (F := Ideal) V c).arrAt_eq_of_cover 3 (proj2 (V c main_v7) (V c main_v5) (V c main_v2))
    (fun t _ => flushed2_eq V c t) cover2

end Cert.KernelIdeal.Hand

end
-- ==== Proof.FlashArr.lean ====
import proofs.«146706_j7413113552965_2_alg».proof.Proof.FlashDat
import Idealize.ShloMosaic.Lib.Pipeline.Value

/-! # The attention output as one array

The attention launch walks the grid `(bh, qi, kv)`: batch-and-head `bh = b·16 + h`, query block
`qi`, key block `kv`.  Its output array has 4096 rows (`b·2048 + s`) and 2048 columns
(`h·128 + j`), cut into tiles of 512 rows by 128 columns; the points `(bh, qi, ·)` all work on tile
`(b·4 + qi, h)`, but only the last key block `kv = 3` stores the tile and only that point's tile is
copied back to the array.  The 32 · 4 points with `kv = 3` reach each of the 8 × 16 tiles exactly
once, so: if the tile stored at every such point is the matching tile of one function `G` of the
whole array, the array after the launch is `G`. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

/-- A tile is copied back only at a last key block. -/
theorem kvLast_of_flush1 : ∀ t : Fin cfg1.N, (cfg1.win 3).flush t = true → (grid1.coords t 2).val = 3 :=
  (by decide +kernel : ∀ t : Fin grid1.N, win1_3.flush t = true → (grid1.coords t 2).val = 3)

/-- The grid point that stores tile `(q0, q1)`: batch `q0 / 4`, head `q1`, query block `q0 % 4`, the
    last key block. -/
def tilePoint1 (q0 : Fin 8) (q1 : Fin 16) : Fin grid1.N :=
  ⟨((q0.val / 4) * 16 + q1.val) * 16 + (q0.val % 4) * 4 + 3, by
    have h0 := q0.isLt; have h1 := q1.isLt; rw [N_1]; omega⟩

/-- That point copies its tile back, and its tile is `(q0, q1)`. -/
theorem tilePoint1_spec : ∀ (q0 : Fin 8) (q1 : Fin 16),
    win1_3.flush (tilePoint1 q0 q1) = true ∧ win1_3.index (tilePoint1 q0 q1) = ![q0.val, q1.val] := by
  decide +kernel

/-- An index of the output array lies in point `t`'s tile exactly when each coordinate lies in the
    tile's range on its axis. -/
theorem mem_tile1 (t : Fin cfg1.N) (i : S4096x2048.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v7).slice (win1_3.rect t)).set ↔ _
  rw [View.set_slice_whole, Rect.mem_set_unit]
  exact Iff.rfl

/-- Every index of the output array lies in the tile of a point that copies back: row block the
    row divided by 512, column block the column divided by 128. -/
theorem cover1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨hf, ht⟩ := tilePoint1_spec ⟨(i 0).val / 512, by omega⟩ ⟨(i 1).val / 128, by omega⟩
  have q0 : win1_3.index (tilePoint1 ⟨(i 0).val / 512, by omega⟩ ⟨(i 1).val / 128, by omega⟩) (0 : Fin 2) = (i 0).val / 512 := congrFun ht 0
  have q1 : win1_3.index (tilePoint1 ⟨(i 0).val / 512, by omega⟩ ⟨(i 1).val / 128, by omega⟩) (1 : Fin 2) = (i 1).val / 128 := congrFun ht 1
  refine ⟨tilePoint1 ⟨(i 0).val / 512, by omega⟩ ⟨(i 1).val / 128, by omega⟩, hf, ?_⟩
  rw [mem_tile1]
  intro a
  match a with
  | ⟨0, _⟩ =>
    show win1_3.index _ (0 : Fin 2) * 512 ≤ (i 0).val ∧ (i 0).val < win1_3.index _ (0 : Fin 2) * 512 + 512
    rw [q0]; omega
  | ⟨1, _⟩ =>
    show win1_3.index _ (1 : Fin 2) * 128 ≤ (i 1).val ∧ (i 1).val < win1_3.index _ (1 : Fin 2) * 128 + 128
    rw [q1]; omega

/-- If at every last key block the stored tile is the tile of `G` there, the output array after the
    launch is `G`. -/
theorem final1_of (c : Dev nD) (G : S4096x2048.Idx → Elt F .bf16)
    (H : ∀ t : Fin cfg1.N, (grid1.coords t 2).val = 3 →
      (stOut (scAt1 V c (t.val + 1) t.isLt) : S512x128.Idx → Elt F .bf16) = ((cfg1.win 3).blk t).view.read (Elt F) G) :
    (dat1 V c).arrAt 3 cfg1.N = G :=
  (dat1 V c).arrAt_eq_of_cover 3 G
    (fun t hf => by
      show (cfg1.win 3).cut (grid1.coords t) ((dat1 V c).after 3 t) = _
      rw [after1_3]
      exact H t (kvLast_of_flush1 t hf))
    cover1

end Cert.KernelIdeal.Hand

end
-- ==== Proof.AttnScore.lean ====
/-
  The masked, scaled scores of one block of 512 query rows against one block of 512 key rows, read at
  an index over the extended reals.

  Entry (r, j) of the block is the inner product of query row r with key row j times the scale
  1048576 / 11863283 (the named reciprocal of the divisor of the scores) when key position
  kv·512 + j is not after query position qi·512 + r, and −∞ otherwise.  The positions are computed in
  32-bit integers; all of them are below 4·512, so nothing wraps and the signed comparison is the
  comparison of the natural numbers.
-/
import proofs.«146706_j7413113552965_2_alg».proof.Proof.FlashState
import proofs.«146706_j7413113552965_2_alg».proof.Proof.LibRowDot
import Idealize.ShloMosaic.Lib.Pipeline.Value

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

/-! ### 32-bit positions -/

/-- A natural number below 2³¹ read back from its 32-bit word as a signed integer is itself. -/
theorem toInt_ofNat_small (a : ℕ) (ha : a < 2 ^ 31) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- The signed comparison of two such words is the comparison of the numbers. -/
theorem sle_ofNat_small (a b : ℕ) (ha : a < 2 ^ 31) (hb : b < 2 ^ 31) :
    (BitVec.ofNat 32 b).sle (BitVec.ofNat 32 a) = decide (b ≤ a) := by
  rw [BitVec.sle_eq_decide, toInt_ofNat_small a ha, toInt_ofNat_small b hb]
  exact decide_eq_decide.2 Int.ofNat_le

/-- A block number times 512, in 32 bits. -/
theorem muli_512 (n : ℕ) : Scalar.muli (BitVec.ofNat 32 n) 512#32 = BitVec.ofNat 32 (n * 512) := by
  show BitVec.ofNat 32 n * BitVec.ofNat 32 512 = _
  rw [← BitVec.ofNat_mul]

/-- The sum of two words is the word of the sum. -/
theorem addi_ofNat (a b : ℕ) :
    IntOp.addi (BitVec.ofNat 32 a) (BitVec.ofNat 32 b) = BitVec.ofNat 32 (a + b) := by
  show BitVec.ofNat 32 a + BitVec.ofNat 32 b = _
  rw [← BitVec.ofNat_add]

/-- The mask bit at (r, j) of blocks qi and kv: set exactly when key position kv·512 + j is not after
    query position qi·512 + r. -/
theorem mask_bit (qi kv : ℕ) (hqi : qi < 4) (hkv : kv < 4) (r j : Fin 512) :
    IntOp.cmpi .sge
        (IntOp.addi (Scalar.muli (BitVec.ofNat 32 qi) 512#32) (BitVec.ofNat 32 r.val))
        (IntOp.addi (Scalar.muli (BitVec.ofNat 32 kv) 512#32) (BitVec.ofNat 32 j.val))
      = if kv * 512 + j.val ≤ qi * 512 + r.val then 1#1 else 0#1 := by
  rw [muli_512, muli_512, addi_ofNat, addi_ofNat]
  show BitVec.ofBool ((BitVec.ofNat 32 (kv * 512 + j.val)).sle (BitVec.ofNat 32 (qi * 512 + r.val))) = _
  have hr := r.isLt
  have hj := j.isLt
  rw [sle_ofNat_small _ _ (by omega) (by omega)]
  by_cases h : kv * 512 + j.val ≤ qi * 512 + r.val
  · rw [if_pos h, decide_eq_true h]; rfl
  · rw [if_neg h, decide_eq_false h]; rfl

/-! ### The two named constants -/

/-- The scale of the scores: the reciprocal of the divisor, as an exact rational. -/
def invD : EReal := ((1048576 / 11863283 : ℝ) : EReal)

/-- The named scale denotes that rational. -/
theorem inv_d_named :
    Named.named (F := Ideal) κ "inv_d" (φ := .f32) 0x3DB504F3#32 = invD :=
  IdealRules.named_const.ideal_named_scalar _ _ _ _ rfl

/-- The named fill of the masked entries denotes −∞. -/
theorem neg_big_named :
    Named.named (F := Ideal) κ "neg_big" (φ := .f32) 0xFF333332#32 = (⊥ : EReal) :=
  IdealRules.named_const.ideal_named_scalar _ _ _ _ rfl

/-! ### The score block at an index -/

/-- Entry (r, j) of the masked, scaled scores of query block qi against key block kv. -/
def scoreAt (qi kv : ℕ) (q k : Vec Ideal S512x128 .bf16) (r j : Fin 512) : EReal :=
  if kv * 512 + j.val ≤ qi * 512 + r.val then (∑ c : Fin 128, q (ix2 r c) * k (ix2 j c)) * invD
  else ⊥

/-- The kernel's masked score block, read at (r, j). -/
theorem k1_pay7_apply (qi kv : ℕ) (hqi : qi < 4) (hkv : kv < 4) (q k : Vec Ideal S512x128 .bf16)
    (r j : Fin 512) :
    k1_pay7 (F := Ideal) (BitVec.ofNat 32 qi) (BitVec.ofNat 32 kv) q k (ix2 r j)
      = scoreAt qi kv q k r j := by
  unfold k1_pay7
  show Scalar.select
      (IntOp.cmpi .sge
        (IntOp.addi (Scalar.muli (BitVec.ofNat 32 qi) 512#32)
          (iota .tc S512x512 32 [0] iota_S512x512_d0_w32 (ix2 r j)))
        (IntOp.addi (Scalar.muli (BitVec.ofNat 32 kv) 512#32)
          (iota .tc S512x512 32 [1] iota_S512x512_d1_w32 (ix2 r j))))
      (FloatOps.matmul dot_S512x128_S512x128_S512x512_1_1_0_0_n_n none
          (shapeCast S512x128 q shapeCasts_S512x128_S512x128)
          (shapeCast S512x128 k shapeCasts_S512x128_S512x128)
          (constant (F := Ideal) S512x512 .f32 0x00000000#32) (ix2 r j)
        * Named.named (F := Ideal) κ "inv_d" (φ := .f32) 0x3DB504F3#32)
      (Named.named (F := Ideal) κ "neg_big" (φ := .f32) 0xFF333332#32) = _
  rw [iota_single_apply, iota_single_apply]
  show Scalar.select
      (IntOp.cmpi .sge
        (IntOp.addi (Scalar.muli (BitVec.ofNat 32 qi) 512#32) (BitVec.ofNat 32 r.val))
        (IntOp.addi (Scalar.muli (BitVec.ofNat 32 kv) 512#32) (BitVec.ofNat 32 j.val))) _ _ = _
  rw [mask_bit qi kv hqi hkv r j, shapeCast_self, shapeCast_self,
    Cert.RowDot.matmul_zero_apply _ rfl rfl rfl rfl rfl rfl, inv_d_named, neg_big_named]
  unfold scoreAt
  by_cases h : kv * 512 + j.val ≤ qi * 512 + r.val
  · rw [if_pos h, if_pos h]; exact select_one _ _
  · rw [if_neg h, if_neg h]; exact select_zero _ _

end Cert.KernelIdeal.Hand

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.LibOnlineSoftmax.lean ====
/-
Online (tiled, running-maximum) softmax-weighted sums over the extended reals.

A row of scores is cut into tiles.  A one-pass evaluation keeps a state `(m, l, a)`: the
running maximum of the scores seen so far, the sum of `exp (score - m)` over them, and the
sum of `exp (score - m) * value`.  On a new tile the maximum is raised to `m'`, the two old
sums are rescaled by `exp (m - m')`, and the tile's terms are added.  This file proves that
the quotient `a / l` after the last unmasked tile is the softmax-weighted sum of the values
taken with the global maximum `M` and the global denominator `L = Σ exp (score - M)`.

The mathematics.  Write `E x` for the real value of the extended exponential (`E ⊥ = 0`,
`E r = exp r`).  For a score `x ≠ ⊤` and a real `m`, `exp (x - m) = E x * exp (-m)`.  Hence
after `k` tiles the state satisfies `E m * l = Σ_{t<k} Σ_j E (s t j)` and
`E m * a = Σ_{t<k} Σ_j E (s t j) * v t j`: raising the maximum multiplies both sides of the
state by `exp (m - m')` and the invariant is untouched, and at `k = 0` both sides are `0`.
From the first tile on the maximum is a real number, so `a / l` is the quotient of the two
unscaled sums; the same holds for the right-hand side with `M` in place of `m`.  Wholly
masked tiles contribute `E ⊥ = 0` to both sums.
-/
import Mathlib.Data.EReal.Inv
import Mathlib.Analysis.SpecialFunctions.Exp
import Mathlib.Algebra.BigOperators.Fin
import Mathlib.Tactic.LinearCombination
import Mathlib.Tactic.FieldSimp
import Mathlib.Tactic.Ring
import Idealize.ShloMosaic.PureOps.Ideal

namespace Cert.Lib.OnlineSoftmax

open Idealize.ShloMosaic
open scoped BigOperators

/-! ### Coercion of finite sums, folds of `max` -/

/-- The coercion `ℝ → EReal` commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding `max` from `⊥` over a finite set is its supremum. -/
theorem fold_max_eq_sup {ι : Type*} (S : Finset ι) (f : ι → EReal) :
    S.fold max ⊥ f = S.sup f := by
  classical
  induction S using Finset.induction_on with
  | empty => simp
  | insert a S ha ih => rw [Finset.fold_insert ha, Finset.sup_insert, ih]

/-- Folding `max` from `⊥` over a whole finite type is the supremum over it. -/
theorem univ_fold_max_eq_sup {ι : Type*} [Fintype ι] (f : ι → EReal) :
    Finset.univ.fold max ⊥ f = Finset.univ.sup f :=
  fold_max_eq_sup _ _

/-- A finite supremum of extended reals none of which is `⊤` is not `⊤`. -/
theorem sup_ne_top {ι : Type*} (S : Finset ι) (f : ι → EReal) (hf : ∀ i, f i ≠ ⊤) :
    S.sup f ≠ ⊤ :=
  ne_of_lt ((Finset.sup_lt_iff bot_lt_top).2 fun i _ => lt_top_iff_ne_top.2 (hf i))

/-! ### The real value of the extended exponential -/

/-- `E x`: the real value of the extended exponential, `0` at `⊥` and `exp r` at a real `r`. -/
noncomputable def expR (x : EReal) : ℝ := (Ideal.exp x).toReal

@[simp] theorem expR_bot : expR ⊥ = 0 := by simp [expR]

@[simp] theorem expR_coe (r : ℝ) : expR (r : EReal) = Real.exp r := by simp [expR]

/-- `E x ≥ 0` at every extended real. -/
theorem expR_nonneg (x : EReal) : 0 ≤ expR x := by
  induction x with
  | bot => simp
  | coe r => rw [expR_coe]; exact (Real.exp_pos r).le
  | top => simp [expR]

/-- `E x > 0` at a finite `x`. -/
theorem expR_pos {x : EReal} (hx : x ≠ ⊤) (hx' : x ≠ ⊥) : 0 < expR x := by
  induction x with
  | bot => exact absurd rfl hx'
  | coe r => rw [expR_coe]; exact Real.exp_pos r
  | top => exact absurd rfl hx

/-- For `x ≠ ⊤` and a real `m`: `exp (x - m) = E x * exp (-m)`; both sides are `0` at
    `x = ⊥`, and `exp (r - m) = exp r * exp (-m)` at a real `r`. -/
theorem exp_sub_coe {x : EReal} (hx : x ≠ ⊤) (m : ℝ) :
    Ideal.exp (x - (m : EReal)) = ((expR x * Real.exp (-m) : ℝ) : EReal) := by
  induction x with
  | bot => simp
  | coe r => rw [← EReal.coe_sub, Ideal.exp_coe, expR_coe, sub_eq_add_neg, Real.exp_add]
  | top => exact absurd rfl hx

/-! ### The one-pass evaluation -/

variable {J : Type*} [Fintype J] {T : ℕ}

/-- One tile of the one-pass evaluation: raise the maximum, rescale the two running sums by
    `exp (m - m')`, add the tile's terms. -/
noncomputable def step (s v : J → EReal) (st : EReal × EReal × EReal) : EReal × EReal × EReal :=
  let m' := max st.1 (Finset.univ.sup s)
  let a := Ideal.exp (st.1 - m')
  (m', a * st.2.1 + ∑ j, Ideal.exp (s j - m'), a * st.2.2 + ∑ j, Ideal.exp (s j - m') * v j)

/-- The state after the first `k` tiles, from `(⊥, 0, 0)`. -/
noncomputable def run (s v : Fin T → J → EReal) : (k : ℕ) → k ≤ T → EReal × EReal × EReal
  | 0, _ => (⊥, 0, 0)
  | k + 1, h => step (s ⟨k, h⟩) (v ⟨k, h⟩) (run s v k (Nat.le_of_succ_le h))

@[simp] theorem run_zero (s v : Fin T → J → EReal) (h : 0 ≤ T) : run s v 0 h = (⊥, 0, 0) := rfl

theorem run_succ (s v : Fin T → J → EReal) (k : ℕ) (h : k + 1 ≤ T) :
    run s v (k + 1) h = step (s ⟨k, h⟩) (v ⟨k, h⟩) (run s v k (Nat.le_of_succ_le h)) := rfl

/-- One tile on a state whose two sums are real and whose new maximum is a real `m'`: the new
    sums are real, the old ones scaled by `E μ * exp (-m')` plus the tile's terms
    `E (s j) * exp (-m')`. -/
theorem step_coe (s v : J → EReal) (μ : EReal) (l a m' : ℝ)
    (hμ : μ ≠ ⊤) (hs : ∀ j, s j ≠ ⊤) (hv : ∀ j, v j ≠ ⊤ ∧ v j ≠ ⊥)
    (hm : max μ (Finset.univ.sup s) = (m' : EReal)) :
    step s v (μ, (l : EReal), (a : EReal)) =
      ((m' : EReal),
       ((expR μ * Real.exp (-m') * l + ∑ j, expR (s j) * Real.exp (-m') : ℝ) : EReal),
       ((expR μ * Real.exp (-m') * a
          + ∑ j, expR (s j) * Real.exp (-m') * (v j).toReal : ℝ) : EReal)) := by
  have h1 : ∀ j, Ideal.exp (s j - (m' : EReal)) = ((expR (s j) * Real.exp (-m') : ℝ) : EReal) :=
    fun j => exp_sub_coe (hs j) m'
  have h2 : ∀ j, Ideal.exp (s j - (m' : EReal)) * v j
      = ((expR (s j) * Real.exp (-m') * (v j).toReal : ℝ) : EReal) := fun j => by
    rw [h1 j, EReal.coe_mul (expR (s j) * Real.exp (-m')), EReal.coe_toReal (hv j).1 (hv j).2]
  simp only [step, hm]
  rw [exp_sub_coe hμ m', Finset.sum_congr rfl fun j _ => h1 j,
    Finset.sum_congr rfl fun j _ => h2 j, ← coe_finset_sum, ← coe_finset_sum,
    ← EReal.coe_mul, ← EReal.coe_mul, ← EReal.coe_add, ← EReal.coe_add]

/-! ### Sums over the first `k` tiles -/

/-- The sum over the tiles below `k + 1` is the sum over the tiles below `k` plus tile `k`. -/
theorem sum_lt_succ (g : Fin T → ℝ) (k : ℕ) (hk : k < T) :
    (∑ t : Fin T, if t.val < k + 1 then g t else 0)
      = (∑ t : Fin T, if t.val < k then g t else 0) + g ⟨k, hk⟩ := by
  classical
  rw [← Finset.sum_filter, ← Finset.sum_filter]
  have h : Finset.univ.filter (fun t : Fin T => t.val < k + 1)
      = insert ⟨k, hk⟩ (Finset.univ.filter (fun t : Fin T => t.val < k)) := by
    ext t
    simp only [Finset.mem_filter, Finset.mem_univ, true_and, Finset.mem_insert, Fin.ext_iff]
    omega
  rw [h, Finset.sum_insert (by simp), add_comm]

/-- If `g` vanishes from tile `n` on, the sum over the tiles below `n` is the whole sum. -/
theorem sum_lt_of_masked (g : Fin T → ℝ) (n : ℕ) (hg : ∀ t : Fin T, n ≤ t.val → g t = 0) :
    (∑ t : Fin T, if t.val < n then g t else 0) = ∑ t : Fin T, g t := by
  refine Finset.sum_congr rfl fun t _ => ?_
  split_ifs with h
  · rfl
  · exact (hg t (not_lt.1 h)).symm

/-! ### The invariant -/

/-- After `k` tiles the state is `(μ, l, a)` with `l`, `a` real, `μ ≠ ⊤` (and `μ ≠ ⊥` from
    the first tile on), `E μ * l = Σ_{t<k} Σ_j E (s t j)` and
    `E μ * a = Σ_{t<k} Σ_j E (s t j) * v t j`. -/
theorem run_invariant (s v : Fin T → J → EReal)
    (hs_top : ∀ t j, s t j ≠ ⊤) (hv : ∀ t j, v t j ≠ ⊤ ∧ v t j ≠ ⊥)
    (hfirst : ∀ h : 0 < T, ∃ j, s ⟨0, h⟩ j ≠ ⊥) :
    ∀ (k : ℕ) (hk : k ≤ T), ∃ (μ : EReal) (l a : ℝ),
      run s v k hk = (μ, (l : EReal), (a : EReal)) ∧ μ ≠ ⊤ ∧ (0 < k → μ ≠ ⊥) ∧
      expR μ * l = (∑ t : Fin T, if t.val < k then ∑ j, expR (s t j) else 0) ∧
      expR μ * a
        = (∑ t : Fin T, if t.val < k then ∑ j, expR (s t j) * (v t j).toReal else 0) := by
  intro k
  induction k with
  | zero =>
    intro hk
    exact ⟨⊥, 0, 0, by simp, bot_ne_top, fun h => absurd h (lt_irrefl 0), by simp, by simp⟩
  | succ k ih =>
    intro hk
    obtain ⟨μ, l, a, hrun, hμt, hμb, hl, ha⟩ := ih (Nat.le_of_succ_le hk)
    -- the new maximum is a real number
    have hsup_le : Finset.univ.sup (s ⟨k, hk⟩) ≤ max μ (Finset.univ.sup (s ⟨k, hk⟩)) :=
      le_max_right _ _
    have hnt : max μ (Finset.univ.sup (s ⟨k, hk⟩)) ≠ ⊤ :=
      ne_of_lt (max_lt (lt_top_iff_ne_top.2 hμt)
        (lt_top_iff_ne_top.2 (sup_ne_top _ _ (hs_top ⟨k, hk⟩))))
    have hnb : max μ (Finset.univ.sup (s ⟨k, hk⟩)) ≠ ⊥ := by
      rcases Nat.eq_zero_or_pos k with h0 | hpos
      · subst h0
        obtain ⟨j, hj⟩ := hfirst hk
        have : s ⟨0, hk⟩ j ≤ max μ (Finset.univ.sup (s ⟨0, hk⟩)) :=
          le_trans (Finset.le_sup (f := s ⟨0, hk⟩) (Finset.mem_univ j)) hsup_le
        exact ne_of_gt (lt_of_lt_of_le (bot_lt_iff_ne_bot.2 hj) this)
      · exact ne_of_gt (lt_of_lt_of_le (bot_lt_iff_ne_bot.2 (hμb hpos)) (le_max_left _ _))
    have hm : max μ (Finset.univ.sup (s ⟨k, hk⟩))
        = ((max μ (Finset.univ.sup (s ⟨k, hk⟩))).toReal : EReal) :=
      (EReal.coe_toReal hnt hnb).symm
    generalize (max μ (Finset.univ.sup (s ⟨k, hk⟩))).toReal = m' at hm
    have hcancel : Real.exp m' * Real.exp (-m') = 1 := by
      rw [← Real.exp_add, add_neg_cancel, Real.exp_zero]
    refine ⟨(m' : EReal),
      expR μ * Real.exp (-m') * l + ∑ j, expR (s ⟨k, hk⟩ j) * Real.exp (-m'),
      expR μ * Real.exp (-m') * a
        + ∑ j, expR (s ⟨k, hk⟩ j) * Real.exp (-m') * (v ⟨k, hk⟩ j).toReal,
      ?_, EReal.coe_ne_top _, fun _ => EReal.coe_ne_bot _, ?_, ?_⟩
    · rw [run_succ, hrun]
      exact step_coe (s ⟨k, hk⟩) (v ⟨k, hk⟩) μ l a m' hμt (hs_top _) (hv _) hm
    · rw [sum_lt_succ _ k hk, ← hl, expR_coe, ← Finset.sum_mul]
      linear_combination (expR μ * l + ∑ j, expR (s ⟨k, hk⟩ j)) * hcancel
    · have hsum : (∑ j, expR (s ⟨k, hk⟩ j) * Real.exp (-m') * (v ⟨k, hk⟩ j).toReal)
          = (∑ j, expR (s ⟨k, hk⟩ j) * (v ⟨k, hk⟩ j).toReal) * Real.exp (-m') := by
        rw [Finset.sum_mul]
        exact Finset.sum_congr rfl fun j _ => by ring
      rw [sum_lt_succ _ k hk, ← ha, expR_coe, hsum]
      linear_combination
        (expR μ * a + ∑ j, expR (s ⟨k, hk⟩ j) * (v ⟨k, hk⟩ j).toReal) * hcancel

/-! ### The theorem -/

/-- The coercion `ℝ → EReal` commutes with finite double sums. -/
theorem coe_sum_sum {ι κ : Type*} (S : Finset ι) (S' : Finset κ) (f : ι → κ → ℝ) :
    ((∑ i ∈ S, ∑ j ∈ S', f i j : ℝ) : EReal) = ∑ i ∈ S, ∑ j ∈ S', (f i j : EReal) := by
  rw [coe_finset_sum]
  exact Finset.sum_congr rfl fun i _ => coe_finset_sum _ _

/-- **Online softmax.**  Let the scores never be `⊤`, the values be finite, the first tile hold
    a finite score, and the tiles from `n` on be wholly masked (`⊥`).  Then the quotient of the
    two running sums after `n` tiles is `Σ_t Σ_j (exp (s t j - M) / L) * v t j`, with `M` the
    maximum of all scores and `L = Σ_t Σ_j exp (s t j - M)`.  Both sides are the real number
    `(Σ E (s t j) * v t j) / (Σ E (s t j))`: on the left the common factor is `exp (-m)` for
    the running maximum `m`, on the right it is `exp (-M)`. -/
theorem online_eq_softmax (s v : Fin T → J → EReal) (n : ℕ) (hn : 0 < n) (hnT : n ≤ T)
    (hs_top : ∀ t j, s t j ≠ ⊤) (hv : ∀ t j, v t j ≠ ⊤ ∧ v t j ≠ ⊥)
    (hfirst : ∃ j, s ⟨0, by omega⟩ j ≠ ⊥)
    (hmasked : ∀ t : Fin T, n ≤ t.val → ∀ j, s t j = ⊥) :
    Ideal.div (run s v n hnT).2.2 (run s v n hnT).2.1
      = ∑ t, ∑ j,
          Ideal.div (Ideal.exp (s t j - Finset.univ.sup fun t => Finset.univ.sup (s t)))
            (∑ t, ∑ j, Ideal.exp (s t j - Finset.univ.sup fun t => Finset.univ.sup (s t)))
          * v t j := by
  have hT : 0 < T := lt_of_lt_of_le hn hnT
  obtain ⟨j0, hj0⟩ := hfirst
  -- the two unscaled sums; the first is positive
  have hSpos : 0 < ∑ t : Fin T, ∑ j, expR (s t j) := by
    have h0 : 0 < expR (s ⟨0, hT⟩ j0) := expR_pos (hs_top _ _) hj0
    have h1 : expR (s ⟨0, hT⟩ j0) ≤ ∑ j, expR (s ⟨0, hT⟩ j) :=
      Finset.single_le_sum (f := fun j => expR (s ⟨0, hT⟩ j)) (fun j _ => expR_nonneg _)
        (Finset.mem_univ j0)
    have h2 : (∑ j, expR (s ⟨0, hT⟩ j)) ≤ ∑ t : Fin T, ∑ j, expR (s t j) :=
      Finset.single_le_sum (f := fun t : Fin T => ∑ j, expR (s t j))
        (fun t _ => Finset.sum_nonneg fun j _ => expR_nonneg _) (Finset.mem_univ _)
    linarith
  generalize hS : (∑ t : Fin T, ∑ j, expR (s t j)) = S at hSpos
  generalize hA : (∑ t : Fin T, ∑ j, expR (s t j) * (v t j).toReal) = A
  -- the state after `n` tiles
  obtain ⟨μ, l, a, hrun, hμt, hμb, hl, ha⟩ :=
    run_invariant s v hs_top hv (fun _ => ⟨j0, hj0⟩) n hnT
  rw [sum_lt_of_masked _ n (fun t ht => by simp [hmasked t ht]), hS] at hl
  rw [sum_lt_of_masked _ n (fun t ht => by simp [hmasked t ht]), hA] at ha
  obtain ⟨m, rfl⟩ : ∃ m : ℝ, μ = (m : EReal) :=
    ⟨μ.toReal, (EReal.coe_toReal hμt (hμb hn)).symm⟩
  rw [expR_coe] at hl ha
  have hl0 : l ≠ 0 := by
    rintro rfl
    rw [mul_zero] at hl
    exact hSpos.ne hl
  -- the global maximum is a real number
  have hMt : (Finset.univ.sup fun t => Finset.univ.sup (s t)) ≠ ⊤ :=
    sup_ne_top _ _ fun t => sup_ne_top _ _ (hs_top t)
  have hMb : (Finset.univ.sup fun t => Finset.univ.sup (s t)) ≠ ⊥ :=
    ne_of_gt (lt_of_lt_of_le (bot_lt_iff_ne_bot.2 hj0)
      (le_trans (Finset.le_sup (f := s ⟨0, hT⟩) (Finset.mem_univ j0))
        (Finset.le_sup (f := fun t : Fin T => Finset.univ.sup (s t))
          (Finset.mem_univ (⟨0, hT⟩ : Fin T)))))
  obtain ⟨M, hM⟩ : ∃ M : ℝ, (Finset.univ.sup fun t => Finset.univ.sup (s t)) = (M : EReal) :=
    ⟨_, (EReal.coe_toReal hMt hMb).symm⟩
  rw [hM]
  -- the denominator
  have hL : (∑ t, ∑ j, Ideal.exp (s t j - (M : EReal))) = ((S * Real.exp (-M) : ℝ) : EReal) := by
    rw [← hS, Finset.sum_mul, coe_finset_sum]
    refine Finset.sum_congr rfl fun t _ => ?_
    rw [Finset.sum_mul, coe_finset_sum]
    exact Finset.sum_congr rfl fun j _ => exp_sub_coe (hs_top t j) M
  have hL0 : S * Real.exp (-M) ≠ 0 := mul_ne_zero hSpos.ne' (Real.exp_pos _).ne'
  have hterm : ∀ t j,
      Ideal.div (Ideal.exp (s t j - (M : EReal))) ((S * Real.exp (-M) : ℝ) : EReal) * v t j
        = ((expR (s t j) * Real.exp (-M) * (1 / (S * Real.exp (-M))) * (v t j).toReal : ℝ)
            : EReal) := fun t j => by
    rw [Ideal.div_coe hL0, exp_sub_coe (hs_top t j) M, ← EReal.coe_mul,
      EReal.coe_mul (expR (s t j) * Real.exp (-M) * (1 / (S * Real.exp (-M)))),
      EReal.coe_toReal (hv t j).1 (hv t j).2]
  rw [hL, Finset.sum_congr rfl fun t _ => Finset.sum_congr rfl fun j _ => hterm t j,
    ← coe_sum_sum, hrun]
  show Ideal.div (a : EReal) (l : EReal) = _
  rw [Ideal.div_coe hl0, ← EReal.coe_mul]
  congr 1
  -- the identity between real numbers
  have hR : (∑ t : Fin T, ∑ j,
      expR (s t j) * Real.exp (-M) * (1 / (S * Real.exp (-M))) * (v t j).toReal)
        = A * (Real.exp (-M) * (1 / (S * Real.exp (-M)))) := by
    rw [← hA, Finset.sum_mul]
    refine Finset.sum_congr rfl fun t _ => ?_
    rw [Finset.sum_mul]
    exact Finset.sum_congr rfl fun j _ => by ring
  rw [hR, ← ha, ← hl]
  have hem : Real.exp m ≠ 0 := (Real.exp_pos m).ne'
  have heM : Real.exp (-M) ≠ 0 := (Real.exp_pos (-M)).ne'
  field_simp

end Cert.Lib.OnlineSoftmax
-- ==== Proof.AttnTile.lean ====
/-
  One key block folded into the carried state, read at an index over the extended reals.

  Write S(r, j) for the masked scores of the block, m, l, acc for the old maximum, denominator and
  weighted sum.  At row r the new maximum is m' = max m (sup_j S(r, j)); the old sums are scaled by
  exp (m − m'); the block adds Σ_j exp (S(r, j) − m') to the denominator and
  Σ_j exp (S(r, j) − m') · v(j, d) to column d of the weighted sum.  Each lemma below reads one of
  the kernel's intermediate blocks at an index; together they say that the update is one tile of the
  one-pass softmax evaluation.
-/
import proofs.«146706_j7413113552965_2_alg».proof.Proof.AttnScore
import proofs.«146706_j7413113552965_2_alg».proof.Proof.LibPlainDot
import proofs.«146706_j7413113552965_2_alg».proof.Proof.LibColumns
import proofs.«146706_j7413113552965_2_alg».proof.Proof.LibOnlineSoftmax

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

open Cert.Lib.OnlineSoftmax

/-! ### Lane reductions of a 512 × 512 block at a row -/

/-- The bit pattern of −∞ denotes −∞. -/
theorem ofBits_neg_inf : Ideal.ofBits .f32 0xFF800000#32 = (⊥ : EReal) := by
  simp [Ideal.ofBits, Ideal.ieee]

/-- The index of a 512 × 512 block that a row index and a lane make. -/
theorem lift_row (r j : Fin 512) : reduces_S512x512_S512.lift (ix1 r) j = ix2 r j :=
  funext fun a => Fin.ext (by match a with | ⟨0, _⟩ => rfl | ⟨1, _⟩ => rfl)

/-- The maximum over the lanes of row r is the supremum of the row. -/
theorem rowMax_apply (src : FVec Ideal S512x512 .f32) (hφ : FKind.Formats .f32)
    (hacc : (0xFF800000#32 : BitVec 32) = FKind.maximumf.neutral .f32 hφ) (r : Fin 512) :
    multiReduction .maximumf [1] S512 src 0xFF800000#32 reduces_S512x512_S512 hφ hacc (ix1 r)
      = Finset.univ.sup fun j : Fin 512 => src (ix2 r j) := by
  refine (Ideal.multiReduction_maximumf_single src _ reduces_S512x512_S512 hφ hacc (ix1 r)).trans ?_
  have e : (src ∘ reduces_S512x512_S512.lift (ix1 r)) = fun j : Fin 512 => src (ix2 r j) :=
    funext fun j => congrArg src (lift_row r j)
  exact (congrArg₂ (fun (a : EReal) (f : Fin 512 → EReal) =>
      Finset.fold max a f (Finset.univ : Finset (Fin 512))) ofBits_neg_inf e).trans
    (univ_fold_max_eq_sup _)

/-- The sum over the lanes of row r. -/
theorem rowSum_apply (src : FVec Ideal S512x512 .f32) (hφ : FKind.Formats .f32)
    (hacc : (0x00000000#32 : BitVec 32) = FKind.add.neutral .f32 hφ) (r : Fin 512) :
    multiReduction .add [1] S512 src 0x00000000#32 reduces_S512x512_S512 hφ hacc (ix1 r)
      = ∑ j : Fin 512, src (ix2 r j) := by
  refine (Ideal.multiReduction_add_single src _ reduces_S512x512_S512 hφ hacc (ix1 r)).trans ?_
  exact Finset.sum_congr rfl fun j _ => congrArg src (lift_row r j)

/-! ### The intermediate blocks of the update -/

variable (a1 a2 : BitVec 32) (q k : Vec Ideal S512x128 .bf16)

/-- The new maximum of row r. -/
theorem k1_pay8_apply (m : Vec Ideal S512x1 .f32) (r : Fin 512) :
    k1_pay8 (F := Ideal) a1 a2 q k m (ix2 r (0 : Fin 1))
      = max (m (ix2 r (0 : Fin 1)))
          (Finset.univ.sup fun j : Fin 512 => k1_pay7 (F := Ideal) a1 a2 q k (ix2 r j)) := by
  unfold k1_pay8
  show max (m (ix2 r (0 : Fin 1)))
      (shapeCast S512x1
        (multiReduction .maximumf [1] S512 (k1_pay7 (F := Ideal) a1 a2 q k) 0xFF800000#32
          reduces_S512x512_S512 (.inl rfl) rfl) shapeCasts_S512_S512x1 (ix2 r (0 : Fin 1))) = _
  exact congrArg (max _)
    ((Cert.LibColumns.shapeCast_a_a1_apply _ shapeCasts_S512_S512x1 r 0).trans
      (rowMax_apply _ _ _ r))

/-- The factor the old sums of row r are scaled by. -/
theorem k1_pay9_apply (m : Vec Ideal S512x1 .f32) (r : Fin 512) :
    k1_pay9 (F := Ideal) a1 a2 q k m (ix2 r (0 : Fin 1))
      = Ideal.exp (m (ix2 r (0 : Fin 1)) - k1_pay8 (F := Ideal) a1 a2 q k m (ix2 r (0 : Fin 1))) :=
  rfl

/-- The block's weights: the exponentials of the scores less the new maximum of their row. -/
theorem k1_pay10_apply (m : Vec Ideal S512x1 .f32) (r j : Fin 512) :
    k1_pay10 (F := Ideal) a1 a2 q k m (ix2 r j)
      = Ideal.exp (k1_pay7 (F := Ideal) a1 a2 q k (ix2 r j)
          - k1_pay8 (F := Ideal) a1 a2 q k m (ix2 r (0 : Fin 1))) := by
  unfold k1_pay10
  show Ideal.exp (k1_pay7 (F := Ideal) a1 a2 q k (ix2 r j)
      - broadcastTo S512x512 (k1_pay8 (F := Ideal) a1 a2 q k m) broadcasts_S512x1_S512x512 (ix2 r j)) = _
  rw [Cert.LibColumns.broadcastTo_a1_ab_apply _ broadcasts_S512x1_S512x512 r j]

/-- The new denominator of row r. -/
theorem k1_pay11_apply (m l : Vec Ideal S512x1 .f32) (r : Fin 512) :
    k1_pay11 (F := Ideal) a1 a2 q k m l (ix2 r (0 : Fin 1))
      = k1_pay9 (F := Ideal) a1 a2 q k m (ix2 r (0 : Fin 1)) * l (ix2 r (0 : Fin 1))
          + ∑ j : Fin 512, k1_pay10 (F := Ideal) a1 a2 q k m (ix2 r j) := by
  unfold k1_pay11
  show shapeCast S512x1 (addf (mulf (k1_pay9 (F := Ideal) a1 a2 q k m) l)
      (shapeCast S512x1
        (multiReduction .add [1] S512 (k1_pay10 (F := Ideal) a1 a2 q k m) 0x00000000#32
          reduces_S512x512_S512 (.inl rfl) rfl) shapeCasts_S512_S512x1))
      shapeCasts_S512x1_S512x1 (ix2 r (0 : Fin 1)) = _
  rw [shapeCast_self]
  show k1_pay9 (F := Ideal) a1 a2 q k m (ix2 r (0 : Fin 1)) * l (ix2 r (0 : Fin 1))
      + shapeCast S512x1
        (multiReduction .add [1] S512 (k1_pay10 (F := Ideal) a1 a2 q k m) 0x00000000#32
          reduces_S512x512_S512 (.inl rfl) rfl) shapeCasts_S512_S512x1 (ix2 r (0 : Fin 1)) = _
  exact congrArg (_ + ·)
    ((Cert.LibColumns.shapeCast_a_a1_apply _ shapeCasts_S512_S512x1 r 0).trans
      (rowSum_apply _ _ _ r))

/-- The block's contribution to column d of the weighted sum of row r. -/
theorem k1_pay12_apply (m : Vec Ideal S512x1 .f32) (v : Vec Ideal S512x128 .bf16) (r : Fin 512)
    (d : Fin 128) :
    k1_pay12 (F := Ideal) a1 a2 q k m v (ix2 r d)
      = ∑ j : Fin 512, k1_pay10 (F := Ideal) a1 a2 q k m (ix2 r j) * v (ix2 j d) := by
  unfold k1_pay12
  show FloatOps.matmul dot_S512x512_S512x128_S512x128_1_0_0_1_n_n none
      (truncf .bf16 (k1_pay10 (F := Ideal) a1 a2 q k m) bitsLt_bf16_f32)
      (shapeCast S512x128 v shapeCasts_S512x128_S512x128)
      (constant (F := Ideal) S512x128 .f32 0x00000000#32) (ix2 r d) = _
  rw [shapeCast_self, Cert.PlainDot.matmul_zero_apply _ rfl rfl rfl rfl rfl rfl]
  rfl

/-- The new weighted sum: the old one scaled, plus the block's contribution. -/
theorem k1_pay4_apply (al : FVec Ideal S512x1 .f32) (pv : FVec Ideal S512x128 .f32)
    (acc : Vec Ideal S512x128 .f32) (r : Fin 512) (d : Fin 128) :
    k1_pay4 (F := Ideal) al pv acc (ix2 r d)
      = al (ix2 r (0 : Fin 1)) * acc (ix2 r d) + pv (ix2 r d) := by
  unfold k1_pay4
  show shapeCast S512x128 (addf (mulf (broadcastTo S512x128 al broadcasts_S512x1_S512x128) acc) pv)
      shapeCasts_S512x128_S512x128 (ix2 r d) = _
  rw [shapeCast_self]
  show broadcastTo S512x128 al broadcasts_S512x1_S512x128 (ix2 r d) * acc (ix2 r d) + pv (ix2 r d) = _
  rw [Cert.LibColumns.broadcastTo_a1_ab_apply _ broadcasts_S512x1_S512x128 r d]

/-- The stored maximum is the new maximum. -/
theorem k1_pay5_eq (x : FVec Ideal S512x1 .f32) : k1_pay5 (F := Ideal) x = x := by
  unfold k1_pay5
  exact shapeCast_self _ _

/-! ### The update is one tile of the one-pass evaluation -/

/-- One key block folded into the state, read at row r and column d: the maximum and denominator of
    row r and entry (r, d) of the weighted sum are one step of the one-pass evaluation on the row's
    scores against column d of the values. -/
theorem stUpd_apply (v : Vec Ideal S512x128 .bf16) (s : St Ideal) (r : Fin 512) (d : Fin 128) :
    ((stUpd a1 a2 q k v s).1 (ix2 r (0 : Fin 1)), (stUpd a1 a2 q k v s).2.1 (ix2 r (0 : Fin 1)),
        (stUpd a1 a2 q k v s).2.2 (ix2 r d))
      = step (fun j : Fin 512 => k1_pay7 (F := Ideal) a1 a2 q k (ix2 r j))
          (fun j : Fin 512 => v (ix2 j d))
          (s.1 (ix2 r (0 : Fin 1)), s.2.1 (ix2 r (0 : Fin 1)), s.2.2 (ix2 r d)) := by
  unfold stUpd
  show (k1_pay5 (F := Ideal) (k1_pay8 (F := Ideal) a1 a2 q k s.1) (ix2 r (0 : Fin 1)),
      k1_pay11 (F := Ideal) a1 a2 q k s.1 s.2.1 (ix2 r (0 : Fin 1)),
      k1_pay4 (F := Ideal) (k1_pay9 (F := Ideal) a1 a2 q k s.1)
        (k1_pay12 (F := Ideal) a1 a2 q k s.1 v) s.2.2 (ix2 r d)) = _
  rw [k1_pay5_eq, k1_pay11_apply, k1_pay4_apply, k1_pay12_apply, k1_pay9_apply]
  simp only [k1_pay10_apply]
  rw [k1_pay8_apply]
  rfl

end Cert.KernelIdeal.Hand

end
-- ==== Proof.Spec.lean ====
/-
  The function both programs compute, stated once over the extended reals.

  Inputs: tokens `x[b, s, d]` (2 × 2048 × 2048), projection weights `wq[e, d]` (6144 × 2048) with
  bias `bq[e]`, output weights `wo[e, d]` (2048 × 2048) with bias `bo[e]`.

  * The projection: `qkv[b, s, e] = Σ_d x[b, s, d] · wq[e, d] + bq[e]`.  Column `e` of it belongs
    to the query (`e < 2048`), the key (`2048 ≤ e < 4096`) or the value (`4096 ≤ e`); within each
    third, head `h` (of 16) owns the 128 columns `h·128 + j`.
  * Causal scores of head `h`: `score[s, t] = (Σ_j q[s, j] · k[t, j]) / D + mask[s, t]`, where
    `D` is the divisor the scores are scaled by and `mask[s, t]` is `0` for `t ≤ s` and `−∞` above
    the diagonal.
  * The softmax of a row: with `M[s] = sup_t score[s, t]` and `L[s] = Σ_t exp (score[s, t] − M[s])`,
    the weight of key `t` is `exp (score[s, t] − M[s]) / L[s]`, and the head's output is
    `o[s, j] = Σ_t weight[s, t] · v[t, j]`.
  * The heads' outputs side by side form a row of 2048 entries, column `d = h·128 + j`; the result is
    `out[b, s, e] = Σ_d o[b, s, d] · wo[e, d] + bo[e]`.
-/
import Idealize.ShloMosaic.PureOps.Ideal
import Idealize.ShloMosaic.Lib.ValueIdx

noncomputable section

namespace Cert.Spec

open Idealize.ShloMosaic Idealize.ShloMosaic.ValueIdx
open scoped BigOperators

/-- The shapes of the five inputs and of the result. -/
abbrev SX : Shape := ⟨3, ![2, 2048, 2048]⟩
abbrev SWq : Shape := ⟨2, ![6144, 2048]⟩
abbrev SBq : Shape := ⟨1, ![6144]⟩
abbrev SWo : Shape := ⟨2, ![2048, 2048]⟩
abbrev SBo : Shape := ⟨1, ![2048]⟩

/-- Head `h`'s query, key and value columns of the projection. -/
def colQ (h : Fin 16) (j : Fin 128) : Fin 6144 := ⟨h.val * 128 + j.val, by omega⟩
def colK (h : Fin 16) (j : Fin 128) : Fin 6144 := ⟨2048 + (h.val * 128 + j.val), by omega⟩
def colV (h : Fin 16) (j : Fin 128) : Fin 6144 := ⟨4096 + (h.val * 128 + j.val), by omega⟩

/-- The head and the column inside the head of an output column. -/
def headOf (d : Fin 2048) : Fin 16 := ⟨d.val / 128, by omega⟩
def laneOf (d : Fin 2048) : Fin 128 := ⟨d.val % 128, by omega⟩

/-- The divisor of the scores: the single-precision word nearest to `√128`, as an exact real. -/
def D : EReal := Ideal.ofBits .f32 0x413504F3#32

/-- The causal mask: nothing added on or below the diagonal, `−∞` above it. -/
def mask (s t : Fin 2048) : EReal := if t.val ≤ s.val then 0 else ⊥

section Attention

-- a projection `qkv[b, s, e]`, whatever produced it
variable (qkv : Fin 2 → Fin 2048 → Fin 6144 → EReal)

/-- The masked, scaled score of query row `s` against key row `t` in head `h` of batch `b`. -/
def score (b : Fin 2) (h : Fin 16) (s t : Fin 2048) : EReal :=
  Ideal.div (∑ j : Fin 128, qkv b s (colQ h j) * qkv b t (colK h j)) D + mask s t

/-- The largest score of a row. -/
def rowMax (b : Fin 2) (h : Fin 16) (s : Fin 2048) : EReal :=
  Finset.univ.sup fun t : Fin 2048 => score qkv b h s t

/-- A score's exponential after the row's maximum is subtracted. -/
def expo (b : Fin 2) (h : Fin 16) (s t : Fin 2048) : EReal :=
  Ideal.exp (score qkv b h s t - rowMax qkv b h s)

/-- The softmax denominator of a row. -/
def denom (b : Fin 2) (h : Fin 16) (s : Fin 2048) : EReal :=
  ∑ t : Fin 2048, expo qkv b h s t

/-- Head `h`'s output at row `s`, column `j`: the softmax-weighted sum of the value rows. -/
def headOut (b : Fin 2) (h : Fin 16) (s : Fin 2048) (j : Fin 128) : EReal :=
  ∑ t : Fin 2048, Ideal.div (expo qkv b h s t) (denom qkv b h s) * qkv b t (colV h j)

end Attention

section Whole

variable (x : SX.Idx → EReal) (wq : SWq.Idx → EReal) (bq : SBq.Idx → EReal)
  (wo : SWo.Idx → EReal) (bo : SBo.Idx → EReal)

/-- The projection of the tokens. -/
def qkvOf (b : Fin 2) (s : Fin 2048) (e : Fin 6144) : EReal :=
  (∑ d : Fin 2048, x (ix3 b s d) * wq (ix2 e d)) + bq (ix1 e)

/-- The attention output laid out with the heads side by side. -/
def attnOf (b : Fin 2) (s : Fin 2048) (d : Fin 2048) : EReal :=
  headOut (qkvOf x wq bq) b (headOf d) s (laneOf d)

/-- The result at `(b, s, e)`. -/
def out (b : Fin 2) (s : Fin 2048) (e : Fin 2048) : EReal :=
  (∑ d : Fin 2048, attnOf x wq bq b s d * wo (ix2 e d)) + bo (ix1 e)

/-- The result as one array. -/
def G : SX.Idx → EReal := fun i => out x wq bq wo bo (i 0) (i 1) (i 2)

end Whole

end Cert.Spec

end
-- ==== Proof.AttnBlocks.lean ====
/-
  The blocks the attention region reads, as entries of the projection array.

  The region's three input windows all look at the one projection array of 4096 rows (batch b's
  position s is row b·2048 + s) and 6144 columns (queries, keys, values; head h owns 128 columns of
  each third).  Grid point t = (bh·4 + qi)·4 + kv, with bh = b·16 + h, reads the 512 × 128 blocks
    queries: rows (b·4 + qi)·512 + r,            columns h·128 + c;
    keys:    rows (b·4 + min kv qi)·512 + r,     columns 2048 + h·128 + c;
    values:  rows (b·4 + min kv qi)·512 + r,     columns 4096 + h·128 + c.
  The block numbers are decided once over the 512 grid points; a block's entry is the array's entry
  at block number × block extent + the coordinate inside the block.
-/
import proofs.«146706_j7413113552965_2_alg».proof.Proof.FlashState
import proofs.«146706_j7413113552965_2_alg».proof.Proof.Spec

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

open Cert.Spec

variable (V : (c : Dev nD) → (b : Ref sig .tc) → Buf (Elt Ideal) ((c : Thread nD τ).loc b))

/-- The projection array as the region finds it, by batch, position and column. -/
def qkvB (c : Dev nD) : Fin 2 → Fin 2048 → Fin 6144 → EReal := fun b s e =>
  (V c main_v6 : S4096x6144.Idx → EReal) (ix2 ⟨b.val * 2048 + s.val, by omega⟩ e)

/-- The attention of that projection as one array of 4096 rows and 2048 columns: row b·2048 + s,
    column h·128 + j holds head h's output at position s of batch b, column j. -/
def attnArr (c : Dev nD) : S4096x2048.Idx → EReal := fun i =>
  Cert.Spec.headOut (qkvB V c) ⟨(i 0).val / 2048, by have := idx2_lt0 i; omega⟩ (Cert.Spec.headOf (i 1))
    ⟨(i 0).val % 2048, by omega⟩ (Cert.Spec.laneOf (i 1))

/-- The grid has 512 points. -/
theorem N1 : cfg1.N = 512 := rfl

/-- The coordinates of a grid point and the block numbers of the four windows there. -/
theorem idx_facts1 : ∀ t : Fin cfg1.N,
    ((grid1.coords t) 0).val = t.val / 16 ∧ ((grid1.coords t) 1).val = t.val / 4 % 4
    ∧ ((grid1.coords t) 2).val = t.val % 4
    ∧ win1_0.index t (0 : Fin 2) = t.val / 256 * 4 + t.val / 4 % 4
    ∧ win1_0.index t (1 : Fin 2) = t.val / 16 % 16
    ∧ win1_1.index t (0 : Fin 2) = t.val / 256 * 4 + min (t.val % 4) (t.val / 4 % 4)
    ∧ win1_1.index t (1 : Fin 2) = 16 + t.val / 16 % 16
    ∧ win1_2.index t (0 : Fin 2) = t.val / 256 * 4 + min (t.val % 4) (t.val / 4 % 4)
    ∧ win1_2.index t (1 : Fin 2) = 32 + t.val / 16 % 16
    ∧ win1_3.index t (0 : Fin 2) = t.val / 256 * 4 + t.val / 4 % 4
    ∧ win1_3.index t (1 : Fin 2) = t.val / 16 % 16 :=
  (by decide +kernel : ∀ t : Fin grid1.N, _)

variable (c : Dev nD)

/-- The query block at point t. -/
theorem iblk1_q (t : Fin cfg1.N) (b : Fin 2) (h : Fin 16) (s : Fin 2048) (r : Fin 512) (cc : Fin 128)
    (hb : b.val = t.val / 256) (hh : h.val = t.val / 16 % 16)
    (hs : s.val = t.val / 4 % 4 * 512 + r.val) :
    (iblk1 V c 0 t : S512x128.Idx → EReal) (ix2 r cc) = qkvB V c b s (colQ h cc) := by
  obtain ⟨-, -, -, e0, e1, -⟩ := idx_facts1 t
  show (V c main_v6 : S4096x6144.Idx → EReal) (((cfg1.win 0).blk t).view.emb (ix2 r cc)) = _
  refine congrArg _ (funext fun a => Fin.ext ?_)
  match a with
  | ⟨0, _⟩ =>
    show win1_0.index t (0 : Fin 2) * 512 + 1 * r.val = b.val * 2048 + s.val
    omega
  | ⟨1, _⟩ =>
    show win1_0.index t (1 : Fin 2) * 128 + 1 * cc.val = h.val * 128 + cc.val
    omega

/-- The key block at point t. -/
theorem iblk1_k (t : Fin cfg1.N) (b : Fin 2) (h : Fin 16) (s : Fin 2048) (r : Fin 512) (cc : Fin 128)
    (hb : b.val = t.val / 256) (hh : h.val = t.val / 16 % 16)
    (hs : s.val = min (t.val % 4) (t.val / 4 % 4) * 512 + r.val) :
    (iblk1 V c 1 t : S512x128.Idx → EReal) (ix2 r cc) = qkvB V c b s (colK h cc) := by
  obtain ⟨-, -, -, -, -, e0, e1, -⟩ := idx_facts1 t
  show (V c main_v6 : S4096x6144.Idx → EReal) (((cfg1.win 1).blk t).view.emb (ix2 r cc)) = _
  refine congrArg _ (funext fun a => Fin.ext ?_)
  match a with
  | ⟨0, _⟩ =>
    show win1_1.index t (0 : Fin 2) * 512 + 1 * r.val = b.val * 2048 + s.val
    omega
  | ⟨1, _⟩ =>
    show win1_1.index t (1 : Fin 2) * 128 + 1 * cc.val = 2048 + (h.val * 128 + cc.val)
    omega

/-- The value block at point t. -/
theorem iblk1_v (t : Fin cfg1.N) (b : Fin 2) (h : Fin 16) (s : Fin 2048) (r : Fin 512) (cc : Fin 128)
    (hb : b.val = t.val / 256) (hh : h.val = t.val / 16 % 16)
    (hs : s.val = min (t.val % 4) (t.val / 4 % 4) * 512 + r.val) :
    (iblk1 V c 2 t : S512x128.Idx → EReal) (ix2 r cc) = qkvB V c b s (colV h cc) := by
  obtain ⟨-, -, -, -, -, -, -, e0, e1, -⟩ := idx_facts1 t
  show (V c main_v6 : S4096x6144.Idx → EReal) (((cfg1.win 2).blk t).view.emb (ix2 r cc)) = _
  refine congrArg _ (funext fun a => Fin.ext ?_)
  match a with
  | ⟨0, _⟩ =>
    show win1_2.index t (0 : Fin 2) * 512 + 1 * r.val = b.val * 2048 + s.val
    omega
  | ⟨1, _⟩ =>
    show win1_2.index t (1 : Fin 2) * 128 + 1 * cc.val = 4096 + (h.val * 128 + cc.val)
    omega

end Cert.KernelIdeal.Hand

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.AttnSoftmax.lean ====
/-
  The softmax-weighted sum of a causal attention row, taken key block by key block.

  A row of 2048 key positions is four blocks of 512: position t·512 + j is place j of block t.  For the
  query at place r of query block qi, the score against that key is the scaled inner product when
  t·512 + j ≤ qi·512 + r and −∞ otherwise; blocks after qi are wholly −∞.  The one-pass evaluation
  over the first qi + 1 blocks therefore ends with weighted sum over denominator equal to the
  specification's head output at that query row: both are the sum over all 2048 keys of
  exp (score − M) / L times the value, with M the row's largest score and L its denominator, and sums
  and suprema over the 2048 positions are sums and suprema over blocks and places.  Dividing by the
  divisor of the scores is multiplying by its reciprocal.
-/
import proofs.«146706_j7413113552965_2_alg».proof.Proof.Spec
import proofs.«146706_j7413113552965_2_alg».proof.Proof.AttnScore
import proofs.«146706_j7413113552965_2_alg».proof.Proof.LibOnlineSoftmax
import proofs.«146706_j7413113552965_2_alg».proof.Proof.LibTileSum

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

open Cert.Spec Cert.Lib.OnlineSoftmax

/-! ### The divisor of the scores -/

/-- The divisor is the real number 11863283 / 1048576. -/
theorem D_eq : Cert.Spec.D = ((11863283 / 1048576 : ℝ) : EReal) := by
  simp [Cert.Spec.D, Ideal.ofBits, Ideal.ieee, -EReal.coe_mul]
  norm_num

/-- Dividing by the divisor is multiplying by the scale. -/
theorem div_D (x : EReal) : Ideal.div x Cert.Spec.D = x * invD := by
  rw [D_eq, Ideal.div_coe (by norm_num)]
  unfold invD
  congr 2
  norm_num

/-! ### Key positions by block and place -/

/-- Place j of key block t. -/
def keyPos (t : Fin 4) (j : Fin 512) : Fin 2048 := ⟨t.val * 512 + j.val, by omega⟩

/-- A sum over the 2048 positions is the sum over the blocks of the sums over the places. -/
theorem sum_blocks (G : Fin 2048 → EReal) :
    ∑ p : Fin 2048, G p = ∑ t : Fin 4, ∑ j : Fin 512, G (keyPos t j) := by
  have h := Cert.TileSum.sum_tiles 4 512 (fun n => if hn : n < 2048 then G ⟨n, hn⟩ else 0)
  rw [Finset.sum_range] at h
  have h1 : (∑ p : Fin (4 * 512), (fun n => if hn : n < 2048 then G ⟨n, hn⟩ else 0) p.val)
      = ∑ p : Fin 2048, G p :=
    Finset.sum_congr rfl fun p _ => dif_pos p.isLt
  rw [← h1, ← h]
  refine Finset.sum_congr rfl fun t _ => Finset.sum_congr rfl fun j _ => ?_
  have hlt : 512 * t.val + j.val < 2048 := by omega
  show (if hn : 512 * t.val + j.val < 2048 then G ⟨512 * t.val + j.val, hn⟩ else 0) = _
  rw [dif_pos hlt]
  exact congrArg G (Fin.ext (by show 512 * t.val + j.val = t.val * 512 + j.val; omega))

/-- Every position is the place of its remainder in the block of its quotient. -/
theorem keyPos_divmod (p : Fin 2048) (h1 : p.val / 512 < 4) (h2 : p.val % 512 < 512) :
    keyPos ⟨p.val / 512, h1⟩ ⟨p.val % 512, h2⟩ = p :=
  Fin.ext (by show p.val / 512 * 512 + p.val % 512 = p.val; omega)

/-- A supremum over the 2048 positions is the supremum over the blocks of the suprema over the
    places. -/
theorem sup_blocks (G : Fin 2048 → EReal) :
    Finset.univ.sup G
      = Finset.univ.sup fun t : Fin 4 => Finset.univ.sup fun j : Fin 512 => G (keyPos t j) := by
  refine le_antisymm (Finset.sup_le fun p _ => ?_)
    (Finset.sup_le fun t _ => Finset.sup_le fun j _ => Finset.le_sup (Finset.mem_univ _))
  have h1 : p.val / 512 < 4 := by omega
  have h2 : p.val % 512 < 512 := by omega
  have e : G p = G (keyPos ⟨p.val / 512, h1⟩ ⟨p.val % 512, h2⟩) := by rw [keyPos_divmod]
  rw [e]
  exact le_trans
    (Finset.le_sup (f := fun j : Fin 512 => G (keyPos ⟨p.val / 512, h1⟩ j))
      (Finset.mem_univ (⟨p.val % 512, h2⟩ : Fin 512)))
    (Finset.le_sup (f := fun t : Fin 4 => Finset.univ.sup fun j : Fin 512 => G (keyPos t j))
      (Finset.mem_univ (⟨p.val / 512, h1⟩ : Fin 4)))

/-! ### The row's scores and values by block -/

section Row

variable (qkv : Fin 2 → Fin 2048 → Fin 6144 → EReal)

/-- The score of the query at place r of query block qi against place j of key block t. -/
def tileScore (b : Fin 2) (h : Fin 16) (qi : Fin 4) (r : Fin 512) (t : Fin 4) (j : Fin 512) :
    EReal :=
  if t.val * 512 + j.val ≤ qi.val * 512 + r.val then
    (∑ c : Fin 128, qkv b (keyPos qi r) (colQ h c) * qkv b (keyPos t j) (colK h c)) * invD
  else ⊥

/-- Column d of the value at place j of key block t. -/
def tileVal (b : Fin 2) (h : Fin 16) (d : Fin 128) (t : Fin 4) (j : Fin 512) : EReal :=
  qkv b (keyPos t j) (colV h d)

/-- The specification's masked score at those positions is the block's score. -/
theorem score_keyPos (b : Fin 2) (h : Fin 16) (qi : Fin 4) (r : Fin 512) (t : Fin 4) (j : Fin 512) :
    score qkv b h (keyPos qi r) (keyPos t j) = tileScore qkv b h qi r t j := by
  unfold score mask tileScore
  rw [div_D]
  show _ + (if t.val * 512 + j.val ≤ qi.val * 512 + r.val then (0 : EReal) else ⊥) = _
  by_cases hc : t.val * 512 + j.val ≤ qi.val * 512 + r.val
  · rw [if_pos hc, if_pos hc, add_zero]
  · rw [if_neg hc, if_neg hc, EReal.add_bot]

variable (hreal : ∀ b s e, ∃ x : ℝ, qkv b s e = (x : EReal))
include hreal

/-- A block's score is never +∞. -/
theorem tileScore_ne_top (b : Fin 2) (h : Fin 16) (qi : Fin 4) (r : Fin 512) (t : Fin 4)
    (j : Fin 512) : tileScore qkv b h qi r t j ≠ ⊤ := by
  choose f hf using hreal
  unfold tileScore invD
  split_ifs
  · simp only [hf, ← EReal.coe_mul, ← coe_finset_sum]
    exact EReal.coe_ne_top _
  · exact bot_ne_top

/-- An unmasked score is finite. -/
theorem tileScore_ne_bot (b : Fin 2) (h : Fin 16) (qi : Fin 4) (r : Fin 512) (t : Fin 4)
    (j : Fin 512) (hc : t.val * 512 + j.val ≤ qi.val * 512 + r.val) :
    tileScore qkv b h qi r t j ≠ ⊥ := by
  choose f hf using hreal
  unfold tileScore invD
  rw [if_pos hc]
  simp only [hf, ← EReal.coe_mul, ← coe_finset_sum]
  exact EReal.coe_ne_bot _

/-- The one-pass evaluation over the first qi + 1 key blocks ends at the specification's head output
    of the query row. -/
theorem softmax_tiles (b : Fin 2) (h : Fin 16) (qi : Fin 4) (r : Fin 512) (d : Fin 128)
    (hk : qi.val + 1 ≤ 4) :
    Ideal.div (run (tileScore qkv b h qi r) (tileVal qkv b h d) (qi.val + 1) hk).2.2
        (run (tileScore qkv b h qi r) (tileVal qkv b h d) (qi.val + 1) hk).2.1
      = headOut qkv b h (keyPos qi r) d := by
  rw [online_eq_softmax (tileScore qkv b h qi r) (tileVal qkv b h d) (qi.val + 1) (Nat.succ_pos _) hk
    (fun t j => tileScore_ne_top qkv hreal b h qi r t j)
    (fun t j => by
      obtain ⟨x, hx⟩ := hreal b (keyPos t j) (colV h d)
      unfold tileVal
      rw [hx]
      exact ⟨EReal.coe_ne_top _, EReal.coe_ne_bot _⟩)
    ⟨⟨0, by omega⟩, tileScore_ne_bot qkv hreal b h qi r _ _ (by show 0 * 512 + 0 ≤ _; omega)⟩
    (fun t ht j => by
      unfold tileScore
      rw [if_neg (by have := r.isLt; omega)])]
  have hM : rowMax qkv b h (keyPos qi r)
      = Finset.univ.sup fun t : Fin 4 => Finset.univ.sup (tileScore qkv b h qi r t) := by
    unfold rowMax
    rw [sup_blocks]
    simp only [score_keyPos]
  have hE : ∀ t j, expo qkv b h (keyPos qi r) (keyPos t j)
      = Ideal.exp (tileScore qkv b h qi r t j
          - Finset.univ.sup fun t : Fin 4 => Finset.univ.sup (tileScore qkv b h qi r t)) := by
    intro t j
    unfold expo
    rw [hM, score_keyPos]
  have hL : denom qkv b h (keyPos qi r)
      = ∑ t : Fin 4, ∑ j : Fin 512, Ideal.exp (tileScore qkv b h qi r t j
          - Finset.univ.sup fun t : Fin 4 => Finset.univ.sup (tileScore qkv b h qi r t)) := by
    unfold denom
    rw [sum_blocks]
    simp only [hE]
  unfold headOut
  rw [sum_blocks, hL]
  simp only [hE]
  rfl

end Row

end Cert.KernelIdeal.Hand

end
-- ==== Proof.AttnGrid.lean ====
/-
  The attention region's carried state along one row of the grid, and the block it writes.

  Fix a batch-and-head number bh and a query block qi.  The four grid points (bh, qi, kv), kv = 0 … 3,
  are consecutive.  The first resets the state and folds in key block 0; point kv folds in key block kv
  when kv ≤ qi and leaves the state alone otherwise.  Read at row r and column d, the state after point
  kv is therefore the one-pass softmax evaluation over key blocks 0 … min kv qi of the row's scores
  against column d of the values, scores and values being entries of the projection array.  After the
  last point the weighted sum over the denominator is the specification's head output, and that is the
  entry of the attention array the point's output block covers.
-/
import proofs.«146706_j7413113552965_2_alg».proof.Proof.AttnTile
import proofs.«146706_j7413113552965_2_alg».proof.Proof.AttnBlocks
import proofs.«146706_j7413113552965_2_alg».proof.Proof.AttnSoftmax

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

open Cert.Spec Cert.Lib.OnlineSoftmax

/-! ### The state read at a row and a column -/

/-- Row r of the maximum and of the denominator, entry (r, d) of the weighted sum. -/
def rowAt (s : St Ideal) (r : Fin 512) (d : Fin 128) : EReal × EReal × EReal :=
  (s.1 (ix2 r (0 : Fin 1)), s.2.1 (ix2 r (0 : Fin 1)), s.2.2 (ix2 r d))

/-- The reset state: maximum −∞, both sums 0. -/
theorem rowAt_stInit (r : Fin 512) (d : Fin 128) :
    rowAt (stInit (F := Ideal)) r d = ((⊥ : EReal), (0 : EReal), (0 : EReal)) := by
  have h1 : (stInit (F := Ideal)).1 (ix2 r (0 : Fin 1)) = (⊥ : EReal) := by
    show shapeCast S512x1 (broadcast S512x1 (Ideal.ofBits .f32 0xFF800000#32))
      shapeCasts_S512x1_S512x1 (ix2 r (0 : Fin 1)) = _
    rw [shapeCast_self]; exact ofBits_neg_inf
  have h2 : (stInit (F := Ideal)).2.1 (ix2 r (0 : Fin 1)) = (0 : EReal) := by
    show shapeCast S512x1 (broadcast S512x1 (Ideal.ofBits .f32 0x00000000#32))
      shapeCasts_S512x1_S512x1 (ix2 r (0 : Fin 1)) = _
    rw [shapeCast_self]; exact Ideal.ofBits_zero_f32
  have h3 : (stInit (F := Ideal)).2.2 (ix2 r d) = (0 : EReal) := by
    show shapeCast S512x128 (broadcast S512x128 (Ideal.ofBits .f32 0x00000000#32))
      shapeCasts_S512x128_S512x128 (ix2 r d) = _
    rw [shapeCast_self]; exact Ideal.ofBits_zero_f32
  unfold rowAt
  rw [h1, h2, h3]

/-- The output block at (r, d): the weighted sum over the denominator of the row. -/
theorem stOut_apply (s : St Ideal) (r : Fin 512) (d : Fin 128) :
    (stOut s : S512x128.Idx → EReal) (ix2 r d) = Ideal.div (rowAt s r d).2.2 (rowAt s r d).2.1 := by
  unfold stOut k1_pay6
  show Ideal.div (s.2.2 (ix2 r d))
      (broadcastTo S512x128 s.2.1 broadcasts_S512x1_S512x128 (ix2 r d)) = _
  rw [Cert.LibColumns.broadcastTo_a1_ab_apply _ broadcasts_S512x1_S512x128 r d]
  rfl

/-! ### One grid point on the state, by its coordinates -/

section Step

variable (i : grid1.Coords) (a b : ℕ) (h1 : (i 1).val = a) (h2 : (i 2).val = b)
  (q k v : Vec Ideal S512x128 .bf16) (s : St Ideal)
include h1 h2

/-- The first key block: reset, then fold the block in. -/
theorem stStep_first (hb : b = 0) :
    stStep i q k v s = stUpd (BitVec.ofNat 32 a) (BitVec.ofNat 32 b) q k v stInit := by
  unfold stStep
  rw [h1, h2]
  simp only [hb, if_true, Nat.zero_le]

/-- A later key block not above the diagonal: fold it in. -/
theorem stStep_fold (hb : b ≠ 0) (hle : b ≤ a) :
    stStep i q k v s = stUpd (BitVec.ofNat 32 a) (BitVec.ofNat 32 b) q k v s := by
  unfold stStep
  rw [h1, h2]
  simp only [hb, hle, if_true, if_false]

/-- A key block above the diagonal: nothing changes. -/
theorem stStep_above (hb : b ≠ 0) (hlt : ¬ b ≤ a) : stStep i q k v s = s := by
  unfold stStep
  rw [h1, h2]
  simp only [hb, hlt, if_false]

end Step

/-- The scores of a block whose entries are known. -/
theorem scoreAt_of_eq (qi kv : ℕ) (q k : Vec Ideal S512x128 .bf16) (r j : Fin 512)
    (q' k' : Fin 128 → EReal) (hq : ∀ cc, q (ix2 r cc) = q' cc) (hk : ∀ cc, k (ix2 j cc) = k' cc) :
    scoreAt qi kv q k r j
      = if kv * 512 + j.val ≤ qi * 512 + r.val then (∑ cc : Fin 128, q' cc * k' cc) * invD else ⊥ := by
  unfold scoreAt
  simp only [hq, hk]

/-- The one-pass evaluation does not depend on how its number of tiles is written. -/
theorem run_congr (s v : Fin 4 → Fin 512 → EReal) {n n' : ℕ} (e : n = n') (h : n ≤ 4) (h' : n' ≤ 4) :
    run s v n h = run s v n' h' := by
  subst e; rfl

/-! ### Along one row of the grid -/

variable (V : (c : Dev nD) → (b : Ref sig .tc) → Buf (Elt Ideal) ((c : Thread nD τ).loc b))
  (c : Dev nD)

section RowOfGrid

variable (bh : Fin 32) (qi : Fin 4) (r : Fin 512) (d : Fin 128)

/-- Key block kv ≤ qi folded into a state at point (bh, qi, kv), read at (r, d): one tile of the
    evaluation on the projection array's scores and values. -/
theorem fold_row (kv : ℕ) (hkv : kv < 4) (hkq : kv ≤ qi.val)
    (hn : (bh.val * 4 + qi.val) * 4 + kv < cfg1.N) (s : St Ideal) :
    rowAt (stUpd (BitVec.ofNat 32 qi.val) (BitVec.ofNat 32 kv)
        (iblk1 V c 0 ⟨(bh.val * 4 + qi.val) * 4 + kv, hn⟩)
        (iblk1 V c 1 ⟨(bh.val * 4 + qi.val) * 4 + kv, hn⟩)
        (iblk1 V c 2 ⟨(bh.val * 4 + qi.val) * 4 + kv, hn⟩) s) r d
      = step (tileScore (qkvB V c) ⟨bh.val / 16, by omega⟩ ⟨bh.val % 16, by omega⟩ qi r ⟨kv, hkv⟩)
          (tileVal (qkvB V c) ⟨bh.val / 16, by omega⟩ ⟨bh.val % 16, by omega⟩ d ⟨kv, hkv⟩)
          (rowAt s r d) := by
  have hq : ∀ cc : Fin 128,
      (iblk1 V c 0 ⟨(bh.val * 4 + qi.val) * 4 + kv, hn⟩ : S512x128.Idx → EReal) (ix2 r cc)
        = qkvB V c ⟨bh.val / 16, by omega⟩ (keyPos qi r) (colQ ⟨bh.val % 16, by omega⟩ cc) :=
    fun cc => iblk1_q V c ⟨(bh.val * 4 + qi.val) * 4 + kv, hn⟩ _ _ _ r cc
      (by show bh.val / 16 = ((bh.val * 4 + qi.val) * 4 + kv) / 256; omega)
      (by show bh.val % 16 = ((bh.val * 4 + qi.val) * 4 + kv) / 16 % 16; omega)
      (by show qi.val * 512 + r.val = ((bh.val * 4 + qi.val) * 4 + kv) / 4 % 4 * 512 + r.val; omega)
  have hk : ∀ (j : Fin 512) (cc : Fin 128),
      (iblk1 V c 1 ⟨(bh.val * 4 + qi.val) * 4 + kv, hn⟩ : S512x128.Idx → EReal) (ix2 j cc)
        = qkvB V c ⟨bh.val / 16, by omega⟩ (keyPos ⟨kv, hkv⟩ j) (colK ⟨bh.val % 16, by omega⟩ cc) :=
    fun j cc => iblk1_k V c ⟨(bh.val * 4 + qi.val) * 4 + kv, hn⟩ _ _ _ j cc
      (by show bh.val / 16 = ((bh.val * 4 + qi.val) * 4 + kv) / 256; omega)
      (by show bh.val % 16 = ((bh.val * 4 + qi.val) * 4 + kv) / 16 % 16; omega)
      (by show kv * 512 + j.val
            = min (((bh.val * 4 + qi.val) * 4 + kv) % 4) (((bh.val * 4 + qi.val) * 4 + kv) / 4 % 4) * 512
              + j.val
          omega)
  have hv : ∀ j : Fin 512,
      (iblk1 V c 2 ⟨(bh.val * 4 + qi.val) * 4 + kv, hn⟩ : S512x128.Idx → EReal) (ix2 j d)
        = qkvB V c ⟨bh.val / 16, by omega⟩ (keyPos ⟨kv, hkv⟩ j) (colV ⟨bh.val % 16, by omega⟩ d) :=
    fun j => iblk1_v V c ⟨(bh.val * 4 + qi.val) * 4 + kv, hn⟩ _ _ _ j d
      (by show bh.val / 16 = ((bh.val * 4 + qi.val) * 4 + kv) / 256; omega)
      (by show bh.val % 16 = ((bh.val * 4 + qi.val) * 4 + kv) / 16 % 16; omega)
      (by show kv * 512 + j.val
            = min (((bh.val * 4 + qi.val) * 4 + kv) % 4) (((bh.val * 4 + qi.val) * 4 + kv) / 4 % 4) * 512
              + j.val
          omega)
  refine (stUpd_apply (BitVec.ofNat 32 qi.val) (BitVec.ofNat 32 kv)
    (iblk1 V c 0 ⟨(bh.val * 4 + qi.val) * 4 + kv, hn⟩) (iblk1 V c 1 ⟨(bh.val * 4 + qi.val) * 4 + kv, hn⟩)
    (iblk1 V c 2 ⟨(bh.val * 4 + qi.val) * 4 + kv, hn⟩) s r d).trans ?_
  have e1 : (fun j : Fin 512 => k1_pay7 (F := Ideal) (BitVec.ofNat 32 qi.val) (BitVec.ofNat 32 kv)
        (iblk1 V c 0 ⟨(bh.val * 4 + qi.val) * 4 + kv, hn⟩)
        (iblk1 V c 1 ⟨(bh.val * 4 + qi.val) * 4 + kv, hn⟩) (ix2 r j))
      = tileScore (qkvB V c) ⟨bh.val / 16, by omega⟩ ⟨bh.val % 16, by omega⟩ qi r ⟨kv, hkv⟩ :=
    funext fun j =>
      (k1_pay7_apply qi.val kv qi.isLt hkv (iblk1 V c 0 ⟨(bh.val * 4 + qi.val) * 4 + kv, hn⟩)
        (iblk1 V c 1 ⟨(bh.val * 4 + qi.val) * 4 + kv, hn⟩) r j).trans
      ((scoreAt_of_eq qi.val kv _ _ r j _ _ hq (hk j)).trans rfl)
  have e2 : (fun j : Fin 512 =>
        (iblk1 V c 2 ⟨(bh.val * 4 + qi.val) * 4 + kv, hn⟩ : S512x128.Idx → EReal) (ix2 j d))
      = tileVal (qkvB V c) ⟨bh.val / 16, by omega⟩ ⟨bh.val % 16, by omega⟩ d ⟨kv, hkv⟩ :=
    funext fun j => (hv j).trans rfl
  exact congrArg₂ (fun x y => step x y (rowAt s r d)) e1 e2

/-- The state after point (bh, qi, kv), read at (r, d): the evaluation over key blocks 0 … min kv qi. -/
theorem scAt1_row : ∀ (kv : ℕ) (hkv : kv < 4) (m : ℕ) (hm : m = (bh.val * 4 + qi.val) * 4 + kv + 1)
    (hle : m ≤ cfg1.N) (hk : min kv qi.val + 1 ≤ 4),
    rowAt (scAt1 V c m hle) r d
      = run (tileScore (qkvB V c) ⟨bh.val / 16, by omega⟩ ⟨bh.val % 16, by omega⟩ qi r)
          (tileVal (qkvB V c) ⟨bh.val / 16, by omega⟩ ⟨bh.val % 16, by omega⟩ d)
          (min kv qi.val + 1) hk := by
  intro kv
  induction kv with
  | zero =>
    intro hkv m hm hle hk
    subst hm
    have hn : (bh.val * 4 + qi.val) * 4 + 0 < cfg1.N := hle
    obtain ⟨-, c1, c2, -⟩ := idx_facts1 ⟨(bh.val * 4 + qi.val) * 4 + 0, hn⟩
    have h1 : ((grid1.coords ⟨(bh.val * 4 + qi.val) * 4 + 0, hn⟩) 1).val = qi.val := by
      rw [c1]; show ((bh.val * 4 + qi.val) * 4 + 0) / 4 % 4 = qi.val; omega
    have h2 : ((grid1.coords ⟨(bh.val * 4 + qi.val) * 4 + 0, hn⟩) 2).val = 0 := by
      rw [c2]; show ((bh.val * 4 + qi.val) * 4 + 0) % 4 = 0; omega
    show rowAt (stStep (grid1.coords ⟨(bh.val * 4 + qi.val) * 4 + 0, hn⟩)
        (iblk1 V c 0 ⟨(bh.val * 4 + qi.val) * 4 + 0, hn⟩)
        (iblk1 V c 1 ⟨(bh.val * 4 + qi.val) * 4 + 0, hn⟩)
        (iblk1 V c 2 ⟨(bh.val * 4 + qi.val) * 4 + 0, hn⟩)
        (scAt1 V c ((bh.val * 4 + qi.val) * 4 + 0) (Nat.le_of_succ_le hle))) r d = _
    rw [stStep_first (grid1.coords ⟨(bh.val * 4 + qi.val) * 4 + 0, hn⟩) qi.val 0 h1 h2 _ _ _ _ rfl]
    refine (fold_row V c bh qi r d 0 hkv (Nat.zero_le _) hn stInit).trans ?_
    rw [rowAt_stInit, run_congr _ _ (show min 0 qi.val + 1 = 0 + 1 by omega) hk (by omega)]
    rfl
  | succ kv ih =>
    intro hkv m hm hle hk
    subst hm
    have hn : (bh.val * 4 + qi.val) * 4 + (kv + 1) < cfg1.N := hle
    have ih' := ih (by omega) ((bh.val * 4 + qi.val) * 4 + (kv + 1)) rfl (Nat.le_of_succ_le hle)
      (by omega)
    obtain ⟨-, c1, c2, -⟩ := idx_facts1 ⟨(bh.val * 4 + qi.val) * 4 + (kv + 1), hn⟩
    have h1 : ((grid1.coords ⟨(bh.val * 4 + qi.val) * 4 + (kv + 1), hn⟩) 1).val = qi.val := by
      rw [c1]; show ((bh.val * 4 + qi.val) * 4 + (kv + 1)) / 4 % 4 = qi.val; omega
    have h2 : ((grid1.coords ⟨(bh.val * 4 + qi.val) * 4 + (kv + 1), hn⟩) 2).val = kv + 1 := by
      rw [c2]; show ((bh.val * 4 + qi.val) * 4 + (kv + 1)) % 4 = kv + 1; omega
    show rowAt (stStep (grid1.coords ⟨(bh.val * 4 + qi.val) * 4 + (kv + 1), hn⟩)
        (iblk1 V c 0 ⟨(bh.val * 4 + qi.val) * 4 + (kv + 1), hn⟩)
        (iblk1 V c 1 ⟨(bh.val * 4 + qi.val) * 4 + (kv + 1), hn⟩)
        (iblk1 V c 2 ⟨(bh.val * 4 + qi.val) * 4 + (kv + 1), hn⟩)
        (scAt1 V c ((bh.val * 4 + qi.val) * 4 + (kv + 1)) (Nat.le_of_succ_le hle))) r d = _
    by_cases hfold : kv + 1 ≤ qi.val
    · rw [stStep_fold (grid1.coords ⟨(bh.val * 4 + qi.val) * 4 + (kv + 1), hn⟩) qi.val (kv + 1) h1 h2
        _ _ _ _ (Nat.succ_ne_zero kv) hfold]
      refine (fold_row V c bh qi r d (kv + 1) hkv hfold hn _).trans ?_
      rw [ih', run_congr _ _ (show min kv qi.val + 1 = kv + 1 by omega) _ (by omega),
        run_congr _ _ (show min (kv + 1) qi.val + 1 = kv + 1 + 1 by omega) hk (by omega)]
      rfl
    · rw [stStep_above (grid1.coords ⟨(bh.val * 4 + qi.val) * 4 + (kv + 1), hn⟩) qi.val (kv + 1) h1 h2
        _ _ _ _ (Nat.succ_ne_zero kv) hfold]
      exact ih'.trans (run_congr _ _ (by omega) _ _)

end RowOfGrid

/-! ### The block a last point writes -/

/-- An entry of the attention array, by batch, position, head and column. -/
theorem attnArr_apply (i : S4096x2048.Idx) (b : Fin 2) (h : Fin 16) (s : Fin 2048) (d : Fin 128)
    (h0 : (i 0).val = b.val * 2048 + s.val) (h1 : (i 1).val = h.val * 128 + d.val) :
    attnArr V c i = headOut (qkvB V c) b h s d := by
  have e0 : (⟨(i 0).val / 2048, by have := idx2_lt0 i; omega⟩ : Fin 2) = b := Fin.ext (by
    show (i 0).val / 2048 = b.val; omega)
  have e1 : (⟨(i 0).val % 2048, by omega⟩ : Fin 2048) = s := Fin.ext (by
    show (i 0).val % 2048 = s.val; omega)
  have e2 : headOf (i 1) = h := Fin.ext (by show (i 1).val / 128 = h.val; omega)
  have e3 : laneOf (i 1) = d := Fin.ext (by show (i 1).val % 128 = d.val; omega)
  unfold attnArr
  rw [e0, e1, e2, e3]

/-- THE BLOCK OF A LAST POINT.  At a grid point whose key block is the last one, the output block is
    that point's block of the attention array of the projection array. -/
theorem stOut_block
    (hreal : ∀ i, ∃ x : ℝ, (V c main_v6 : S4096x6144.Idx → EReal) i = (x : EReal))
    (t : Fin cfg1.N) (h3 : ((grid1.coords t) 2).val = 3) :
    (stOut (scAt1 V c (t.val + 1) t.isLt) : S512x128.Idx → EReal)
      = ((cfg1.win 3).blk t).view.read (Elt Ideal) (attnArr V c) := by
  obtain ⟨-, -, c2, -, -, -, -, -, -, w0, w1⟩ := idx_facts1 t
  have ht : t.val < 512 := t.isLt
  have hkv : t.val % 4 = 3 := by rw [← c2]; exact h3
  funext y
  obtain ⟨r, d, rfl⟩ : ∃ (r : Fin 512) (d : Fin 128), y = ix2 r d := ⟨y 0, y 1, eq_ix2 y⟩
  have hrow := scAt1_row V c ⟨t.val / 16, by omega⟩ ⟨t.val / 4 % 4, by omega⟩ r d 3 (by omega)
    (t.val + 1) (by show t.val + 1 = (t.val / 16 * 4 + t.val / 4 % 4) * 4 + 3 + 1; omega) t.isLt
    (by show min 3 (t.val / 4 % 4) + 1 ≤ 4; omega)
  rw [stOut_apply, hrow,
    run_congr _ _ (show min 3 (t.val / 4 % 4) + 1 = t.val / 4 % 4 + 1 by omega) _ (by omega)]
  refine (softmax_tiles (qkvB V c) (fun b s e => hreal _) _ _ ⟨t.val / 4 % 4, by omega⟩ r d
    (by show t.val / 4 % 4 + 1 ≤ 4; omega)).trans ?_
  show _ = attnArr V c (((cfg1.win 3).blk t).view.emb (ix2 r d))
  refine (attnArr_apply V c _ _ _ _ _ ?_ ?_).symm
  · show win1_3.index t (0 : Fin 2) * 512 + 1 * r.val
      = t.val / 16 / 16 * 2048 + (t.val / 4 % 4 * 512 + r.val)
    omega
  · show win1_3.index t (1 : Fin 2) * 128 + 1 * d.val = t.val / 16 % 16 * 128 + d.val
    omega

end Cert.KernelIdeal.Hand

end
-- ==== Proof.HostReads.lean ====
/-
  What the host's operations around the three regions hold, read at an index.

  Before the regions the tokens `[2, 2048, 2048]` are laid out as `[4096, 2048]` — row
  `p = b · 2048 + s` — the two biases get a leading unit axis, and the tokens and both weight
  matrices are narrowed to half precision, which over the extended reals changes nothing.
  After the regions the `[4096, 2048]` result is laid out as `[2, 2048, 2048]` again.
-/
import proofs.«146706_j7413113552965_2_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The tokens as the first region finds them: row `p` is batch `p / 2048`, position `p % 2048`. -/
theorem V1_v3 (c : Dev nD) (p : Fin 4096) (k : Fin 2048) :
    (Gen.V1 m c main_v3 : S4096x2048.Idx → EReal) (ix2 p k)
      = (m ((c : Thread nD τ).loc main_arg0) : S2x2048x2048.Idx → EReal)
          (ix3 (⟨p.val / 2048, by omega⟩ : Fin 2) (⟨p.val % 2048, by omega⟩ : Fin 2048) k) := by
  have e : (Gen.V1 m c main_v3 : S4096x2048.Idx → EReal)
      = shapeCast S4096x2048 (m ((c : Thread nD τ).loc main_arg0) : S2x2048x2048.Idx → EReal)
          Facts₀.shapeCasts_S2x2048x2048_S4096x2048 := by
    dsimp only [Gen.V1, Gen.hostOps0]; after_results; rfl
  rw [e]
  refine shapeCast_apply _ _ _ _ ?_
  show (S2x2048x2048.rowMajor (ix3 (⟨p.val / 2048, by omega⟩ : Fin 2) (⟨p.val % 2048, by omega⟩ : Fin 2048) k)).val
    = (S4096x2048.rowMajor (ix2 p k)).val
  rewrite [Shape.rowMajor_val_three, Shape.rowMajor_val_two]
  have hp := p.isLt; have hk := k.isLt
  show (p.val / 2048 * 2048 + p.val % 2048) * 2048 + k.val = p.val * 2048 + k.val
  omega

/-- The projection weights as the first region finds them: the argument itself. -/
theorem V1_v4 (c : Dev nD) (e : Fin 6144) (k : Fin 2048) :
    (Gen.V1 m c main_v4 : S6144x2048.Idx → EReal) (ix2 e k)
      = (m ((c : Thread nD τ).loc main_arg1) : S6144x2048.Idx → EReal) (ix2 e k) := by
  have h : (Gen.V1 m c main_v4 : S6144x2048.Idx → EReal)
      = (m ((c : Thread nD τ).loc main_arg1) : S6144x2048.Idx → EReal) := by
    dsimp only [Gen.V1, Gen.hostOps0]; after_results; rfl
  rw [h]

/-- The projection bias as the first region finds it: one row holding the argument. -/
theorem V1_v1 (c : Dev nD) (e : Fin 6144) :
    (Gen.V1 m c main_v1 : S1x6144.Idx → EReal) (ix2 (0 : Fin 1) e)
      = (m ((c : Thread nD τ).loc main_arg2) : S6144.Idx → EReal) (ix1 e) := by
  have h : (Gen.V1 m c main_v1 : S1x6144.Idx → EReal)
      = shapeCast S1x6144 (m ((c : Thread nD τ).loc main_arg2) : S6144.Idx → EReal)
          Facts₀.shapeCasts_S6144_S1x6144 := by
    dsimp only [Gen.V1, Gen.hostOps0]; after_results; rfl
  rw [h]
  refine shapeCast_apply _ _ _ _ ?_
  show (S6144.rowMajor (ix1 e)).val = (S1x6144.rowMajor (ix2 (0 : Fin 1) e)).val
  rewrite [Shape.rowMajor_val_one, Shape.rowMajor_val_two]
  show e.val = 0 * 6144 + e.val
  omega

/-- The output weights as the last region finds them: the argument itself. -/
theorem V1_v5 (c : Dev nD) (e k : Fin 2048) :
    (Gen.V1 m c main_v5 : S2048x2048.Idx → EReal) (ix2 e k)
      = (m ((c : Thread nD τ).loc main_arg3) : S2048x2048.Idx → EReal) (ix2 e k) := by
  have h : (Gen.V1 m c main_v5 : S2048x2048.Idx → EReal)
      = (m ((c : Thread nD τ).loc main_arg3) : S2048x2048.Idx → EReal) := by
    dsimp only [Gen.V1, Gen.hostOps0]; after_results; rfl
  rw [h]

/-- The output bias as the last region finds it: one row holding the argument. -/
theorem V1_v2 (c : Dev nD) (e : Fin 2048) :
    (Gen.V1 m c main_v2 : S1x2048.Idx → EReal) (ix2 (0 : Fin 1) e)
      = (m ((c : Thread nD τ).loc main_arg4) : S2048.Idx → EReal) (ix1 e) := by
  have h : (Gen.V1 m c main_v2 : S1x2048.Idx → EReal)
      = shapeCast S1x2048 (m ((c : Thread nD τ).loc main_arg4) : S2048.Idx → EReal)
          Facts₀.shapeCasts_S2048_S1x2048 := by
    dsimp only [Gen.V1, Gen.hostOps0]; after_results; rfl
  rw [h]
  refine shapeCast_apply _ _ _ _ ?_
  show (S2048.rowMajor (ix1 e)).val = (S1x2048.rowMajor (ix2 (0 : Fin 1) e)).val
  rewrite [Shape.rowMajor_val_one, Shape.rowMajor_val_two]
  show e.val = 0 * 2048 + e.val
  omega

/-- The result: entry `(b, s, e)` is row `b · 2048 + s`, column `e` of what the last region left. -/
theorem V5_v9 (outs : Gen.Outs (F := Ideal)) (c : Dev nD) (b : Fin 2) (s e : Fin 2048) :
    (Gen.V5 m outs c main_v9 : S2x2048x2048.Idx → EReal) (ix3 b s e)
      = (Gen.V4 m outs c main_v8 : S4096x2048.Idx → EReal)
          (ix2 (⟨b.val * 2048 + s.val, by omega⟩ : Fin 4096) e) := by
  have h : (Gen.V5 m outs c main_v9 : S2x2048x2048.Idx → EReal)
      = shapeCast S2x2048x2048 (Gen.V4 m outs c main_v8 : S4096x2048.Idx → EReal)
          Facts₀.shapeCasts_S4096x2048_S2x2048x2048 := by
    dsimp only [Gen.V5, Gen.hostOps3]; after_results; rfl
  rw [h]
  refine shapeCast_apply _ _ _ _ ?_
  show (S4096x2048.rowMajor (ix2 (⟨b.val * 2048 + s.val, by omega⟩ : Fin 4096) e)).val
    = (S2x2048x2048.rowMajor (ix3 b s e)).val
  rewrite [Shape.rowMajor_val_two, Shape.rowMajor_val_three]
  show (b.val * 2048 + s.val) * 2048 + e.val = (b.val * 2048 + s.val) * 2048 + e.val
  rfl

end Cert.KernelIdeal.Hand

end
-- ==== Proof.Finite.lean ====
/-
  The precondition says every input entry is a real number.

  The printed predicate is a conjunction of five "all entries satisfy `|x| < +∞`" tests, one per
  argument.  A conjunction of one-bit words is `1` only if each is; an all-reduction by `and`
  is `1` only if every entry is; and `max x (−x) < ⊤` over the extended reals rules out both
  infinities, which leaves a real.
-/
import proofs.«146706_j7413113552965_2_alg».proof.Defs
import Idealize.ShloMosaic.Lib.ReduceAll
import Idealize.ShloMosaic.Lib.ValueIdx

noncomputable section

namespace Cert.KernelIdeal.Hand

open Cert.KernelIdeal
open Idealize.ShloMosaic Idealize.ShloMosaic.TcCoe Idealize.ShloMosaic.ValueIdx Idealize.SL.Sem

/-- The word of `+∞`. -/
theorem ofBits_pos_inf : Ideal.ofBits .f32 0x7F800000#32 = (⊤ : EReal) := by
  simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

variable (m : (ℓ : Loc nD τ sig) → Buf (Elt Ideal) ℓ)

/-- Under the precondition every entry of every argument is a real. -/
theorem real_of_pre [Cert.Pre_finite_inputs.Facts] (h : Cert.Pre_KernelIdeal m) (c : Dev nD) :
    (∀ i : S2x2048x2048.Idx, ∃ r : ℝ, (m ((c : Thread nD τ).loc main_arg0) : S2x2048x2048.Idx → EReal) i = (r : EReal))
    ∧ (∀ i : S6144x2048.Idx, ∃ r : ℝ, (m ((c : Thread nD τ).loc main_arg1) : S6144x2048.Idx → EReal) i = (r : EReal))
    ∧ (∀ i : S6144.Idx, ∃ r : ℝ, (m ((c : Thread nD τ).loc main_arg2) : S6144.Idx → EReal) i = (r : EReal))
    ∧ (∀ i : S2048x2048.Idx, ∃ r : ℝ, (m ((c : Thread nD τ).loc main_arg3) : S2048x2048.Idx → EReal) i = (r : EReal))
    ∧ (∀ i : S2048.Idx, ∃ r : ℝ, (m ((c : Thread nD τ).loc main_arg4) : S2048.Idx → EReal) i = (r : EReal)) := by
  have h0 := congrFun (h c) ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.KernelIdeal.Hand

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.Compose.lean ====
/-
  The kernel's result is the specification of its arguments.

  The program's last valuation holds, in the result's buffer, the last reshape of what region 2 leaves.  Region 2
  leaves the product of the attention array with the output weights plus the output bias; region 1 leaves the
  attention of the projection's array; region 0 leaves the projection of the tokens.  Read through the host
  operations that reshape the tokens and the biases and change the weights' float format (the identity on the extended
  reals), the projection at row `b·2048 + s` is the specification's `qkvOf` at `(b, s)`; a flat row index splits back
  into its batch and its position, `(b·2048 + s) / 2048 = b` and `(b·2048 + s) % 2048 = s`; and a flat column index
  `d` is head `d / 128`, lane `d % 128`.  Every entry of the projection is a real number when the arguments' entries
  are, which is what the attention's softmax law asks.
-/
import proofs.«146706_j7413113552965_2_alg».proof.Proof.RunData
import proofs.«146706_j7413113552965_2_alg».proof.Proof.Lin0Value
import proofs.«146706_j7413113552965_2_alg».proof.Proof.Lin2Value
import proofs.«146706_j7413113552965_2_alg».proof.Proof.FlashArr
import proofs.«146706_j7413113552965_2_alg».proof.Proof.AttnGrid
import proofs.«146706_j7413113552965_2_alg».proof.Proof.HostReads
import proofs.«146706_j7413113552965_2_alg».proof.Proof.Finite
import proofs.«146706_j7413113552965_2_alg».proof.Proof.Spec
import proofs.«146706_j7413113552965_2_alg».proof.Proof.LibRealSums

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.RealSums
open scoped BigOperators

variable (m : (ℓ : Loc nD τ sig) → Buf (Elt Ideal) ℓ)

/-- The five argument arrays on core `c`. -/
abbrev aX (c : Dev nD) : S2x2048x2048.Idx → EReal := m ((c : Thread nD τ).loc main_arg0)
abbrev aWq (c : Dev nD) : S6144x2048.Idx → EReal := m ((c : Thread nD τ).loc main_arg1)
abbrev aBq (c : Dev nD) : S6144.Idx → EReal := m ((c : Thread nD τ).loc main_arg2)
abbrev aWo (c : Dev nD) : S2048x2048.Idx → EReal := m ((c : Thread nD τ).loc main_arg3)
abbrev aBo (c : Dev nD) : S2048.Idx → EReal := m ((c : Thread nD τ).loc main_arg4)

theorem VB_v6 (c : Dev nD) : VB m c main_v6 = o6 m c := by simp only [VB, Function.update_self]
theorem VC_v7 (c : Dev nD) : VC m c main_v7 = o7 m c := by simp only [VC, Function.update_self]
theorem VC_of (c : Dev nD) (b : Ref sig .tc) (h6 : b ∉ ([main_v6] : List (Ref sig .tc))) (h7 : b ∉ ([main_v7] : List (Ref sig .tc))) :
    VC m c b = Gen.V1 m c b :=
  ((V3_eq m c b).symm.trans (Gen.V3_of m (outs m) c b h7)).trans (Gen.V2_of m (outs m) c b h6)

/-- A flat row index `b·2048 + s` splits back into `b` and `s`. -/
theorem row_div (b : Fin 2) (s : Fin 2048) (h : (b.val * 2048 + s.val) / 2048 < 2) :
    (⟨(b.val * 2048 + s.val) / 2048, h⟩ : Fin 2) = b := Fin.ext (by show (b.val * 2048 + s.val) / 2048 = b.val; omega)
theorem row_mod (b : Fin 2) (s : Fin 2048) (h : (b.val * 2048 + s.val) % 2048 < 2048) :
    (⟨(b.val * 2048 + s.val) % 2048, h⟩ : Fin 2048) = s := Fin.ext (by show (b.val * 2048 + s.val) % 2048 = s.val; omega)

theorem proj0_apply (A : S4096x2048.Idx → EReal) (W : S6144x2048.Idx → EReal) (B : S1x6144.Idx → EReal) (p : Fin 4096) (e : Fin 6144) :
    proj0 A W B (ix2 p e) = (∑ k : Fin 2048, A (ix2 p k) * W (ix2 e k)) + B (ix2 (0 : Fin 1) e) := rfl
theorem proj2_apply (A : S4096x2048.Idx → EReal) (W : S2048x2048.Idx → EReal) (B : S1x2048.Idx → EReal) (p : Fin 4096) (e : Fin 2048) :
    proj2 A W B (ix2 p e) = (∑ k : Fin 2048, A (ix2 p k) * W (ix2 e k)) + B (ix2 (0 : Fin 1) e) := rfl

/-- What region 0 leaves, read at a row `b·2048 + s`, is the specification's projection of the arguments. -/
theorem o6_apply (c : Dev nD) (b : Fin 2) (s : Fin 2048) (e : Fin 6144) :
    (o6 m c : S4096x6144.Idx → EReal) (ix2 (⟨b.val * 2048 + s.val, by omega⟩ : Fin 4096) e)
      = Cert.Spec.qkvOf (aX m c) (aWq m c) (aBq m c) b s e := by
  have h6 : (o6 m c : S4096x6144.Idx → EReal) = proj0 (Gen.V1 m c main_v3) (Gen.V1 m c main_v4) (Gen.V1 m c main_v1) := final0 (VA m) c
  rw [h6, proj0_apply, V1_v1 m c e]
  unfold Cert.Spec.qkvOf
  refine congrArg₂ (· + ·) (Finset.sum_congr rfl fun k _ => ?_) rfl
  rw [V1_v3 m c _ k, V1_v4 m c e k, row_div, row_mod]

theorem qkvB_eq (c : Dev nD) : qkvB (VB m) c = Cert.Spec.qkvOf (aX m c) (aWq m c) (aBq m c) := by
  funext b s e
  unfold qkvB
  rw [VB_v6]
  exact o6_apply m c b s e

/-- Every entry of what region 0 leaves is a real number, when the tokens', the weights' and the bias's entries are. -/
theorem o6_real (c : Dev nD) (hx : ∀ i, IsReal (aX m c i)) (hw : ∀ i, IsReal (aWq m c i)) (hb : ∀ i, IsReal (aBq m c i)) :
    ∀ i, ∃ x : ℝ, (VB m c main_v6 : S4096x6144.Idx → EReal) i = (x : EReal) := by
  intro i
  obtain ⟨p, e, rfl⟩ : ∃ (p : Fin 4096) (e : Fin 6144), i = ix2 p e := ⟨i 0, i 1, eq_ix2 i⟩
  have hp : p = (⟨(⟨p.val / 2048, by omega⟩ : Fin 2).val * 2048 + (⟨p.val % 2048, by omega⟩ : Fin 2048).val, by omega⟩ : Fin 4096) :=
    Fin.ext (by show p.val = p.val / 2048 * 2048 + p.val % 2048; omega)
  rw [VB_v6, hp, o6_apply]
  unfold Cert.Spec.qkvOf
  exact (isReal_sum _ _ fun k _ => (hx _).mul (hw _)).add (hb _)

/-- What region 1 leaves is the attention of what region 0 left. -/
theorem o7_eq (c : Dev nD) (hreal : ∀ i, ∃ x : ℝ, (VB m c main_v6 : S4096x6144.Idx → EReal) i = (x : EReal)) :
    (o7 m c : S4096x2048.Idx → EReal) = attnArr (VB m) c :=
  final1_of (VB m) c (attnArr (VB m) c) (fun t h3 => stOut_block (VB m) c hreal t h3)

/-- The attention array at row `b·2048 + s`, column `k`, is the specification's attention of the arguments. -/
theorem attn_row (c : Dev nD) (b : Fin 2) (s k : Fin 2048) :
    attnArr (VB m) c (ix2 (⟨b.val * 2048 + s.val, by omega⟩ : Fin 4096) k)
      = Cert.Spec.attnOf (aX m c) (aWq m c) (aBq m c) b s k := by
  rw [attnArr_apply (VB m) c _ b (Cert.Spec.headOf k) s (Cert.Spec.laneOf k) rfl
    (by show k.val = k.val / 128 * 128 + k.val % 128; omega), qkvB_eq]
  rfl

/-- THE KERNEL'S VALUE: under the precondition the result's buffer ends at the specification of the arguments. -/
theorem kernel_value [Cert.Pre_finite_inputs.Facts] (hpre : Cert.Pre_KernelIdeal m) (c : Dev nD) :
    (Gen.V5 m (outs m) c main_v9 : S2x2048x2048.Idx → EReal)
      = Cert.Spec.G (aX m c) (aWq m c) (aBq m c) (aWo m c) (aBo m c) := by
  obtain ⟨hx, hwq, hbq, hwo, hbo⟩ := real_of_pre m hpre c
  funext i
  obtain ⟨b, s, e, rfl⟩ : ∃ (b : Fin 2) (s e : Fin 2048), i = ix3 b s e := ⟨i 0, i 1, i 2, eq_ix3 i⟩
  rw [V5_v9]
  have h8 : (Gen.V4 m (outs m) c main_v8 : S4096x2048.Idx → EReal) = o8 m c := by
    show Function.update (Gen.V3 m (outs m) c) main_v8 (outs m 4 main_v8 c) main_v8 = _
    rw [Function.update_self, outs_v8]
  have h8' : (o8 m c : S4096x2048.Idx → EReal) = proj2 (VC m c main_v7) (VC m c main_v5) (VC m c main_v2) := final2 (VC m) c
  rw [h8, h8', proj2_apply, VC_v7, o7_eq m c (o6_real m c hx hwq hbq),
    VC_of m c main_v5 (by decide) (by decide), VC_of m c main_v2 (by decide) (by decide), V1_v2 m c e]
  show _ = Cert.Spec.out (aX m c) (aWq m c) (aBq m c) (aWo m c) (aBo m c) b s e
  unfold Cert.Spec.out
  refine congrArg₂ (· + ·) (Finset.sum_congr rfl fun k _ => ?_) rfl
  rw [attn_row, V1_v5 m c e k]

end Cert.KernelIdeal.Hand

end
-- ==== Proof.RefQkv.lean ====
/-
  The reference's first stage: the projection of the tokens, and its three thirds cut into heads.

  The projection is a contraction over the model dimension plus a bias broadcast along the
  batch and sequence axes.  The reference then views a row of 6144 entries as 3 × 16 × 128,
  takes one of the three leading slots and swaps the sequence and head axes; read at an index,
  each of these is the projection at column `third · 2048 + head · 128 + lane`.
-/
import proofs.«146706_j7413113552965_2_alg».proof.Proof.Gen.ReferenceIdeal.Read
import proofs.«146706_j7413113552965_2_alg».proof.Proof.Spec

noncomputable section

namespace Cert.ReferenceIdeal.RefValue

open Cert.ReferenceIdeal Cert.ReferenceIdeal.Read Idealize.ShloMosaic Idealize.ShloMosaic.ValueIdx Cert.Spec
open scoped BigOperators

variable (x0 : (⟨S2x2048x2048, .f32⟩ : BufTy).Contents (Elt Ideal))
  (x1 : (⟨S6144x2048, .f32⟩ : BufTy).Contents (Elt Ideal))
  (x2 : (⟨S6144, .f32⟩ : BufTy).Contents (Elt Ideal))

/-- The projection with its bias, entry by entry. -/
theorem proj_apply (b : Fin 2) (s : Fin 2048) (e : Fin 6144) :
    val_main_v3 (F := Ideal) x0 x1 x2 (ix3 b s e) = qkvOf x0 x1 x2 b s e := by
  have el : ∀ k : Fin 2048, lidx_main_v0 (ix3 b s e) k = ix3 b s k := fun k =>
    funext fun a => Fin.ext (by match a with | ⟨0, _⟩ => rfl | ⟨1, _⟩ => rfl | ⟨2, _⟩ => rfl)
  have er : ∀ k : Fin 2048, ridx_main_v0 (ix3 b s e) k = ix2 e k := fun k =>
    funext fun a => Fin.ext (by match a with | ⟨0, _⟩ => rfl | ⟨1, _⟩ => rfl)
  have eb : idx_main_v1 (idx_main_v2 (ix3 b s e)) = ix1 e :=
    funext fun a => Fin.ext (by match a with | ⟨0, _⟩ => rfl)
  rw [val_main_v3_apply, val_main_v0_apply, val_main_v2_apply, val_main_v1_apply, eb]
  simp only [el, er]
  rfl

/-- Dropping the unit axis left by a slice: row-major position `((b·2048 + s)·16 + h)·128 + j`
    read back with the unit axis in third place. -/
theorem unsqueeze_idx (b : Fin 2) (s : Fin 2048) (h : Fin 16) (j : Fin 128) :
    idx_main_v6 (ix4 b s h j) = ix5 b s (0 : Fin 1) h j := by
  have hb := b.isLt; have hs := s.isLt; have hh := h.isLt; have hj := j.isLt
  funext a; apply Fin.ext
  match a with
  | ⟨0, _⟩ => show (((b.val * 2048 + s.val) * 16 + h.val) * 128 + j.val) / 4194304 = b.val; omega
  | ⟨1, _⟩ => show (((b.val * 2048 + s.val) * 16 + h.val) * 128 + j.val) / 2048 % 2048 = s.val; omega
  | ⟨2, _⟩ => rfl
  | ⟨3, _⟩ => show (((b.val * 2048 + s.val) * 16 + h.val) * 128 + j.val) / 128 % 16 = h.val; omega
  | ⟨4, _⟩ => show (((b.val * 2048 + s.val) * 16 + h.val) * 128 + j.val) % 128 = j.val; omega

/-- A row of 6144 entries viewed as 3 × 16 × 128: slot `c`, head `h`, lane `j` is column
    `c·2048 + h·128 + j`. -/
theorem split_idx (b : Fin 2) (s : Fin 2048) (c : Fin 3) (h : Fin 16) (j : Fin 128) (e : Fin 6144)
    (he : e.val = c.val * 2048 + (h.val * 128 + j.val)) :
    idx_main_v4 (ix5 b s c h j) = ix3 b s e := by
  have hb := b.isLt; have hs := s.isLt; have hc := c.isLt; have hh := h.isLt; have hj := j.isLt
  funext a; apply Fin.ext
  match a with
  | ⟨0, _⟩ =>
    show ((((b.val * 2048 + s.val) * 3 + c.val) * 16 + h.val) * 128 + j.val) / 12582912 = b.val; omega
  | ⟨1, _⟩ =>
    show ((((b.val * 2048 + s.val) * 3 + c.val) * 16 + h.val) * 128 + j.val) / 6144 % 2048 = s.val; omega
  | ⟨2, _⟩ =>
    show ((((b.val * 2048 + s.val) * 3 + c.val) * 16 + h.val) * 128 + j.val) % 6144 = e.val; omega

/-- The query entries: head `h`, row `s`, lane `j` is the projection's column `h·128 + j`. -/
theorem query_apply (b : Fin 2) (h : Fin 16) (s : Fin 2048) (j : Fin 128) :
    val_main_v7 (F := Ideal) x0 x1 x2 (ix4 b h s j) = qkvOf x0 x1 x2 b s (colQ h j) := by
  have e7 : idx_main_v7 (ix4 b h s j) = ix4 b s h j :=
    funext fun a => Fin.ext (by match a with | ⟨0, _⟩ => rfl | ⟨1, _⟩ => rfl | ⟨2, _⟩ => rfl | ⟨3, _⟩ => rfl)
  have e5 : idx_main_v5 (ix5 b s (0 : Fin 1) h j) = ix5 b s (0 : Fin 3) h j :=
    funext fun a => Fin.ext (by
      match a with | ⟨0, _⟩ => rfl | ⟨1, _⟩ => rfl | ⟨2, _⟩ => rfl | ⟨3, _⟩ => rfl | ⟨4, _⟩ => rfl)
  rw [val_main_v7_apply, e7, val_main_v6_apply, unsqueeze_idx, val_main_v5_apply, e5, val_main_v4_apply,
    split_idx b s 0 h j (colQ h j) (by simp [colQ]), proj_apply]

/-- The key entries: head `h`, row `t`, lane `j` is the projection's column `2048 + h·128 + j`. -/
theorem key_apply (b : Fin 2) (h : Fin 16) (t : Fin 2048) (j : Fin 128) :
    val_main_v10 (F := Ideal) x0 x1 x2 (ix4 b h t j) = qkvOf x0 x1 x2 b t (colK h j) := by
  have e7 : idx_main_v10 (ix4 b h t j) = ix4 b t h j :=
    funext fun a => Fin.ext (by match a with | ⟨0, _⟩ => rfl | ⟨1, _⟩ => rfl | ⟨2, _⟩ => rfl | ⟨3, _⟩ => rfl)
  have e6 : idx_main_v9 (ix4 b t h j) = ix5 b t (0 : Fin 1) h j := unsqueeze_idx b t h j
  have e5 : idx_main_v8 (ix5 b t (0 : Fin 1) h j) = ix5 b t (1 : Fin 3) h j :=
    funext fun a => Fin.ext (by
      match a with | ⟨0, _⟩ => rfl | ⟨1, _⟩ => rfl | ⟨2, _⟩ => rfl | ⟨3, _⟩ => rfl | ⟨4, _⟩ => rfl)
  rw [val_main_v10_apply, e7, val_main_v9_apply, e6, val_main_v8_apply, e5, val_main_v4_apply,
    split_idx b t 1 h j (colK h j) (by simp [colK]), proj_apply]

/-- The value entries: head `h`, row `t`, lane `j` is the projection's column `4096 + h·128 + j`. -/
theorem value_apply (b : Fin 2) (h : Fin 16) (t : Fin 2048) (j : Fin 128) :
    val_main_v13 (F := Ideal) x0 x1 x2 (ix4 b h t j) = qkvOf x0 x1 x2 b t (colV h j) := by
  have e7 : idx_main_v13 (ix4 b h t j) = ix4 b t h j :=
    funext fun a => Fin.ext (by match a with | ⟨0, _⟩ => rfl | ⟨1, _⟩ => rfl | ⟨2, _⟩ => rfl | ⟨3, _⟩ => rfl)
  have e6 : idx_main_v12 (ix4 b t h j) = ix5 b t (0 : Fin 1) h j := unsqueeze_idx b t h j
  have e5 : idx_main_v11 (ix5 b t (0 : Fin 1) h j) = ix5 b t (2 : Fin 3) h j :=
    funext fun a => Fin.ext (by
      match a with | ⟨0, _⟩ => rfl | ⟨1, _⟩ => rfl | ⟨2, _⟩ => rfl | ⟨3, _⟩ => rfl | ⟨4, _⟩ => rfl)
  rw [val_main_v13_apply, e7, val_main_v12_apply, e6, val_main_v11_apply, e5, val_main_v4_apply,
    split_idx b t 2 h j (colV h j) (by simp [colV]), proj_apply]

end Cert.ReferenceIdeal.RefValue

end
-- ==== Proof.RefScore.lean ====
/-
  The reference's scores: for each batch and head, query row `s` against key row `t` is the
  contraction of the two rows over the 128 lanes, divided by the scale, plus the causal mask.

  The mask is built from two integer ramps: entry `(s, t)` is `0` when the row ramp is at least
  the column ramp, read as signed 32-bit words, and `−∞` otherwise.  Both ramps stay below 2048,
  far from the sign bit, so the signed comparison is the comparison of the positions.
-/
import proofs.«146706_j7413113552965_2_alg».proof.Proof.RefQkv

import Idealize.ShloMosaic.Lib.Affine

noncomputable section

namespace Cert.ReferenceIdeal.RefValue

open Cert.ReferenceIdeal Cert.ReferenceIdeal.Read Idealize.ShloMosaic Idealize.ShloMosaic.ValueIdx Cert.Spec
open scoped BigOperators

variable (x0 : (⟨S2x2048x2048, .f32⟩ : BufTy).Contents (Elt Ideal))
  (x1 : (⟨S6144x2048, .f32⟩ : BufTy).Contents (Elt Ideal))
  (x2 : (⟨S6144, .f32⟩ : BufTy).Contents (Elt Ideal))

/-- A position below 2048, as a 32-bit word read signed, is itself. -/
theorem toInt_ofNat_small (n : Nat) (hn : n < 2048) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The mask's condition holds exactly on and below the diagonal. -/
theorem causal_bit (s t : Fin 2048) :
    IntOp.cmpi .sge (IntOp.addi (BitVec.ofNat 32 s.val) 0#32) (BitVec.ofNat 32 t.val) = 1#1
      ↔ t.val ≤ s.val := by
  rw [IntOp.cmpi_sge, IntOp.addi, BitVec.add_zero, toInt_ofNat_small _ s.isLt, toInt_ofNat_small _ t.isLt]
  exact Int.ofNat_le

/-- The word of `−∞`. -/
theorem ofBits_neg_inf : Ideal.ofBits .f32 0xFF800000#32 = (⊥ : EReal) := by
  simp [Ideal.ofBits, Ideal.ieee]

/-- The mask, entry by entry. -/
theorem mask_apply (s t : Fin 2048) : val_main_v18 (F := Ideal) (ix2 s t) = mask s t := by
  rw [val_main_v18_apply, val_main_call0_v5_apply, val_main_call0_cst_apply, val_main_v17_apply,
    val_main_cst_0_apply, val_main_call0_v4_apply, val_main_call0_v2_apply, val_main_call0_v1_apply,
    val_main_call0_c_apply, val_main_call0_v0_apply, val_main_call0_v3_apply]
  show Scalar.select (IntOp.cmpi .sge (IntOp.addi (BitVec.ofNat 32 s.val) 0#32) (BitVec.ofNat 32 t.val))
    (Ideal.ofBits .f32 0x00000000#32) (Ideal.ofBits .f32 0xFF800000#32) = mask s t
  unfold mask
  by_cases h : t.val ≤ s.val
  · rw [(causal_bit s t).mpr h, select_one, if_pos h, Ideal.ofBits_zero_f32]
  · rw [eq_zero_of_ne_one (mt (causal_bit s t).mp h), select_zero, if_neg h, ofBits_neg_inf]

/-- The masked, scaled scores, entry by entry. -/
theorem score_apply (b : Fin 2) (h : Fin 16) (s t : Fin 2048) :
    val_main_v21 (F := Ideal) x0 x1 x2 (ix4 b h s t) = score (qkvOf x0 x1 x2) b h s t := by
  have el : ∀ k : Fin 128, lidx_main_v14 (ix4 b h s t) k = ix4 b h s k := fun k =>
    funext fun a => Fin.ext (by match a with | ⟨0, _⟩ => rfl | ⟨1, _⟩ => rfl | ⟨2, _⟩ => rfl | ⟨3, _⟩ => rfl)
  have er : ∀ k : Fin 128, ridx_main_v14 (ix4 b h s t) k = ix4 b h t k := fun k =>
    funext fun a => Fin.ext (by match a with | ⟨0, _⟩ => rfl | ⟨1, _⟩ => rfl | ⟨2, _⟩ => rfl | ⟨3, _⟩ => rfl)
  have em : idx_main_v19 (idx_main_v20 (ix4 b h s t)) = ix2 s t :=
    funext fun a => Fin.ext (by match a with | ⟨0, _⟩ => rfl | ⟨1, _⟩ => rfl)
  rw [val_main_v21_apply, val_main_v16_apply, val_main_v14_apply, val_main_v15_apply, val_main_cst_apply,
    val_main_v20_apply, val_main_v19_apply, em, mask_apply]
  simp only [el, er, query_apply, key_apply]
  rfl

end Cert.ReferenceIdeal.RefValue

end
-- ==== Proof.RefSoftmax.lean ====
/-
  The reference's softmax: the row maximum, the shifted exponentials, their sum, and the weights.

  The row maximum is a fold of `max` from `−∞` along the key axis — the supremum of the row —
  and the further `max` with a constant `−∞` changes nothing.  The sum starts from the word of
  zero, which adds nothing.  The broadcasts back along the key axis read the row's entry.
-/
import proofs.«146706_j7413113552965_2_alg».proof.Proof.RefScore
import proofs.«146706_j7413113552965_2_alg».proof.Proof.LibOnlineSoftmax

noncomputable section

namespace Cert.ReferenceIdeal.RefValue

open Cert.ReferenceIdeal Cert.ReferenceIdeal.Read Idealize.ShloMosaic Idealize.ShloMosaic.ValueIdx Cert.Spec
open scoped BigOperators

variable (x0 : (⟨S2x2048x2048, .f32⟩ : BufTy).Contents (Elt Ideal))
  (x1 : (⟨S6144x2048, .f32⟩ : BufTy).Contents (Elt Ideal))
  (x2 : (⟨S6144, .f32⟩ : BufTy).Contents (Elt Ideal))

/-- The source index over row `(b, h, s)` whose key coordinate is `k`. -/
theorem lift_row (hr : S2x16x2048x2048.Reduces [3] S2x16x2048) (b : Fin 2) (h : Fin 16) (s : Fin 2048)
    (k : Fin (S2x16x2048x2048.size 3)) :
    hr.lift (ix3 b h s) k = ix4 b h s (⟨k.val, k.isLt⟩ : Fin 2048) := by
  funext c; apply Fin.ext
  fin_cases c <;> rfl

/-- The row maximum: the supremum of the row's scores. -/
theorem rowMax_apply (b : Fin 2) (h : Fin 16) (s : Fin 2048) :
    val_main_v24 (F := Ideal) x0 x1 x2 (ix3 b h s) = rowMax (qkvOf x0 x1 x2) b h s := by
  have hr : S2x16x2048x2048.Reduces [3] S2x16x2048 := by decide
  have hf : (val_main_v21 (F := Ideal) x0 x1 x2 ∘ hr.lift (ix3 b h s))
      = fun t : Fin 2048 => score (qkvOf x0 x1 x2) b h s t :=
    funext fun k => (congrArg (val_main_v21 (F := Ideal) x0 x1 x2) (lift_row hr b h s k)).trans
      (score_apply x0 x1 x2 b h s _)
  rw [val_main_v24_apply, val_main_v23_apply, val_main_cst_2_apply]
  unfold val_main_v22
  rw [Host.reduce_eq_fold_single FloatOps.maximumf _ _ _ hr]
  show max (Ideal.ofBits .f32 0xFF800000#32)
      (Finset.fold max (Ideal.ofBits .f32 0xFF800000#32)
        (val_main_v21 (F := Ideal) x0 x1 x2 ∘ hr.lift (ix3 b h s)) (Finset.univ : Finset (Fin 2048))) = _
  rw [hf, ofBits_neg_inf]
  exact (max_eq_right bot_le).trans
    (Cert.Lib.OnlineSoftmax.univ_fold_max_eq_sup fun t : Fin 2048 => score (qkvOf x0 x1 x2) b h s t)

/-- The shifted exponentials, entry by entry. -/
theorem expo_apply (b : Fin 2) (h : Fin 16) (s t : Fin 2048) :
    val_main_v28 (F := Ideal) x0 x1 x2 (ix4 b h s t) = expo (qkvOf x0 x1 x2) b h s t := by
  have er : idx_main_v25 (idx_main_v26 (ix4 b h s t)) = ix3 b h s :=
    funext fun a => Fin.ext (by match a with | ⟨0, _⟩ => rfl | ⟨1, _⟩ => rfl | ⟨2, _⟩ => rfl)
  rw [val_main_v28_apply, val_main_v27_apply, val_main_v26_apply, val_main_v25_apply, er, rowMax_apply,
    score_apply]
  rfl

/-- The softmax denominator of a row. -/
theorem denom_apply (b : Fin 2) (h : Fin 16) (s : Fin 2048) :
    val_main_v29 (F := Ideal) x0 x1 x2 (ix3 b h s) = denom (qkvOf x0 x1 x2) b h s := by
  have ek : ∀ k : Fin 2048, idx_main_v29 (ix3 b h s) k = ix4 b h s k := fun k =>
    funext fun a => Fin.ext (by match a with | ⟨0, _⟩ => rfl | ⟨1, _⟩ => rfl | ⟨2, _⟩ => rfl | ⟨3, _⟩ => rfl)
  rw [val_main_v29_apply, val_main_cst_3_apply]
  simp only [ek, expo_apply]
  show Ideal.ofBits .f32 0x00000000#32 + _ = _
  rw [Ideal.ofBits_zero_f32, zero_add]
  rfl

/-- The softmax weights, entry by entry. -/
theorem weight_apply (b : Fin 2) (h : Fin 16) (s t : Fin 2048) :
    val_main_v32 (F := Ideal) x0 x1 x2 (ix4 b h s t)
      = Ideal.div (expo (qkvOf x0 x1 x2) b h s t) (denom (qkvOf x0 x1 x2) b h s) := by
  have er : idx_main_v30 (idx_main_v31 (ix4 b h s t)) = ix3 b h s :=
    funext fun a => Fin.ext (by match a with | ⟨0, _⟩ => rfl | ⟨1, _⟩ => rfl | ⟨2, _⟩ => rfl)
  rw [val_main_v32_apply, val_main_v31_apply, val_main_v30_apply, er, denom_apply, expo_apply]
  rfl

end Cert.ReferenceIdeal.RefValue

end
-- ==== Proof.RefOut.lean ====
/-
  The reference's last stages: each head's weighted sum of its value rows, the heads put side by
  side again, and the output projection.

  Putting the heads side by side swaps the head and sequence axes back and flattens
  16 × 128 into 2048: column `d` comes from head `d / 128`, lane `d % 128`.
-/
import proofs.«146706_j7413113552965_2_alg».proof.Proof.RefSoftmax

noncomputable section

namespace Cert.ReferenceIdeal.RefValue

open Cert.ReferenceIdeal Cert.ReferenceIdeal.Read Idealize.ShloMosaic Idealize.ShloMosaic.ValueIdx Cert.Spec
open scoped BigOperators

variable (x0 : (⟨S2x2048x2048, .f32⟩ : BufTy).Contents (Elt Ideal))
  (x1 : (⟨S6144x2048, .f32⟩ : BufTy).Contents (Elt Ideal))
  (x2 : (⟨S6144, .f32⟩ : BufTy).Contents (Elt Ideal))

variable (x3 : (⟨S2048x2048, .f32⟩ : BufTy).Contents (Elt Ideal))
  (x4 : (⟨S2048, .f32⟩ : BufTy).Contents (Elt Ideal))

/-- A head's output, entry by entry. -/
theorem headOut_apply (b : Fin 2) (h : Fin 16) (s : Fin 2048) (j : Fin 128) :
    val_main_v33 (F := Ideal) x0 x1 x2 (ix4 b h s j) = headOut (qkvOf x0 x1 x2) b h s j := by
  have el : ∀ k : Fin 2048, lidx_main_v33 (ix4 b h s j) k = ix4 b h s k := fun k =>
    funext fun a => Fin.ext (by match a with | ⟨0, _⟩ => rfl | ⟨1, _⟩ => rfl | ⟨2, _⟩ => rfl | ⟨3, _⟩ => rfl)
  have er : ∀ k : Fin 2048, ridx_main_v33 (ix4 b h s j) k = ix4 b h k j := fun k =>
    funext fun a => Fin.ext (by match a with | ⟨0, _⟩ => rfl | ⟨1, _⟩ => rfl | ⟨2, _⟩ => rfl | ⟨3, _⟩ => rfl)
  rw [val_main_v33_apply]
  simp only [el, er, weight_apply, value_apply]
  rfl

/-- Row-major position `(b·2048 + s)·2048 + d` read as `(b, s, d / 128, d % 128)`. -/
theorem heads_idx (b : Fin 2) (s : Fin 2048) (d : Fin 2048) :
    idx_main_v35 (ix3 b s d) = ix4 b s (headOf d) (laneOf d) := by
  have hb := b.isLt; have hs := s.isLt; have hd := d.isLt
  funext a; apply Fin.ext
  match a with
  | ⟨0, _⟩ => show ((b.val * 2048 + s.val) * 2048 + d.val) / 4194304 = b.val; omega
  | ⟨1, _⟩ => show ((b.val * 2048 + s.val) * 2048 + d.val) / 2048 % 2048 = s.val; omega
  | ⟨2, _⟩ => show ((b.val * 2048 + s.val) * 2048 + d.val) / 128 % 16 = d.val / 128; omega
  | ⟨3, _⟩ => show ((b.val * 2048 + s.val) * 2048 + d.val) % 128 = d.val % 128; omega

/-- The attention output with the heads side by side, entry by entry. -/
theorem attn_apply (b : Fin 2) (s : Fin 2048) (d : Fin 2048) :
    val_main_v35 (F := Ideal) x0 x1 x2 (ix3 b s d) = attnOf x0 x1 x2 b s d := by
  have e34 : idx_main_v34 (ix4 b s (headOf d) (laneOf d)) = ix4 b (headOf d) s (laneOf d) :=
    funext fun a => Fin.ext (by match a with | ⟨0, _⟩ => rfl | ⟨1, _⟩ => rfl | ⟨2, _⟩ => rfl | ⟨3, _⟩ => rfl)
  rw [val_main_v35_apply, heads_idx, val_main_v34_apply, e34, headOut_apply]
  rfl

/-- The result, entry by entry. -/
theorem out_apply (b : Fin 2) (s : Fin 2048) (e : Fin 2048) :
    val_main_v39 (F := Ideal) x0 x1 x2 x3 x4 (ix3 b s e) = out x0 x1 x2 x3 x4 b s e := by
  have el : ∀ k : Fin 2048, lidx_main_v36 (ix3 b s e) k = ix3 b s k := fun k =>
    funext fun a => Fin.ext (by match a with | ⟨0, _⟩ => rfl | ⟨1, _⟩ => rfl | ⟨2, _⟩ => rfl)
  have er : ∀ k : Fin 2048, ridx_main_v36 (ix3 b s e) k = ix2 e k := fun k =>
    funext fun a => Fin.ext (by match a with | ⟨0, _⟩ => rfl | ⟨1, _⟩ => rfl)
  have eb : idx_main_v37 (idx_main_v38 (ix3 b s e)) = ix1 e :=
    funext fun a => Fin.ext (by match a with | ⟨0, _⟩ => rfl)
  rw [val_main_v39_apply, val_main_v36_apply, val_main_v38_apply, val_main_v37_apply, eb]
  simp only [el, er, attn_apply]
  rfl

/-- The reference computes the specification. -/
theorem result_eq (x0 : (⟨S2x2048x2048, .f32⟩ : BufTy).Contents (Elt Ideal))
    (x1 : (⟨S6144x2048, .f32⟩ : BufTy).Contents (Elt Ideal))
    (x2 : (⟨S6144, .f32⟩ : BufTy).Contents (Elt Ideal))
    (x3 : (⟨S2048x2048, .f32⟩ : BufTy).Contents (Elt Ideal))
    (x4 : (⟨S2048, .f32⟩ : BufTy).Contents (Elt Ideal)) :
    Cert.ReferenceIdeal.Read.val_main_v39 x0 x1 x2 x3 x4 = Cert.Spec.G x0 x1 x2 x3 x4 := by
  funext i
  obtain ⟨b, s, e, rfl⟩ : ∃ (b : Fin 2) (s : Fin 2048) (e : Fin 2048), i = ix3 b s e :=
    ⟨i 0, i 1, i 2, eq_ix3 i⟩
  exact out_apply x0 x1 x2 x3 x4 b s e

end Cert.ReferenceIdeal.RefValue

end
-- ==== Proof.Claims.lean ====
/-
  The five claims, assembled.

  * The three frames.  Each of the two printed kernel programs runs to its end, faulting nowhere, with its argument
    arrays unchanged: this is the program's run with the result's buffer dropped from what it concludes — once at the
    word-level instance and once over the extended reals, the same run in the two programs' namespaces.  The reference
    has no kernel region: its frame is its run with the result dropped.
  * The idealized kernel program differs from the printed one in two constants read as the exact values they stand
    for: the scale of the scores, the reciprocal of the divisor the reference scales by, and the fill of the causal
    mask, `−∞`.  One statement per constant.
  * Over the extended reals, from memories agreeing on the five arguments, both programs end with the result's buffer
    at the one function `Cert.Spec.G` of the arguments: the kernel program by the regions' values composed, the
    reference by reading its operations one at a time.
-/
import proofs.«146706_j7413113552965_2_alg».proof.Defs
import proofs.«146706_j7413113552965_2_alg».proof.Proof.Run
import proofs.«146706_j7413113552965_2_alg».proof.Proof.WRun
import proofs.«146706_j7413113552965_2_alg».proof.Proof.Compose
import proofs.«146706_j7413113552965_2_alg».proof.Proof.RefOut
import proofs.«146706_j7413113552965_2_alg».proof.Proof.Gen.Kernel
import proofs.«146706_j7413113552965_2_alg».proof.Proof.Gen.KernelIdeal
import proofs.«146706_j7413113552965_2_alg».proof.Proof.Gen.ReferenceIdeal
import proofs.«146706_j7413113552965_2_alg».proof.Proof.Gen.ReferenceIdeal.Run
import proofs.«146706_j7413113552965_2_alg».proof.Proof.Gen.ReferenceIdeal.Read
import proofs.«146706_j7413113552965_2_alg».proof.Proof.Gen.Pre_finite_inputs

noncomputable section

namespace Cert.Proof.Claims

open Idealize.ShloMosaic Idealize.ShloMosaic.TcCoe Idealize.SL.Sem

/-- The printed kernel program's frame: its run, the result dropped. -/
theorem frame_k : Cert.frame_Kernel := fun m ρ _ =>
  (θ_run (Cert.Kernel.defs (F := Bits)) _ _).mono (fun _ h c => (h c).2) (Cert.Kernel.Hand.run_value (F := Bits) m ρ)

/-- The idealized kernel program's frame: its run, the result dropped. -/
theorem frame_ki : Cert.frame_KernelIdeal := fun m ρ _ =>
  (θ_run (Cert.KernelIdeal.defs (F := Ideal)) _ _).mono (fun _ h c => (h c).2) (Cert.KernelIdeal.Hand.run_value (F := Ideal) m ρ)

/-- The reference's frame: its run, the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The two named constants: the scores' scale is the reciprocal of the reference's divisor, `1048576 / 11863283`,
    and the mask's fill is `−∞`. -/
theorem preserves : Cert.preserves_Kernel_KernelIdeal :=
  ⟨IdealRules.named_const.statement Cert.KernelIdeal.κ "inv_d" .f32 0x3DB504F3#32 ((1048576 / 11863283 : ℝ) : EReal) rfl,
   IdealRules.named_const.statement Cert.KernelIdeal.κ "neg_big" .f32 0xFF333332#32 ⊥ rfl⟩

/-- Both idealized programs end with the result at `Cert.Spec.G` of the arguments. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.KernelIdeal.Hand.kernel_value m hpre c), (h c).2⟩)
      (Cert.KernelIdeal.Hand.run_value (F := Ideal) m ρ)
  · refine (θ_run (Cert.ReferenceIdeal.defs (F := Ideal)) _ _).mono (fun _ h c => ⟨?_, (h c).2⟩)
      (Cert.ReferenceIdeal.Value.run (F := Ideal) m' ρ')
    rw [(h c).1, Cert.ReferenceIdeal.Read.val_main_v39_eq, Cert.ReferenceIdeal.RefValue.result_eq,
      (hagree c).1, (hagree c).2.1, (hagree c).2.2.1, (hagree c).2.2.2.1, (hagree c).2.2.2.2]

end Cert.Proof.Claims

end
-- ==== Proof.lean ====
/-
  The certificate's proof: a causal multi-head self-attention layer — the projection of the tokens to queries, keys
  and values, sixteen heads of causal softmax attention, and the output projection — computed by three kernel regions
  (the projection, a tiled attention that keeps a running maximum, denominator and weighted sum per query row, and the
  output projection) against the same layer written with whole-array operations.

  Proof/Spec.lean states the layer once, as a function of the five argument arrays over the extended reals.  The
  reference's operations are read against it one at a time (Proof/RefQkv.lean, RefScore.lean, RefSoftmax.lean,
  RefOut.lean).  On the kernel side each region's output array is read as a whole-array function of its inputs: the two
  projections as sums of products plus a bias (Proof/Lin0Value.lean, Lin2Value.lean); the attention through the
  tile-by-tile running-maximum softmax, which equals the softmax taken with the row's global maximum and denominator
  because every rescaling multiplies both running sums by the same factor and tiles above the diagonal contribute
  nothing (Proof/AttnScore.lean … AttnGrid.lean, FlashArr.lean); the kernel scales the scores by the reciprocal of the
  divisor the reference divides by, and a product with the reciprocal of a nonzero real is the quotient.  The regions'
  values compose through the host reshapes (Proof/Compose.lean).  That every program runs to its end, faulting
  nowhere, with its arguments unchanged is the run of Proof/Run.lean over the three regions' body runs (Proof/Lin0.lean,
  Lin2.lean, FlashRunA.lean … FlashBody.lean), at both instances.  Proof/Claims.lean assembles the five claims.
-/
import proofs.«146706_j7413113552965_2_alg».proof.Defs
import proofs.«146706_j7413113552965_2_alg».proof.Proof.Claims
import proofs.«146706_j7413113552965_2_alg».proof.Proof.Gen.Kernel
import proofs.«146706_j7413113552965_2_alg».proof.Proof.Gen.KernelIdeal
import proofs.«146706_j7413113552965_2_alg».proof.Proof.Gen.ReferenceIdeal
import proofs.«146706_j7413113552965_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
